-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_temperature" .f32 0x41200000#32 ((134217728 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S8192 : Shape := ⟨1, ![8192]⟩
abbrev S8192x3 : Shape := ⟨2, ![8192, 3]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel
  bcast_S_S8192x3 : S_.BroadcastsInDim S8192x3 (![] : Fin 0 → Fin S8192x3.rank)
  reducesTo_S8192x3_S_d0_1 : S8192x3.ReducesTo [0, 1] S_

variable [Facts]

def fn {F : FTy → Type} [FloatOps F] (main_arg0 : FVec F S8192x64 .f32) (main_arg1 : IVec S8192 32) (main_arg2 : FVec F S8192x3 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S8192x3 .f32 := Host.absf main_arg2
  let main_cst_0 : FVec F S_ .f32 := constant S_ .f32 0x7F800000#32
  let main_v5 : FVec F S8192x3 .f32 := broadcastInDim S8192x3 ![] bcast_S_S8192x3 main_cst_0
  let main_v6 : IVec S8192x3 1 := cmpf .olt main_v4 main_v5
  let main_c_1 : IVec S_ 1 := constantI S_ 1 1#1
  let main_v7 : IVec S_ 1 := (fun x v => Host.reduce IntOp.andi x v reducesTo_S8192x3_S_d0_1 h_S_) main_v6 main_c_1
  let main_v8 : IVec S_ 1 := andi main_v3 main_v7
  main_v8
-- ==== Kernel.lean ====
abbrev S8192x64 : Shape := ⟨2, ![8192, 64]⟩
abbrev S8192 : Shape := ⟨1, ![8192]⟩
abbrev S8192x3 : Shape := ⟨2, ![8192, 3]⟩
abbrev S_ : Shape := ⟨0, ![]⟩
abbrev S8192x1 : Shape := ⟨2, ![8192, 1]⟩
abbrev S8192x5 : Shape := ⟨2, ![8192, 5]⟩
abbrev S1x8192 : Shape := ⟨2, ![1, 8192]⟩
abbrev S512x64 : Shape := ⟨2, ![512, 64]⟩
abbrev S1024x64 : Shape := ⟨2, ![1024, 64]⟩
abbrev S512x5 : Shape := ⟨2, ![512, 5]⟩
abbrev S1024x5 : Shape := ⟨2, ![1024, 5]⟩
abbrev S1x1024 : Shape := ⟨2, ![1, 1024]⟩
abbrev S512x3 : Shape := ⟨2, ![512, 3]⟩
abbrev S512x1 : Shape := ⟨2, ![512, 1]⟩
abbrev S1024x3 : Shape := ⟨2, ![1024, 3]⟩
abbrev S64x1024 : Shape := ⟨2, ![64, 1024]⟩
abbrev S512x1024 : Shape := ⟨2, ![512, 1024]⟩
abbrev S3x1024 : Shape := ⟨2, ![3, 1024]⟩
abbrev S512 : Shape := ⟨1, ![512]⟩

abbrev nBuf : Space → Nat
  | .hbm => 58
  | .vmem => 15
  | .smem => 0
  | _ => 0

abbrev bufTy : (tb : Table) → Fin (tcTables nBuf tb) → BufTy
  | .hbm, ⟨0, _⟩ => ⟨S8192x64, .f32⟩
  | .hbm, ⟨1, _⟩ => ⟨S8192, .i32⟩
  | .hbm, ⟨2, _⟩ => ⟨S8192x3, .f32⟩
  | .hbm, ⟨3, _⟩ => ⟨S_, .i32⟩
  | .hbm, ⟨4, _⟩ => ⟨S8192, .i32⟩
  | .hbm, ⟨5, _⟩ => ⟨S8192, .i1⟩
  | .hbm, ⟨6, _⟩ => ⟨S8192, .f32⟩
  | .hbm, ⟨7, _⟩ => ⟨S_, .f32⟩
  | .hbm, ⟨8, _⟩ => ⟨S_, .f32⟩
  | .hbm, ⟨9, _⟩ => ⟨S8192x64, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x64, .f32⟩
  | .hbm, ⟨18, _⟩ => ⟨S8192x64, .f32⟩
  | .hbm, ⟨19, _⟩ => ⟨S8192x64, .bf16⟩
  | .hbm, ⟨20, _⟩ => ⟨S8192x3, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S8192x1, .f32⟩
  | .hbm, ⟨25, _⟩ => ⟨S8192x5, .f32⟩
  | .hbm, ⟨26, _⟩ => ⟨S1x8192, .f32⟩
  | .hbm, ⟨27, _⟩ => ⟨S1x8192, .f32⟩
  | .hbm, ⟨28, _⟩ => ⟨S8192x3, .f32⟩
  | .hbm, ⟨29, _⟩ => ⟨S8192x1, .f32⟩
  | .hbm, ⟨30, _⟩ => ⟨S8192, .f32⟩
  | .hbm, ⟨31, _⟩ => ⟨S8192x1, .f32⟩
  | .hbm, ⟨32, _⟩ => ⟨S8192, .f32⟩
  | .hbm, ⟨33, _⟩ => ⟨S8192x1, .f32⟩
  | .hbm, ⟨34, _⟩ => ⟨S8192, .f32⟩
  | .hbm, ⟨35, _⟩ => ⟨S_, .f32⟩
  | .hbm, ⟨36, _⟩ => ⟨S8192, .f32⟩
  | .hbm, ⟨37, _⟩ => ⟨S8192, .f32⟩
  | .hbm, ⟨38, _⟩ => ⟨S8192, .f32⟩
  | .hbm, ⟨39, _⟩ => ⟨S_, .f32⟩
  | .hbm, ⟨40, _⟩ => ⟨S_, .f32⟩
  | .hbm, ⟨41, _⟩ => ⟨S8192, .f32⟩
  | .hbm, ⟨42, _⟩ => ⟨S8192, .f32⟩
  | .hbm, ⟨43, _⟩ => ⟨S8192, .f32⟩
  | .hbm, ⟨44, _⟩ => ⟨S8192, .f32⟩
  | .hbm, ⟨45, _⟩ => ⟨S8192, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .local _ .vmem, ⟨0, _⟩ => ⟨S512x64, .bf16⟩
  | .local _ .vmem, ⟨1, _⟩ => ⟨S512x64, .bf16⟩
  | .local _ .vmem, ⟨2, _⟩ => ⟨S1024x64, .bf16⟩
  | .local _ .vmem, ⟨3, _⟩ => ⟨S1024x64, .bf16⟩
  | .local _ .vmem, ⟨4, _⟩ => ⟨S512x5, .f32⟩
  | .local _ .vmem, ⟨5, _⟩ => ⟨S512x5, .f32⟩
  | .local _ .vmem, ⟨6, _⟩ => ⟨S1024x5, .f32⟩
  | .local _ .vmem, ⟨7, _⟩ => ⟨S1024x5, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S512x3, .f32⟩
  | .local _ .vmem, ⟨13, _⟩ => ⟨S512x3, .f32⟩
  | .local _ .vmem, ⟨14, _⟩ => ⟨S512x3, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_call0_v0 : Ref sig .tc := ⟨.hbm, 9, rfl⟩
abbrev main_call0_cst : Ref sig .tc := ⟨.hbm, 10, rfl⟩
abbrev main_call0_v1 : Ref sig .tc := ⟨.hbm, 11, rfl⟩
abbrev main_call0_v2 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_call1_v0 : Ref sig .tc := ⟨.hbm, 40, rfl⟩
abbrev main_call1_v1 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_6 : Ref sig .tc := ⟨.hbm, 53, rfl⟩
abbrev main_v36 : Ref sig .tc := ⟨.hbm, 54, rfl⟩
abbrev main_v37 : Ref sig .tc := ⟨.hbm, 55, rfl⟩
abbrev main_cst_7 : Ref sig .tc := ⟨.hbm, 56, rfl⟩
abbrev main_v38 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v74 : BitVec 1 := Scalar.cmpi .eq arg1 c7_i32
  let v75 : BitVec 32 := Scalar.extui v74
  let c0_i32_32 : BitVec 32 := 0#32
  let v76 : BitVec 1 := Scalar.cmpi .ne v75 c0_i32_32
  v76

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x5 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x5 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x3 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  bcast_S_S8192 : S_.BroadcastsInDim S8192 (![] : Fin 0 → Fin S8192.rank)
  reducesTo_S8192_S_d0 : S8192.ReducesTo [0] S_
  h_S_ : 0 < S_.numel
  reducesTo_S8192x64_S8192_d1 : S8192x64.ReducesTo [1] S8192
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x64_0_1 : S8192x1.BroadcastsInDim S8192x64 (![0, 1] : Fin 2 → Fin S8192x64.rank)
  bitsLt_bf16_f32 : FTy.bits .bf16 < FTy.bits .f32
  reducesTo_S8192x3_S8192_d1 : S8192x3.ReducesTo [1] S8192
  concatenates_S8192x3_S8192x1_S8192x1_S8192x5_d1 : Shape.Concatenates [S8192x3, S8192x1, S8192x1] S8192x5 1
  shapeCasts_S8192_S1x8192 : S8192.ShapeCasts S1x8192
  inb_S512x3_S512x3_0_0 : ∀ a, (![0, 0] : Fin 2 → Nat) a + S512x3.size a ≤ S512x3.size a
  h_S512x3 : 0 < S512x3.numel
  shapeCasts_S512x3_S512x3 : S512x3.ShapeCasts S512x3
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S512x5_S512x5_0_0 : ∀ a, (![0, 0] : Fin 2 → Nat) a + S512x5.size a ≤ S512x5.size a
  h_S512x5 : 0 < S512x5.numel
  shapeCasts_S512x5_S512x5 : S512x5.ShapeCasts S512x5
  inb_S1024x5_S1024x5_0_0 : ∀ a, (![0, 0] : Fin 2 → Nat) a + S1024x5.size a ≤ S1024x5.size a
  h_S1024x5 : 0 < S1024x5.numel
  shapeCasts_S1024x5_S1024x5 : S1024x5.ShapeCasts S1024x5
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  slices_S512x5_o0_0_S512x3 : S512x5.Slices ![0, 0] S512x3
  slices_S512x5_o0_3_S512x1 : S512x5.Slices ![0, 3] S512x1
  slices_S512x5_o0_4_S512x1 : S512x5.Slices ![0, 4] S512x1
  slices_S1024x5_o0_0_S1024x3 : S1024x5.Slices ![0, 0] S1024x3
  transposes_S1024x64_p1_0_S64x1024 : S1024x64.Transposes [1, 0] S64x1024
  transposes_S1024x3_p1_0_S3x1024 : S1024x3.Transposes [1, 0] S3x1024
  broadcasts_S512x1_S512x1024 : S512x1.Broadcasts S512x1024
  broadcasts_S1x1024_S512x1024 : S1x1024.Broadcasts S512x1024
  natLt_1_32 : 1 < 32
  reduces_S512x1024_S512 : S512x1024.Reduces [1] S512
  shapeCasts_S512_S512x1 : S512.ShapeCasts S512x1
  inb_S512x3_S512x1_0_0 : ∀ a, (![0, 0] : Fin 2 → Nat) a + S512x1.size a ≤ S512x3.size a
  h_S512x1 : 0 < S512x1.numel
  shapeCasts_S512x1_S512x1 : S512x1.ShapeCasts S512x1
  inb_S512x3_S512x1_0_1 : ∀ a, (![0, 1] : Fin 2 → Nat) a + S512x1.size a ≤ S512x3.size a
  inb_S512x3_S512x1_0_2 : ∀ a, (![0, 2] : Fin 2 → Nat) a + S512x1.size a ≤ S512x3.size a
  slices_S8192x3_S8192x1_0_0 : S8192x3.Slices ![0, 0] S8192x1
  shapeCasts_S8192x1_S8192 : S8192x1.ShapeCasts S8192
  slices_S8192x3_S8192x1_0_1 : S8192x3.Slices ![0, 1] S8192x1
  slices_S8192x3_S8192x1_0_2 : S8192x3.Slices ![0, 2] S8192x1
  dot_S512x64_S64x1024_S512x1024_1_0_0_1_n_n_wf : DotDims.WF S512x64 S64x1024 S512x1024 [1] [0] [0] [1] [] []
  dot_S512x3_S3x1024_S512x1024_1_0_0_1_n_n_wf : DotDims.WF S512x3 S3x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x64.size a ≤ S8192x64.size a
  hwx0_0 : ∀ i : grid0.Coords, EltTy.bits .bf16 = 32 ∨ (Rect.block (s := S8192x64) S512x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S8192x64.size a
  hwx0_1 : ∀ i : grid0.Coords, EltTy.bits .bf16 = 32 ∨ (Rect.block (s := S8192x64) S1024x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x5.size a ≤ S8192x5.size a
  hwx0_2 : ∀ i : grid0.Coords, EltTy.bits .f32 = 32 ∨ (Rect.block (s := S8192x5) S512x5.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x5.size a ≤ S8192x5.size a
  hwx0_3 : ∀ i : grid0.Coords, EltTy.bits .f32 = 32 ∨ (Rect.block (s := S8192x5) S1024x5.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x8192.size a
  hwx0_4 : ∀ i : grid0.Coords, EltTy.bits .f32 = 32 ∨ (Rect.block (s := S1x8192) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x8192.size a
  hwx0_5 : ∀ i : grid0.Coords, EltTy.bits .f32 = 32 ∨ (Rect.block (s := S1x8192) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x3.size a ≤ S8192x3.size a
  hwx0_6 : ∀ i : grid0.Coords, EltTy.bits .f32 = 32 ∨ (Rect.block (s := S8192x3) S512x3.size (cc0_transform_6 i) (hinb0_6 i)).WholeWords (EltTy.packing .f32)

variable [Facts₀]

def dot_S512x64_S64x1024_S512x1024_1_0_0_1_n_n : DotDims S512x64 S64x1024 S512x1024 where
  lhsContracting := [1]
  rhsContracting := [0]
  lhsNonContracting := [0]
  rhsNonContracting := [1]
  lhsBatch := []
  rhsBatch := []
  wf := dot_S512x64_S64x1024_S512x1024_1_0_0_1_n_n_wf
def dot_S512x3_S3x1024_S512x1024_1_0_0_1_n_n : DotDims S512x3 S3x1024 S512x1024 where
  lhsContracting := [1]
  rhsContracting := [0]
  lhsNonContracting := [0]
  rhsNonContracting := [1]
  lhsBatch := []
  rhsBatch := []
  wf := dot_S512x3_S3x1024_S512x1024_1_0_0_1_n_n_wf

abbrev win0_0 : Pipeline.Window sig grid0 :=
  Pipeline.Window.ofSpec (Memref.whole main_v9) S512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S512x5.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1024x5.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v16) S1x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v17) S512x3.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S8192x64 : Shape := ⟨2, ![8192, 64]⟩
abbrev S8192 : Shape := ⟨1, ![8192]⟩
abbrev S8192x3 : Shape := ⟨2, ![8192, 3]⟩
abbrev S_ : Shape := ⟨0, ![]⟩
abbrev S8192x1 : Shape := ⟨2, ![8192, 1]⟩
abbrev S64x8192 : Shape := ⟨2, ![64, 8192]⟩
abbrev S8192x8192 : Shape := ⟨2, ![8192, 8192]⟩
abbrev S1x8192 : Shape := ⟨2, ![1, 8192]⟩
abbrev S3x8192 : Shape := ⟨2, ![3, 8192]⟩

abbrev nBuf : Space → Nat
  | .hbm => 100
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192, .i32⟩
  | .hbm, ⟨2, _⟩ => ⟨S8192x3, .f32⟩
  | .hbm, ⟨3, _⟩ => ⟨S_, .i32⟩
  | .hbm, ⟨4, _⟩ => ⟨S8192, .i32⟩
  | .hbm, ⟨5, _⟩ => ⟨S8192, .i1⟩
  | .hbm, ⟨6, _⟩ => ⟨S8192, .f32⟩
  | .hbm, ⟨7, _⟩ => ⟨S_, .f32⟩
  | .hbm, ⟨8, _⟩ => ⟨S_, .f32⟩
  | .hbm, ⟨9, _⟩ => ⟨S8192x64, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x64, .f32⟩
  | .hbm, ⟨18, _⟩ => ⟨S8192x64, .f32⟩
  | .hbm, ⟨19, _⟩ => ⟨S64x8192, .f32⟩
  | .hbm, ⟨20, _⟩ => ⟨S8192x8192, .f32⟩
  | .hbm, ⟨21, _⟩ => ⟨S8192x3, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S1x8192, .f32⟩
  | .hbm, ⟨26, _⟩ => ⟨S8192x8192, .f32⟩
  | .hbm, ⟨27, _⟩ => ⟨S8192x8192, .f32⟩
  | .hbm, ⟨28, _⟩ => ⟨S8192x8192, .f32⟩
  | .hbm, ⟨29, _⟩ => ⟨S3x8192, .f32⟩
  | .hbm, ⟨30, _⟩ => ⟨S8192x8192, .f32⟩
  | .hbm, ⟨31, _⟩ => ⟨S_, .f32⟩
  | .hbm, ⟨32, _⟩ => ⟨S8192x8192, .f32⟩
  | .hbm, ⟨33, _⟩ => ⟨S8192x8192, .f32⟩
  | .hbm, ⟨34, _⟩ => ⟨S8192x8192, .f32⟩
  | .hbm, ⟨35, _⟩ => ⟨S_, .f32⟩
  | .hbm, ⟨36, _⟩ => ⟨S8192x8192, .f32⟩
  | .hbm, ⟨37, _⟩ => ⟨S8192x8192, .f32⟩
  | .hbm, ⟨38, _⟩ => ⟨S8192x1, .i1⟩
  | .hbm, ⟨39, _⟩ => ⟨S1x8192, .i1⟩
  | .hbm, ⟨40, _⟩ => ⟨S8192x8192, .i1⟩
  | .hbm, ⟨41, _⟩ => ⟨S8192x8192, .i1⟩
  | .hbm, ⟨42, _⟩ => ⟨S8192x8192, .i1⟩
  | .hbm, ⟨43, _⟩ => ⟨S_, .f32⟩
  | .hbm, ⟨44, _⟩ => ⟨S8192x8192, .f32⟩
  | .hbm, ⟨45, _⟩ => ⟨S8192x8192, .i1⟩
  | .hbm, ⟨46, _⟩ => ⟨S_, .f32⟩
  | .hbm, ⟨47, _⟩ => ⟨S8192x8192, .f32⟩
  | .hbm, ⟨48, _⟩ => ⟨S8192x8192, .i1⟩
  | .hbm, ⟨49, _⟩ => ⟨S8192x8192, .i1⟩
  | .hbm, ⟨50, _⟩ => ⟨S8192x8192, .i1⟩
  | .hbm, ⟨51, _⟩ => ⟨S8192x8192, .i1⟩
  | .hbm, ⟨52, _⟩ => ⟨S8192x8192, .i1⟩
  | .hbm, ⟨53, _⟩ => ⟨S8192x8192, .f32⟩
  | .hbm, ⟨54, _⟩ => ⟨S8192x8192, .f32⟩
  | .hbm, ⟨55, _⟩ => ⟨S_, .f32⟩
  | .hbm, ⟨56, _⟩ => ⟨S8192x8192, .f32⟩
  | .hbm, ⟨57, _⟩ => ⟨S8192x8192, .f32⟩
  | .hbm, ⟨58, _⟩ => ⟨S8192x8192, .f32⟩
  | .hbm, ⟨59, _⟩ => ⟨S8192x8192, .f32⟩
  | .hbm, ⟨60, _⟩ => ⟨S_, .f32⟩
  | .hbm, ⟨61, _⟩ => ⟨S8192, .f32⟩
  | .hbm, ⟨62, _⟩ => ⟨S8192x8192, .f32⟩
  | .hbm, ⟨63, _⟩ => ⟨S_, .f32⟩
  | .hbm, ⟨64, _⟩ => ⟨S8192, .f32⟩
  | .hbm, ⟨65, _⟩ => ⟨S8192, .f32⟩
  | .hbm, ⟨66, _⟩ => ⟨S_, .f32⟩
  | .hbm, ⟨67, _⟩ => ⟨S8192, .f32⟩
  | .hbm, ⟨68, _⟩ => ⟨S8192, .f32⟩
  | .hbm, ⟨69, _⟩ => ⟨S8192, .f32⟩
  | .hbm, ⟨70, _⟩ => ⟨S_, .f32⟩
  | .hbm, ⟨71, _⟩ => ⟨S_, .f32⟩
  | .hbm, ⟨72, _⟩ => ⟨S8192, .f32⟩
  | .hbm, ⟨73, _⟩ => ⟨S8192, .f32⟩
  | .hbm, ⟨74, _⟩ => ⟨S8192, .f32⟩
  | .hbm, ⟨75, _⟩ => ⟨S8192, .f32⟩
  | .hbm, ⟨76, _⟩ => ⟨S8192, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S8192x8192, .f32⟩
  | .hbm, ⟨83, _⟩ => ⟨S8192x8192, .f32⟩
  | .hbm, ⟨84, _⟩ => ⟨S8192x8192, .f32⟩
  | .hbm, ⟨85, _⟩ => ⟨S_, .f32⟩
  | .hbm, ⟨86, _⟩ => ⟨S8192x8192, .f32⟩
  | .hbm, ⟨87, _⟩ => ⟨S8192x8192, .f32⟩
  | .hbm, ⟨88, _⟩ => ⟨S8192x8192, .f32⟩
  | .hbm, ⟨89, _⟩ => ⟨S8192x8192, .f32⟩
  | .hbm, ⟨90, _⟩ => ⟨S8192x8192, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_call0_v0 : Ref sig .tc := ⟨.hbm, 9, rfl⟩
abbrev main_call0_cst : Ref sig .tc := ⟨.hbm, 10, rfl⟩
abbrev main_call0_v1 : Ref sig .tc := ⟨.hbm, 11, rfl⟩
abbrev main_call0_v2 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_6 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_7 : Ref sig .tc := ⟨.hbm, 60, rfl⟩
abbrev main_v44 : Ref sig .tc := ⟨.hbm, 61, rfl⟩
abbrev main_v45 : Ref sig .tc := ⟨.hbm, 62, rfl⟩
abbrev main_cst_8 : Ref sig .tc := ⟨.hbm, 63, rfl⟩
abbrev main_v46 : Ref sig .tc := ⟨.hbm, 64, rfl⟩
abbrev main_v47 : Ref sig .tc := ⟨.hbm, 65, rfl⟩
abbrev main_cst_9 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_10 : Ref sig .tc := ⟨.hbm, 70, rfl⟩
abbrev main_call1_v0 : Ref sig .tc := ⟨.hbm, 71, rfl⟩
abbrev main_call1_v1 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_11 : Ref sig .tc := ⟨.hbm, 77, rfl⟩
abbrev main_v55 : Ref sig .tc := ⟨.hbm, 78, rfl⟩
abbrev main_v56 : Ref sig .tc := ⟨.hbm, 79, rfl⟩
abbrev main_cst_12 : Ref sig .tc := ⟨.hbm, 80, rfl⟩
abbrev main_call2_v0 : Ref sig .tc := ⟨.hbm, 81, rfl⟩
abbrev main_call2_v1 : Ref sig .tc := ⟨.hbm, 82, rfl⟩
abbrev main_v57 : Ref sig .tc := ⟨.hbm, 83, rfl⟩
abbrev main_v58 : Ref sig .tc := ⟨.hbm, 84, rfl⟩
abbrev main_cst_13 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_14 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_15 : Ref sig .tc := ⟨.hbm, 95, rfl⟩
abbrev main_v67 : Ref sig .tc := ⟨.hbm, 96, rfl⟩
abbrev main_v68 : Ref sig .tc := ⟨.hbm, 97, rfl⟩
abbrev main_cst_16 : Ref sig .tc := ⟨.hbm, 98, rfl⟩
abbrev main_v69 : Ref sig .tc := ⟨.hbm, 99, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  reducesTo_S8192_S_d0 : S8192.ReducesTo [0] S_
  h_S_ : 0 < S_.numel
  reducesTo_S8192x64_S8192_d1 : S8192x64.ReducesTo [1] S8192
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x64_0_1 : S8192x1.BroadcastsInDim S8192x64 (![0, 1] : Fin 2 → Fin S8192x64.rank)
  transposes_S8192x64_S64x8192_1_0 : S8192x64.Transposes [1, 0] S64x8192
  reducesTo_S8192x3_S8192_d1 : S8192x3.ReducesTo [1] S8192
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x3_S3x8192_1_0 : S8192x3.Transposes [1, 0] S3x8192
  bcast_S_S8192x8192 : S_.BroadcastsInDim S8192x8192 (![] : Fin 0 → Fin S8192x8192.rank)
  reducesTo_S8192x8192_S8192_d1 : S8192x8192.ReducesTo [1] S8192
  reducesTo_S8192x8192_S_d0_1 : S8192x8192.ReducesTo [0, 1] S_
  dot_S8192x64_S64x8192_S8192x8192_1_0_0_1_n_n_wf : DotDims.WF S8192x64 S64x8192 S8192x8192 [1] [0] [0] [1] [] []
  dot_S8192x3_S3x8192_S8192x8192_1_0_0_1_n_n_wf : DotDims.WF S8192x3 S3x8192 S8192x8192 [1] [0] [0] [1] [] []

variable [Facts₀]

def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf
def dot_S8192x3_S3x8192_S8192x8192_1_0_0_1_n_n : DotDims S8192x3 S3x8192 S8192x8192 where
  lhsContracting := [1]
  rhsContracting := [0]
  lhsNonContracting := [0]
  rhsNonContracting := [1]
  lhsBatch := []
  rhsBatch := []
  wf := dot_S8192x3_S3x8192_S8192x8192_1_0_0_1_n_n_wf

class Facts : Prop extends Facts₀ where

variable [Facts]
-- ==== Proof.WordPointCases.lean ====
/-
  The grid of the pairwise kernel is 16 row blocks by 8 column tiles, visited row block by row block: point t is row
  block t / 8 and column tile t % 8. Within a row block the body keeps three running column sums in a 512 x 3 scratch:
  it clears the scratch at the first tile (t % 8 = 0), adds the tile's three row sums at every tile, and copies the
  scratch to the output block at the last tile (t % 8 = 7). This module states those two tests in closed form over
  the grid, says at which points the output block is left alone, and names the staging buffers the body is called with.
-/
import proofs.«135098_j86354612453531_2_alg».proof.Proof.Gen.Kernel.Launch
import proofs.«135098_j86354612453531_2_alg».proof.Proof.Gen.Kernel.Skeleton
import proofs.«135098_j86354612453531_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two tests on the column tile -/

/-- The body clears the running sums: the column tile is the first of its row block. -/
abbrev firstTile (i : grid0.Coords) : Prop :=
  (Scalar.cmpi .ne (Scalar.extui (Scalar.cmpi .eq (BitVec.ofNat 32 (i 1).val) 0#32)) 0#32) = 1#1
theorem firstTile_iff : ∀ t : Fin cfg0.N, firstTile (grid0.coords t) ↔ t.val % 8 = 0 :=
  (by decide +kernel : ∀ t : Fin grid0.N, firstTile (grid0.coords t) ↔ t.val % 8 = 0)

/-- The body copies the running sums out: the column tile is the last of its row block. -/
abbrev lastTile (i : grid0.Coords) : Prop := k0_cond2 i = 1#1
theorem lastTile_iff : ∀ t : Fin cfg0.N, lastTile (grid0.coords t) ↔ t.val % 8 = 7 :=
  (by decide +kernel : ∀ t : Fin grid0.N, lastTile (grid0.coords t) ↔ t.val % 8 = 7)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
/-- Off the last tile the output block is idle and is not written back. -/
theorem idle6 : ∀ t : Fin cfg0.N, ¬lastTile (grid0.coords t) → cfg0.idle 6 (grid0.coords t) = true := by decide +kernel
theorem noFlush6 : ∀ t : Fin cfg0.N, ¬lastTile (grid0.coords t) → (cfg0.win 6).flush t = false := by decide +kernel
/-- At the last tile it is live. -/
theorem live6 : ∀ t : Fin cfg0.N, lastTile (grid0.coords t) → cfg0.idle 6 (grid0.coords t) = false := by decide +kernel

/-! ## The staging buffers at a point -/

abbrev ms0 (t : Fin cfg0.N) : Memref sig .tc .vmem S512x64 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x64 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x5 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x5 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1024 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S512x3 .f32 := win0_6.stage (cfg0.slots t 6)
abbrev hs6 (t : Fin cfg0.N) : (ms6 t).IsWhole := hstage0_6 ((cfg0.slots t 6).cast nbuf0_6)

/-- The scratch holding the three running column sums, and the view its contents are stated through. -/
abbrev sums : Memref sig .tc .vmem S512x3 .f32 := Memref.whole cc0_scratch0
abbrev sumsView : View sig .tc .vmem S512x3 .f32 := sums.view
/-- One staging buffer of the output window, through which its contents are stated. -/
abbrev outView : View sig .tc .vmem S512x3 .f32 := (Memref.whole cc0_stg6_0 : Memref sig .tc .vmem S512x3 .f32).view

end Cert.Kernel.Hand

end
-- ==== Proof.WordPointRunFirst.lean ====
/-
  The body at the first column tile of a row block: it overwrites the whole scratch with zeros, then adds the tile's
  three row sums column by column; the output block is not touched. Run on whole staging buffers holding the six input
  blocks, the output buffer at any contents (handed back as found) and the scratch at any contents, it ends with the
  inputs as they were and the scratch rewritten by the pieces the run finds.
-/
import proofs.«135098_j86354612453531_2_alg».proof.Proof.WordPointCases

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runFirst (c : Dev nD) (i : grid0.Coords) (a2 : Memref sig .tc .vmem S512x64 .bf16) (ha2 : a2.IsWhole) (a3 : Memref sig .tc .vmem S1024x64 .bf16) (ha3 : a3.IsWhole) (a4 : Memref sig .tc .vmem S512x5 .f32) (ha4 : a4.IsWhole) (a5 : Memref sig .tc .vmem S1024x5 .f32) (ha5 : a5.IsWhole) (a6 : Memref sig .tc .vmem S1x1024 .f32) (ha6 : a6.IsWhole) (a7 : Memref sig .tc .vmem S1x1024 .f32) (ha7 : a7.IsWhole) (a8 : Memref sig .tc .vmem S512x3 .f32) (ha8 : a8.IsWhole) (a9 : Memref sig .tc .vmem S512x3 .f32) (ha9 : a9.IsWhole) (hc0 : firstTile i) (hc1 : ¬lastTile i)
    (x0 : Vec F S512x64 .bf16) (x1 : Vec F S1024x64 .bf16) (x2 : Vec F S512x5 .f32) (x3 : Vec F S1024x5 .f32) (x4 : Vec F S1x1024 .f32) (x5 : Vec F S1x1024 .f32) :
    { LS : List (View.Piece (Elt F) S512x3 .f32) //
      ∀ (xo : Vec F S512x3 .f32) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare xo ∗ (∃ d, owns (c : Thread nD τ) a9 fullShare d)
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare xo ∗ (∃ f, a9.view.loc (c : Thread nD τ) ↦[a9.view.set]{fullShare} a9.view.writes (Elt F) f LS)) -∗ K ⟨⟩))
          ⊢ wp frame (wpE (defs₀ (F := F)) Variants.none c none) E (cc0__plcc_kernel i a2 ha2 a3 ha3 a4 ha4 a5 ha5 a6 ha6 a7 ha7 a8 ha8 a9 ha9) K } := by
  refine ⟨?_, fun xo E K => ?run⟩
  case run =>
    simp only [cc0__plcc_kernel_eq_skeleton]; unfold cc0__plcc_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds, %fs, -, HS⟩, Hk⟩
    obtain rfl := ha2.eq_unread hf0; obtain rfl := ha3.eq_unread hf1; obtain rfl := ha4.eq_unread hf2; obtain rfl := ha5.eq_unread hf3; obtain rfl := ha6.eq_unread hf4; obtain rfl := ha7.eq_unread hf5
    sl_exec (disch := first | exact hc0 | exact hc1)
    sl_step
    iapply Hk
    isplitl [H0]
    · iexists _; isplitr; · ipureintro; exact ha2.read_unread _
      iexact H0
    isplitl [H1]
    · iexists _; isplitr; · ipureintro; exact ha3.read_unread _
      iexact H1
    isplitl [H2]
    · iexists _; isplitr; · ipureintro; exact ha4.read_unread _
      iexact H2
    isplitl [H3]
    · iexists _; isplitr; · ipureintro; exact ha5.read_unread _
      iexact H3
    isplitl [H4]
    · iexists _; isplitr; · ipureintro; exact ha6.read_unread _
      iexact H4
    isplitl [H5]
    · iexists _; isplitr; · ipureintro; exact ha7.read_unread _
      iexact H5
    isplitl [H6]
    · iexists _; isplitr; · ipureintro; exact hf6
      iexact H6
    iexists _; iexact HS

end Cert.Kernel.Hand

end
-- ==== Proof.WordPointRunMiddle.lean ====
/-
  The body at a column tile that is neither the first nor the last of its row block: it adds the tile's three row sums
  to the scratch column by column and touches nothing else. Run on whole staging buffers holding the six input blocks,
  the output buffer at any contents (handed back as found) and the scratch at the sums the tile before left, it ends
  with the inputs as they were and the scratch rewritten by the pieces the run finds.
-/
import proofs.«135098_j86354612453531_2_alg».proof.Proof.WordPointRunFirst

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runMiddle (c : Dev nD) (i : grid0.Coords) (a2 : Memref sig .tc .vmem S512x64 .bf16) (ha2 : a2.IsWhole) (a3 : Memref sig .tc .vmem S1024x64 .bf16) (ha3 : a3.IsWhole) (a4 : Memref sig .tc .vmem S512x5 .f32) (ha4 : a4.IsWhole) (a5 : Memref sig .tc .vmem S1024x5 .f32) (ha5 : a5.IsWhole) (a6 : Memref sig .tc .vmem S1x1024 .f32) (ha6 : a6.IsWhole) (a7 : Memref sig .tc .vmem S1x1024 .f32) (ha7 : a7.IsWhole) (a8 : Memref sig .tc .vmem S512x3 .f32) (ha8 : a8.IsWhole) (a9 : Memref sig .tc .vmem S512x3 .f32) (ha9 : a9.IsWhole) (hc0 : ¬firstTile i) (hc1 : ¬lastTile i)
    (x0 : Vec F S512x64 .bf16) (x1 : Vec F S1024x64 .bf16) (x2 : Vec F S512x5 .f32) (x3 : Vec F S1024x5 .f32) (x4 : Vec F S1x1024 .f32) (x5 : Vec F S1x1024 .f32) (xs : Vec F S512x3 .f32) :
    { LS : List (View.Piece (Elt F) S512x3 .f32) //
      ∀ (xo : Vec F S512x3 .f32) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare xo ∗ owns (c : Thread nD τ) a9 fullShare xs
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare xo ∗ (∃ f, a9.view.loc (c : Thread nD τ) ↦[a9.view.set]{fullShare} a9.view.writes (Elt F) f LS)) -∗ K ⟨⟩))
          ⊢ wp frame (wpE (defs₀ (F := F)) Variants.none c none) E (cc0__plcc_kernel i a2 ha2 a3 ha3 a4 ha4 a5 ha5 a6 ha6 a7 ha7 a8 ha8 a9 ha9) K } := by
  refine ⟨?_, fun xo E K => ?run⟩
  case run =>
    simp only [cc0__plcc_kernel_eq_skeleton]; unfold cc0__plcc_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS⟩, Hk⟩
    obtain rfl := ha2.eq_unread hf0; obtain rfl := ha3.eq_unread hf1; obtain rfl := ha4.eq_unread hf2; obtain rfl := ha5.eq_unread hf3; obtain rfl := ha6.eq_unread hf4; obtain rfl := ha7.eq_unread hf5; obtain rfl := ha9.eq_unread hfs
    sl_exec (disch := first | exact hc0 | exact hc1)
    sl_step
    iapply Hk
    isplitl [H0]
    · iexists _; isplitr; · ipureintro; exact ha2.read_unread _
      iexact H0
    isplitl [H1]
    · iexists _; isplitr; · ipureintro; exact ha3.read_unread _
      iexact H1
    isplitl [H2]
    · iexists _; isplitr; · ipureintro; exact ha4.read_unread _
      iexact H2
    isplitl [H3]
    · iexists _; isplitr; · ipureintro; exact ha5.read_unread _
      iexact H3
    isplitl [H4]
    · iexists _; isplitr; · ipureintro; exact ha6.read_unread _
      iexact H4
    isplitl [H5]
    · iexists _; isplitr; · ipureintro; exact ha7.read_unread _
      iexact H5
    isplitl [H6]
    · iexists _; isplitr; · ipureintro; exact hf6
      iexact H6
    iexists _; iexact HS

end Cert.Kernel.Hand

end
-- ==== Proof.WordPointRunLast.lean ====
/-
  The body at the last column tile of a row block: it adds the tile's three row sums to the scratch column by column
  and then copies the whole scratch into the output block. Run on whole staging buffers holding the six input blocks,
  the output buffer at any contents and the scratch at the sums the tile before left, it ends with the inputs as they
  were, and the output buffer and the scratch rewritten by the pieces the run finds.
-/
import proofs.«135098_j86354612453531_2_alg».proof.Proof.WordPointRunMiddle

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runLast (c : Dev nD) (i : grid0.Coords) (a2 : Memref sig .tc .vmem S512x64 .bf16) (ha2 : a2.IsWhole) (a3 : Memref sig .tc .vmem S1024x64 .bf16) (ha3 : a3.IsWhole) (a4 : Memref sig .tc .vmem S512x5 .f32) (ha4 : a4.IsWhole) (a5 : Memref sig .tc .vmem S1024x5 .f32) (ha5 : a5.IsWhole) (a6 : Memref sig .tc .vmem S1x1024 .f32) (ha6 : a6.IsWhole) (a7 : Memref sig .tc .vmem S1x1024 .f32) (ha7 : a7.IsWhole) (a8 : Memref sig .tc .vmem S512x3 .f32) (ha8 : a8.IsWhole) (a9 : Memref sig .tc .vmem S512x3 .f32) (ha9 : a9.IsWhole) (hc0 : ¬firstTile i) (hc1 : lastTile i)
    (x0 : Vec F S512x64 .bf16) (x1 : Vec F S1024x64 .bf16) (x2 : Vec F S512x5 .f32) (x3 : Vec F S1024x5 .f32) (x4 : Vec F S1x1024 .f32) (x5 : Vec F S1x1024 .f32) (xs : Vec F S512x3 .f32) :
    Σ' (LO : List (View.Piece (Elt F) S512x3 .f32)), { LS : List (View.Piece (Elt F) S512x3 .f32) //
      ∀ (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ (∃ d, owns (c : Thread nD τ) a8 fullShare d) ∗ owns (c : Thread nD τ) a9 fullShare xs
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ (∃ f, a8.view.loc (c : Thread nD τ) ↦[a8.view.set]{fullShare} a8.view.writes (Elt F) f LO) ∗ (∃ f, a9.view.loc (c : Thread nD τ) ↦[a9.view.set]{fullShare} a9.view.writes (Elt F) f LS)) -∗ K ⟨⟩))
          ⊢ wp frame (wpE (defs₀ (F := F)) Variants.none c none) E (cc0__plcc_kernel i a2 ha2 a3 ha3 a4 ha4 a5 ha5 a6 ha6 a7 ha7 a8 ha8 a9 ha9) K } := by
  refine ⟨?_, ?_, fun E K => ?run⟩
  case run =>
    simp only [cc0__plcc_kernel_eq_skeleton]; unfold cc0__plcc_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
    obtain rfl := ha2.eq_unread hf0; obtain rfl := ha3.eq_unread hf1; obtain rfl := ha4.eq_unread hf2; obtain rfl := ha5.eq_unread hf3; obtain rfl := ha6.eq_unread hf4; obtain rfl := ha7.eq_unread hf5; obtain rfl := ha9.eq_unread hfs
    sl_exec (disch := first | exact hc0 | exact hc1)
    sl_step
    iapply Hk
    isplitl [H0]
    · iexists _; isplitr; · ipureintro; exact ha2.read_unread _
      iexact H0
    isplitl [H1]
    · iexists _; isplitr; · ipureintro; exact ha3.read_unread _
      iexact H1
    isplitl [H2]
    · iexists _; isplitr; · ipureintro; exact ha4.read_unread _
      iexact H2
    isplitl [H3]
    · iexists _; isplitr; · ipureintro; exact ha5.read_unread _
      iexact H3
    isplitl [H4]
    · iexists _; isplitr; · ipureintro; exact ha6.read_unread _
      iexact H4
    isplitl [H5]
    · iexists _; isplitr; · ipureintro; exact ha7.read_unread _
      iexact H5
    isplitl [H6]
    · iexists _; iexact H6
    iexists _; iexact HS

end Cert.Kernel.Hand

end
-- ==== Proof.WordPointData.lean ====
/-
  The proof data of the pairwise kernel's one region, for any contents `V` the region finds in the arrays.

  Within row block r the scratch holds, after column tile k, the three running column sums over tiles 0..k of that row
  block; at tile 7 the output block receives them. Nothing else is carried: the first tile of the next row block
  clears the scratch. `sumsAfter` follows that point by point (what the output buffer and the scratch hold after point
  n), the invariant before a point is the scratch at what the point before left (at anything before the first), every
  input window's buffer holds its block of the array whether or not the pipeline fetched it at that point, and the
  two windows on the normalised features and the two on the coordinate table hold their array at the two halves of
  the full share.
-/
import proofs.«135098_j86354612453531_2_alg».proof.Proof.WordPointRunLast

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not. -/
theorem before4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not. -/
theorem before5_of {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## What each case leaves -/

/-- A placeholder for the output buffer at a point that leaves it alone: nothing consults it. -/
def outIdle : Vec F S512x3 .f32 := outView.read (Elt F) outView.junk

/-- The first tile's pieces cover the scratch (a whole store, then three column stores). -/
theorem coverFirst (c : Dev nD) (i : grid0.Coords) (a2 : Memref sig .tc .vmem S512x64 .bf16) (ha2 : a2.IsWhole) (a3 : Memref sig .tc .vmem S1024x64 .bf16) (ha3 : a3.IsWhole) (a4 : Memref sig .tc .vmem S512x5 .f32) (ha4 : a4.IsWhole) (a5 : Memref sig .tc .vmem S1024x5 .f32) (ha5 : a5.IsWhole) (a6 : Memref sig .tc .vmem S1x1024 .f32) (ha6 : a6.IsWhole) (a7 : Memref sig .tc .vmem S1x1024 .f32) (ha7 : a7.IsWhole) (a8 : Memref sig .tc .vmem S512x3 .f32) (ha8 : a8.IsWhole) (a9 : Memref sig .tc .vmem S512x3 .f32) (ha9 : a9.IsWhole) (hc0 : firstTile i) (hc1 : ¬lastTile i)
    (x0 : Vec F S512x64 .bf16) (x1 : Vec F S1024x64 .bf16) (x2 : Vec F S512x5 .f32) (x3 : Vec F S1024x5 .f32) (x4 : Vec F S1x1024 .f32) (x5 : Vec F S1x1024 .f32) (y : S512x3.Idx) :
    ∃ pc ∈ (runFirst c i a2 ha2 a3 ha3 a4 ha4 a5 ha5 a6 ha6 a7 ha7 a8 ha8 a9 ha9 hc0 hc1 x0 x1 x2 x3 x4 x5).1, y ∈ pc.1.set :=
  View.cover_of_tiledBy (runFirst c i a2 ha2 a3 ha3 a4 ha4 a5 ha5 a6 ha6 a7 ha7 a8 ha8 a9 ha9 hc0 hc1 x0 x1 x2 x3 x4 x5).1 S512x1.size (by sl_kernel_rfl) y
/-- What the first tile leaves in the scratch. -/
def sumsFirst (c : Dev nD) (i : grid0.Coords) (a2 : Memref sig .tc .vmem S512x64 .bf16) (ha2 : a2.IsWhole) (a3 : Memref sig .tc .vmem S1024x64 .bf16) (ha3 : a3.IsWhole) (a4 : Memref sig .tc .vmem S512x5 .f32) (ha4 : a4.IsWhole) (a5 : Memref sig .tc .vmem S1024x5 .f32) (ha5 : a5.IsWhole) (a6 : Memref sig .tc .vmem S1x1024 .f32) (ha6 : a6.IsWhole) (a7 : Memref sig .tc .vmem S1x1024 .f32) (ha7 : a7.IsWhole) (a8 : Memref sig .tc .vmem S512x3 .f32) (ha8 : a8.IsWhole) (a9 : Memref sig .tc .vmem S512x3 .f32) (ha9 : a9.IsWhole) (hc0 : firstTile i) (hc1 : ¬lastTile i)
    (x0 : Vec F S512x64 .bf16) (x1 : Vec F S1024x64 .bf16) (x2 : Vec F S512x5 .f32) (x3 : Vec F S1024x5 .f32) (x4 : Vec F S1x1024 .f32) (x5 : Vec F S1x1024 .f32) : Vec F S512x3 .f32 :=
  sumsView.read (Elt F) (sumsView.writes (Elt F) sumsView.junk (runFirst c i a2 ha2 a3 ha3 a4 ha4 a5 ha5 a6 ha6 a7 ha7 a8 ha8 a9 ha9 hc0 hc1 x0 x1 x2 x3 x4 x5).1)

/-- A middle tile's three column stores tile the scratch. -/
theorem coverMiddle (c : Dev nD) (i : grid0.Coords) (a2 : Memref sig .tc .vmem S512x64 .bf16) (ha2 : a2.IsWhole) (a3 : Memref sig .tc .vmem S1024x64 .bf16) (ha3 : a3.IsWhole) (a4 : Memref sig .tc .vmem S512x5 .f32) (ha4 : a4.IsWhole) (a5 : Memref sig .tc .vmem S1024x5 .f32) (ha5 : a5.IsWhole) (a6 : Memref sig .tc .vmem S1x1024 .f32) (ha6 : a6.IsWhole) (a7 : Memref sig .tc .vmem S1x1024 .f32) (ha7 : a7.IsWhole) (a8 : Memref sig .tc .vmem S512x3 .f32) (ha8 : a8.IsWhole) (a9 : Memref sig .tc .vmem S512x3 .f32) (ha9 : a9.IsWhole) (hc0 : ¬firstTile i) (hc1 : ¬lastTile i)
    (x0 : Vec F S512x64 .bf16) (x1 : Vec F S1024x64 .bf16) (x2 : Vec F S512x5 .f32) (x3 : Vec F S1024x5 .f32) (x4 : Vec F S1x1024 .f32) (x5 : Vec F S1x1024 .f32) (xs : Vec F S512x3 .f32) (y : S512x3.Idx) :
    ∃ pc ∈ (runMiddle c i a2 ha2 a3 ha3 a4 ha4 a5 ha5 a6 ha6 a7 ha7 a8 ha8 a9 ha9 hc0 hc1 x0 x1 x2 x3 x4 x5 xs).1, y ∈ pc.1.set :=
  View.cover_of_tiledL (runMiddle c i a2 ha2 a3 ha3 a4 ha4 a5 ha5 a6 ha6 a7 ha7 a8 ha8 a9 ha9 hc0 hc1 x0 x1 x2 x3 x4 x5 xs).1 S512x1.size (by sl_kernel_rfl) y
/-- What a middle tile leaves in the scratch, over what the tile before left. -/
def sumsMiddle (c : Dev nD) (i : grid0.Coords) (a2 : Memref sig .tc .vmem S512x64 .bf16) (ha2 : a2.IsWhole) (a3 : Memref sig .tc .vmem S1024x64 .bf16) (ha3 : a3.IsWhole) (a4 : Memref sig .tc .vmem S512x5 .f32) (ha4 : a4.IsWhole) (a5 : Memref sig .tc .vmem S1024x5 .f32) (ha5 : a5.IsWhole) (a6 : Memref sig .tc .vmem S1x1024 .f32) (ha6 : a6.IsWhole) (a7 : Memref sig .tc .vmem S1x1024 .f32) (ha7 : a7.IsWhole) (a8 : Memref sig .tc .vmem S512x3 .f32) (ha8 : a8.IsWhole) (a9 : Memref sig .tc .vmem S512x3 .f32) (ha9 : a9.IsWhole) (hc0 : ¬firstTile i) (hc1 : ¬lastTile i)
    (x0 : Vec F S512x64 .bf16) (x1 : Vec F S1024x64 .bf16) (x2 : Vec F S512x5 .f32) (x3 : Vec F S1024x5 .f32) (x4 : Vec F S1x1024 .f32) (x5 : Vec F S1x1024 .f32) (xs : Vec F S512x3 .f32) : Vec F S512x3 .f32 :=
  sumsView.read (Elt F) (sumsView.writes (Elt F) sumsView.junk (runMiddle c i a2 ha2 a3 ha3 a4 ha4 a5 ha5 a6 ha6 a7 ha7 a8 ha8 a9 ha9 hc0 hc1 x0 x1 x2 x3 x4 x5 xs).1)

/-- The last tile's three column stores tile the scratch, and its one whole store covers the output block. -/
theorem coverLastSums (c : Dev nD) (i : grid0.Coords) (a2 : Memref sig .tc .vmem S512x64 .bf16) (ha2 : a2.IsWhole) (a3 : Memref sig .tc .vmem S1024x64 .bf16) (ha3 : a3.IsWhole) (a4 : Memref sig .tc .vmem S512x5 .f32) (ha4 : a4.IsWhole) (a5 : Memref sig .tc .vmem S1024x5 .f32) (ha5 : a5.IsWhole) (a6 : Memref sig .tc .vmem S1x1024 .f32) (ha6 : a6.IsWhole) (a7 : Memref sig .tc .vmem S1x1024 .f32) (ha7 : a7.IsWhole) (a8 : Memref sig .tc .vmem S512x3 .f32) (ha8 : a8.IsWhole) (a9 : Memref sig .tc .vmem S512x3 .f32) (ha9 : a9.IsWhole) (hc0 : ¬firstTile i) (hc1 : lastTile i)
    (x0 : Vec F S512x64 .bf16) (x1 : Vec F S1024x64 .bf16) (x2 : Vec F S512x5 .f32) (x3 : Vec F S1024x5 .f32) (x4 : Vec F S1x1024 .f32) (x5 : Vec F S1x1024 .f32) (xs : Vec F S512x3 .f32) (y : S512x3.Idx) :
    ∃ pc ∈ (runLast c i a2 ha2 a3 ha3 a4 ha4 a5 ha5 a6 ha6 a7 ha7 a8 ha8 a9 ha9 hc0 hc1 x0 x1 x2 x3 x4 x5 xs).2.1, y ∈ pc.1.set :=
  View.cover_of_tiledL (runLast c i a2 ha2 a3 ha3 a4 ha4 a5 ha5 a6 ha6 a7 ha7 a8 ha8 a9 ha9 hc0 hc1 x0 x1 x2 x3 x4 x5 xs).2.1 S512x1.size (by sl_kernel_rfl) y
theorem coverLastOut (c : Dev nD) (i : grid0.Coords) (a2 : Memref sig .tc .vmem S512x64 .bf16) (ha2 : a2.IsWhole) (a3 : Memref sig .tc .vmem S1024x64 .bf16) (ha3 : a3.IsWhole) (a4 : Memref sig .tc .vmem S512x5 .f32) (ha4 : a4.IsWhole) (a5 : Memref sig .tc .vmem S1024x5 .f32) (ha5 : a5.IsWhole) (a6 : Memref sig .tc .vmem S1x1024 .f32) (ha6 : a6.IsWhole) (a7 : Memref sig .tc .vmem S1x1024 .f32) (ha7 : a7.IsWhole) (a8 : Memref sig .tc .vmem S512x3 .f32) (ha8 : a8.IsWhole) (a9 : Memref sig .tc .vmem S512x3 .f32) (ha9 : a9.IsWhole) (hc0 : ¬firstTile i) (hc1 : lastTile i)
    (x0 : Vec F S512x64 .bf16) (x1 : Vec F S1024x64 .bf16) (x2 : Vec F S512x5 .f32) (x3 : Vec F S1024x5 .f32) (x4 : Vec F S1x1024 .f32) (x5 : Vec F S1x1024 .f32) (xs : Vec F S512x3 .f32) (y : S512x3.Idx) :
    ∃ pc ∈ (runLast c i a2 ha2 a3 ha3 a4 ha4 a5 ha5 a6 ha6 a7 ha7 a8 ha8 a9 ha9 hc0 hc1 x0 x1 x2 x3 x4 x5 xs).1, y ∈ pc.1.set :=
  View.cover_of_tiledL (runLast c i a2 ha2 a3 ha3 a4 ha4 a5 ha5 a6 ha6 a7 ha7 a8 ha8 a9 ha9 hc0 hc1 x0 x1 x2 x3 x4 x5 xs).1 S512x3.size (by sl_kernel_rfl) y
def sumsLast (c : Dev nD) (i : grid0.Coords) (a2 : Memref sig .tc .vmem S512x64 .bf16) (ha2 : a2.IsWhole) (a3 : Memref sig .tc .vmem S1024x64 .bf16) (ha3 : a3.IsWhole) (a4 : Memref sig .tc .vmem S512x5 .f32) (ha4 : a4.IsWhole) (a5 : Memref sig .tc .vmem S1024x5 .f32) (ha5 : a5.IsWhole) (a6 : Memref sig .tc .vmem S1x1024 .f32) (ha6 : a6.IsWhole) (a7 : Memref sig .tc .vmem S1x1024 .f32) (ha7 : a7.IsWhole) (a8 : Memref sig .tc .vmem S512x3 .f32) (ha8 : a8.IsWhole) (a9 : Memref sig .tc .vmem S512x3 .f32) (ha9 : a9.IsWhole) (hc0 : ¬firstTile i) (hc1 : lastTile i)
    (x0 : Vec F S512x64 .bf16) (x1 : Vec F S1024x64 .bf16) (x2 : Vec F S512x5 .f32) (x3 : Vec F S1024x5 .f32) (x4 : Vec F S1x1024 .f32) (x5 : Vec F S1x1024 .f32) (xs : Vec F S512x3 .f32) : Vec F S512x3 .f32 :=
  sumsView.read (Elt F) (sumsView.writes (Elt F) sumsView.junk (runLast c i a2 ha2 a3 ha3 a4 ha4 a5 ha5 a6 ha6 a7 ha7 a8 ha8 a9 ha9 hc0 hc1 x0 x1 x2 x3 x4 x5 xs).2.1)
/-- What the last tile leaves in the output block. -/
def outLast (c : Dev nD) (i : grid0.Coords) (a2 : Memref sig .tc .vmem S512x64 .bf16) (ha2 : a2.IsWhole) (a3 : Memref sig .tc .vmem S1024x64 .bf16) (ha3 : a3.IsWhole) (a4 : Memref sig .tc .vmem S512x5 .f32) (ha4 : a4.IsWhole) (a5 : Memref sig .tc .vmem S1024x5 .f32) (ha5 : a5.IsWhole) (a6 : Memref sig .tc .vmem S1x1024 .f32) (ha6 : a6.IsWhole) (a7 : Memref sig .tc .vmem S1x1024 .f32) (ha7 : a7.IsWhole) (a8 : Memref sig .tc .vmem S512x3 .f32) (ha8 : a8.IsWhole) (a9 : Memref sig .tc .vmem S512x3 .f32) (ha9 : a9.IsWhole) (hc0 : ¬firstTile i) (hc1 : lastTile i)
    (x0 : Vec F S512x64 .bf16) (x1 : Vec F S1024x64 .bf16) (x2 : Vec F S512x5 .f32) (x3 : Vec F S1024x5 .f32) (x4 : Vec F S1x1024 .f32) (x5 : Vec F S1x1024 .f32) (xs : Vec F S512x3 .f32) : Vec F S512x3 .f32 :=
  outView.read (Elt F) (outView.writes (Elt F) outView.junk (runLast c i a2 ha2 a3 ha3 a4 ha4 a5 ha5 a6 ha6 a7 ha7 a8 ha8 a9 ha9 hc0 hc1 x0 x1 x2 x3 x4 x5 xs).1)

/-! ## Point by point -/

/-- What the output buffer and the scratch hold after the body at position `n`. -/
def sumsAfter (c : Dev nD) : (n : ℕ) → n < cfg0.N → Vec F S512x3 .f32 × Vec F S512x3 .f32
  | 0, hn => (outIdle, sumsFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) sums (Memref.isWhole_whole _) ((firstTile_iff ⟨0, hn⟩).mpr (Nat.zero_mod _)) (fun h => (fun h => by (try dsimp only at h); omega) ((lastTile_iff ⟨0, hn⟩).mp h)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩))
  | n + 1, hn =>
    if h0 : (n + 1) % 8 = 0 then
      (outIdle, sumsFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) sums (Memref.isWhole_whole _) ((firstTile_iff ⟨n + 1, hn⟩).mpr h0) (fun h => (fun h => by (try dsimp only at h); omega) ((lastTile_iff ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩))
    else if h1 : (n + 1) % 8 = 7 then
      (outLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) sums (Memref.isWhole_whole _) (fun h => h0 ((firstTile_iff ⟨n + 1, hn⟩).mp h)) ((lastTile_iff ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (sumsAfter c n (Nat.lt_of_succ_lt hn)).2,
       sumsLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) sums (Memref.isWhole_whole _) (fun h => h0 ((firstTile_iff ⟨n + 1, hn⟩).mp h)) ((lastTile_iff ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (sumsAfter c n (Nat.lt_of_succ_lt hn)).2)
    else
      (outIdle, sumsMiddle c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) sums (Memref.isWhole_whole _) (fun h => h0 ((firstTile_iff ⟨n + 1, hn⟩).mp h)) (fun h => h1 ((lastTile_iff ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (sumsAfter c n (Nat.lt_of_succ_lt hn)).2)

theorem sumsAfter_first (c : Dev nD) (t : Fin cfg0.N) (h0 : t.val % 8 = 0) (h1 : ¬t.val % 8 = 7) :
    sumsAfter V c t.val t.isLt = (outIdle, sumsFirst c (grid0.coords t) (ms0 t) (hs0 t) (ms1 t) (hs1 t) (ms2 t) (hs2 t) (ms3 t) (hs3 t) (ms4 t) (hs4 t) (ms5 t) (hs5 t) (ms6 t) (hs6 t) sums (Memref.isWhole_whole _) ((firstTile_iff t).mpr h0) (fun h => h1 ((lastTile_iff t).mp h)) (iblk V c 0 t) (iblk V c 1 t) (iblk V c 2 t) (iblk V c 3 t) (iblk V c 4 t) (iblk V c 5 t)) := by
  obtain ⟨n, hn⟩ := t
  cases n with
  | zero => exact rfl
  | succ n => exact (dif_pos h0).trans rfl

theorem sumsAfter_middle (c : Dev nD) (t : Fin cfg0.N) (h0 : ¬t.val % 8 = 0) (h1 : ¬t.val % 8 = 7) :
    sumsAfter V c t.val t.isLt = (outIdle, sumsMiddle c (grid0.coords t) (ms0 t) (hs0 t) (ms1 t) (hs1 t) (ms2 t) (hs2 t) (ms3 t) (hs3 t) (ms4 t) (hs4 t) (ms5 t) (hs5 t) (ms6 t) (hs6 t) sums (Memref.isWhole_whole _) (fun h => h0 ((firstTile_iff t).mp h)) (fun h => h1 ((lastTile_iff t).mp h)) (iblk V c 0 t) (iblk V c 1 t) (iblk V c 2 t) (iblk V c 3 t) (iblk V c 4 t) (iblk V c 5 t) (sumsAfter V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem sumsAfter_last (c : Dev nD) (t : Fin cfg0.N) (h0 : ¬t.val % 8 = 0) (h1 : t.val % 8 = 7) :
    sumsAfter V c t.val t.isLt = (outLast c (grid0.coords t) (ms0 t) (hs0 t) (ms1 t) (hs1 t) (ms2 t) (hs2 t) (ms3 t) (hs3 t) (ms4 t) (hs4 t) (ms5 t) (hs5 t) (ms6 t) (hs6 t) sums (Memref.isWhole_whole _) (fun h => h0 ((firstTile_iff t).mp h)) ((lastTile_iff t).mpr h1) (iblk V c 0 t) (iblk V c 1 t) (iblk V c 2 t) (iblk V c 3 t) (iblk V c 4 t) (iblk V c 5 t) (sumsAfter V c (t.val - 1) (Nat.lt_of_le_of_lt (Nat.sub_le _ _) t.isLt)).2,
      sumsLast c (grid0.coords t) (ms0 t) (hs0 t) (ms1 t) (hs1 t) (ms2 t) (hs2 t) (ms3 t) (hs3 t) (ms4 t) (hs4 t) (ms5 t) (hs5 t) (ms6 t) (hs6 t) sums (Memref.isWhole_whole _) (fun h => h0 ((firstTile_iff t).mp h)) ((lastTile_iff t).mpr h1) (iblk V c 0 t) (iblk V c 1 t) (iblk V c 2 t) (iblk V c 3 t) (iblk V c 4 t) (iblk V c 5 t) (sumsAfter V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- The scoped buffers no window stages are the scratch alone. -/
theorem scopedRest_sums (c : Dev nD) :
    (Pipeline.scopedRest (Ix := Unit) (Name := ℕ) (U := UR sig nD τ) (Lvl := ℕ) (Val := Elt F) spec0 c : sProp 𝕄)
      = iprop(∃ d, owns (c : Thread nD τ) sums fullShare d) := by
  rw [scopedRest0_eq]; simp only [sums, owns_whole]; try rfl

/-- Before position `n`: the scratch at anything before the first point, then at what the point before left. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => owns (c : Thread nD τ) sums fullShare ((sumsAfter V c n hn).2)

theorem PhiS_zero (c : Dev nD) (n : ℕ) (h : n ≤ cfg0.N) (hz : n = 0) :
    PhiS V c n h = Pipeline.scopedRest (Ix := Unit) (Name := ℕ) (U := UR sig nD τ) (Lvl := ℕ) (Val := Elt F) spec0 c := by
  subst hz; rfl
theorem PhiS_succ (c : Dev nD) (n : ℕ) (hn : n < cfg0.N) :
    PhiS V c (n + 1) hn = owns (c : Thread nD τ) sums fullShare ((sumsAfter V c n hn).2) := rfl
theorem PhiS_pos (c : Dev nD) (n : ℕ) (h : n ≤ cfg0.N) (hz : n ≠ 0) :
    PhiS V c n h = owns (c : Thread nD τ) sums fullShare ((sumsAfter V c (n - 1) (by omega)).2) := by
  cases n with
  | zero => exact absurd rfl hz
  | succ n => rfl

/-! ## The proof data -/

/-- The arrays as the region finds them; after the body each input's buffer at its block and the output's at
    `sumsAfter`; the invariant `PhiS`; nothing owed; the two windows on one array at the two halves of the full share. -/
def dats (_ : Fin 1) (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => (sumsAfter V c t.val t.isLt).1
  Φ t := PhiS V c t.val (Nat.le_of_lt_succ t.isLt)
  q w := match w with
    | ⟨0, _⟩ => fullShare.left
    | ⟨1, _⟩ => fullShare.right
    | ⟨2, _⟩ => fullShare.left
    | ⟨3, _⟩ => fullShare.right
    | _ => fullShare
  owed _ := 0

theorem A_eq (c : Dev nD) (w : Fin cfg0.W) : (dats V 0 c).A w = V c (Pipeline.arrRef spec0 w) := by
  dsimp only [dats]
theorem PhiS_castSucc (c : Dev nD) (t : Fin cfg0.N) :
    (dats V 0 c).Φ t.castSucc = PhiS V c t.val (Nat.le_of_lt t.isLt) := by
  dsimp only [dats]; simp only [Fin.coe_castSucc]
theorem after0 (c : Dev nD) (t : Fin cfg0.N) : (dats V 0 c).after 0 t = iblk V c 0 t := by dsimp only [dats]
theorem after1 (c : Dev nD) (t : Fin cfg0.N) : (dats V 0 c).after 1 t = iblk V c 1 t := by dsimp only [dats]
theorem after2 (c : Dev nD) (t : Fin cfg0.N) : (dats V 0 c).after 2 t = iblk V c 2 t := by dsimp only [dats]
theorem after3 (c : Dev nD) (t : Fin cfg0.N) : (dats V 0 c).after 3 t = iblk V c 3 t := by dsimp only [dats]
theorem after4 (c : Dev nD) (t : Fin cfg0.N) : (dats V 0 c).after 4 t = iblk V c 4 t := by dsimp only [dats]
theorem after5 (c : Dev nD) (t : Fin cfg0.N) : (dats V 0 c).after 5 t = iblk V c 5 t := by dsimp only [dats]
theorem after6 (c : Dev nD) (t : Fin cfg0.N) : (dats V 0 c).after 6 t = (sumsAfter V c t.val t.isLt).1 := by dsimp only [dats]
theorem before0 (c : Dev nD) (t : Fin cfg0.N) (d) : (dats V 0 c).before 0 t d = iblk V c 0 t :=
  before0_of V (dats V 0 c) (A_eq V c 0) (after0 V c) t d
theorem leaves0 (c : Dev nD) (t : Fin cfg0.N) :
    (dats V 0 c).leavesExact 0 t = owns (c : Thread nD τ) (ms0 t) fullShare (iblk V c 0 t) := by
  unfold Dat.leavesExact; rw [live0 t, after0]
theorem before1 (c : Dev nD) (t : Fin cfg0.N) (d) : (dats V 0 c).before 1 t d = iblk V c 1 t :=
  before1_of V (dats V 0 c) (A_eq V c 1) (after1 V c) t d
theorem leaves1 (c : Dev nD) (t : Fin cfg0.N) :
    (dats V 0 c).leavesExact 1 t = owns (c : Thread nD τ) (ms1 t) fullShare (iblk V c 1 t) := by
  unfold Dat.leavesExact; rw [live1 t, after1]
theorem before2 (c : Dev nD) (t : Fin cfg0.N) (d) : (dats V 0 c).before 2 t d = iblk V c 2 t :=
  before2_of V (dats V 0 c) (A_eq V c 2) (after2 V c) t d
theorem leaves2 (c : Dev nD) (t : Fin cfg0.N) :
    (dats V 0 c).leavesExact 2 t = owns (c : Thread nD τ) (ms2 t) fullShare (iblk V c 2 t) := by
  unfold Dat.leavesExact; rw [live2 t, after2]
theorem before3 (c : Dev nD) (t : Fin cfg0.N) (d) : (dats V 0 c).before 3 t d = iblk V c 3 t :=
  before3_of V (dats V 0 c) (A_eq V c 3) (after3 V c) t d
theorem leaves3 (c : Dev nD) (t : Fin cfg0.N) :
    (dats V 0 c).leavesExact 3 t = owns (c : Thread nD τ) (ms3 t) fullShare (iblk V c 3 t) := by
  unfold Dat.leavesExact; rw [live3 t, after3]
theorem before4 (c : Dev nD) (t : Fin cfg0.N) (d) : (dats V 0 c).before 4 t d = iblk V c 4 t :=
  before4_of V (dats V 0 c) (A_eq V c 4) (after4 V c) t d
theorem leaves4 (c : Dev nD) (t : Fin cfg0.N) :
    (dats V 0 c).leavesExact 4 t = owns (c : Thread nD τ) (ms4 t) fullShare (iblk V c 4 t) := by
  unfold Dat.leavesExact; rw [live4 t, after4]
theorem before5 (c : Dev nD) (t : Fin cfg0.N) (d) : (dats V 0 c).before 5 t d = iblk V c 5 t :=
  before5_of V (dats V 0 c) (A_eq V c 5) (after5 V c) t d
theorem leaves5 (c : Dev nD) (t : Fin cfg0.N) :
    (dats V 0 c).leavesExact 5 t = owns (c : Thread nD τ) (ms5 t) fullShare (iblk V c 5 t) := by
  unfold Dat.leavesExact; rw [live5 t, after5]

/-! ## The body obligation -/

def bodyPre (c : Dev nD) (t : Fin cfg0.N) : sProp 𝕄 :=
  iprop((dats V 0 c).Φ t.castSucc ∗ (dats V 0 c).owesAt () t.castSucc
    ∗ (∃ d, owns (c : Thread nD τ) (ms0 t) fullShare ((dats V 0 c).before 0 t d))
    ∗ (∃ d, owns (c : Thread nD τ) (ms1 t) fullShare ((dats V 0 c).before 1 t d))
    ∗ (∃ d, owns (c : Thread nD τ) (ms2 t) fullShare ((dats V 0 c).before 2 t d))
    ∗ (∃ d, owns (c : Thread nD τ) (ms3 t) fullShare ((dats V 0 c).before 3 t d))
    ∗ (∃ d, owns (c : Thread nD τ) (ms4 t) fullShare ((dats V 0 c).before 4 t d))
    ∗ (∃ d, owns (c : Thread nD τ) (ms5 t) fullShare ((dats V 0 c).before 5 t d))
    ∗ (∃ d, owns (c : Thread nD τ) (ms6 t) fullShare ((dats V 0 c).before 6 t d)))

def bodyPost (c : Dev nD) (t : Fin cfg0.N) : sProp 𝕄 :=
  iprop((dats V 0 c).Φ t.succ ∗ (dats V 0 c).owesAt () t.succ
    ∗ (dats V 0 c).leavesExact 0 t
    ∗ (dats V 0 c).leavesExact 1 t
    ∗ (dats V 0 c).leavesExact 2 t
    ∗ (dats V 0 c).leavesExact 3 t
    ∗ (dats V 0 c).leavesExact 4 t
    ∗ (dats V 0 c).leavesExact 5 t
    ∗ (dats V 0 c).leavesExact 6 t)

set_option maxHeartbeats 4800000 in
/-- The body at any point: the inputs' buffers hold their blocks; the closed forms say which of the three cases the
    point is in; the invariant hands over the scratch at what the point before left and takes it back at this point's. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3, before4, before5]
  rw [show (dats V 0 c).owesAt () t.succ = (dats V 0 c).owesAt () t.castSucc from rfl]
  rw [show (dats V 0 c).Φ t.succ = PhiS V c (t.val + 1) t.isLt from rfl, PhiS_succ]
  rw [leaves0, leaves1, leaves2, leaves3, leaves4, leaves5]
  have hN : t.val < 128 := lt_of_lt_of_eq t.isLt (show cfg0.N = 128 from N_0)
  by_cases h0 : t.val % 8 = 0
  · have h1 : ¬t.val % 8 = 7 := by omega
    rw [Dat.leavesExact_idle (dats V 0 c) 6 t (idle6 t (fun h => h1 ((lastTile_iff t).mp h))) (noFlush6 t (fun h => h1 ((lastTile_iff t).mp h)))]
    rw [sumsAfter_first V c t h0 h1]
    unfold sumsFirst; (try dsimp only)
    by_cases hz : t.val = 0
    · rw [PhiS_castSucc V c t, PhiS_zero V c _ _ hz, scopedRest_sums]
      iintro ⟨HS, Ho, ⟨%d0, H0⟩, ⟨%d1, H1⟩, ⟨%d2, H2⟩, ⟨%d3, H3⟩, ⟨%d4, H4⟩, ⟨%d5, H5⟩, ⟨%d6, H6⟩⟩
      iapply ((runFirst c (grid0.coords t) _ _ _ _ _ _ _ _ _ _ _ _ _ _ _ _ ((firstTile_iff t).mpr h0) (fun h => h1 ((lastTile_iff t).mp h)) (iblk V c 0 t) (iblk V c 1 t) (iblk V c 2 t) (iblk V c 3 t) (iblk V c 4 t) (iblk V c 5 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, ⟨%es, HS⟩⟩
      isplitl [HS]
      · unfold owns; iexists _; isplitr
        swap; · iexact HS
        ipureintro; exact View.read_writes_of_cover _ _ _ _ _ (coverFirst c _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS_castSucc V c t, PhiS_pos V c _ _ hz]
      iintro ⟨HS, Ho, ⟨%d0, H0⟩, ⟨%d1, H1⟩, ⟨%d2, H2⟩, ⟨%d3, H3⟩, ⟨%d4, H4⟩, ⟨%d5, H5⟩, ⟨%d6, H6⟩⟩
      iapply ((runFirst c (grid0.coords t) _ _ _ _ _ _ _ _ _ _ _ _ _ _ _ _ ((firstTile_iff t).mpr h0) (fun h => h1 ((lastTile_iff t).mp h)) (iblk V c 0 t) (iblk V c 1 t) (iblk V c 2 t) (iblk V c 3 t) (iblk V c 4 t) (iblk V c 5 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexists _; iexact HS
      iintro ⟨H0, H1, H2, H3, H4, H5, H6, ⟨%es, HS⟩⟩
      isplitl [HS]
      · unfold owns; iexists _; isplitr
        swap; · iexact HS
        ipureintro; exact View.read_writes_of_cover _ _ _ _ _ (coverFirst c _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun e => h0 (by rw [e])
    by_cases h1 : t.val % 8 = 7
    · rw [show (dats V 0 c).leavesExact 6 t = owns (c : Thread nD τ) (ms6 t) fullShare ((dats V 0 c).after 6 t) from by
        unfold Dat.leavesExact; rw [live6 t ((lastTile_iff t).mpr h1)], after6]
      rw [sumsAfter_last V c t h0 h1]
      unfold outLast sumsLast; (try dsimp only)
      rw [PhiS_castSucc V c t, PhiS_pos V c _ _ hz]
      iintro ⟨HS, Ho, ⟨%d0, H0⟩, ⟨%d1, H1⟩, ⟨%d2, H2⟩, ⟨%d3, H3⟩, ⟨%d4, H4⟩, ⟨%d5, H5⟩, ⟨%d6, H6⟩⟩
      iapply ((runLast c (grid0.coords t) _ _ _ _ _ _ _ _ _ _ _ _ _ _ _ _ (fun h => h0 ((firstTile_iff t).mp h)) ((lastTile_iff t).mpr h1) (iblk V c 0 t) (iblk V c 1 t) (iblk V c 2 t) (iblk V c 3 t) (iblk V c 4 t) (iblk V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, ⟨%e6, H6⟩, ⟨%es, HS⟩⟩
      isplitl [HS]
      · unfold owns; iexists _; isplitr
        swap; · iexact HS
        ipureintro; exact View.read_writes_of_cover _ _ _ _ _ (coverLastSums c _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (coverLastOut c _ _ _ _ _ _ _ _ _ _ _ _ _ _ _ _ _ _ _ _ _ _ _ _ _ _)
    · rw [Dat.leavesExact_idle (dats V 0 c) 6 t (idle6 t (fun h => h1 ((lastTile_iff t).mp h))) (noFlush6 t (fun h => h1 ((lastTile_iff t).mp h)))]
      rw [sumsAfter_middle V c t h0 h1]
      unfold sumsMiddle; (try dsimp only)
      rw [PhiS_castSucc V c t, PhiS_pos V c _ _ hz]
      iintro ⟨HS, Ho, ⟨%d0, H0⟩, ⟨%d1, H1⟩, ⟨%d2, H2⟩, ⟨%d3, H3⟩, ⟨%d4, H4⟩, ⟨%d5, H5⟩, ⟨%d6, H6⟩⟩
      iapply ((runMiddle c (grid0.coords t) _ _ _ _ _ _ _ _ _ _ _ _ _ _ _ _ (fun h => h0 ((firstTile_iff t).mp h)) (fun h => h1 ((lastTile_iff t).mp h)) (iblk V c 0 t) (iblk V c 1 t) (iblk V c 2 t) (iblk V c 3 t) (iblk V c 4 t) (iblk V c 5 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, ⟨%es, HS⟩⟩
      isplitl [HS]
      · unfold owns; iexists _; isplitr
        swap; · iexact HS
        ipureintro; exact View.read_writes_of_cover _ _ _ _ _ (coverMiddle c _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation (c : Dev nD) : BodyObligation (dats (F := F) V 0 c) (defs₀ (F := F)) Variants.none () Set.univ := fun t => by
  rw [bigSep_W0, bigSep_W0]
  exact sound_body V c t

/-- What the region is handed (the scratch at anything) is the invariant before the first point. -/
theorem phi_in (c : Dev nD) :
    (Pipeline.scopedRest (Ix := Unit) (Name := ℕ) (U := UR sig nD τ) (Lvl := ℕ) (Val := Elt F) spec0 c : sProp 𝕄) ⊢ (dats V 0 c).Φ 0 := by
  rw [show (dats V 0 c).Φ 0 = PhiS V c 0 (Nat.zero_le _) from rfl, PhiS_zero V c 0 _ rfl]
  try exact Idealize.SL.BI.Entails.refl _

/-- After the last point the invariant gives the scratch back, its contents forgotten. -/
theorem phi_out (c : Dev nD) :
    (dats V 0 c).Φ (Fin.last cfg0.N) ⊢ (Pipeline.scopedRest (Ix := Unit) (Name := ℕ) (U := UR sig nD τ) (Lvl := ℕ) (Val := Elt F) spec0 c : sProp 𝕄) := by
  rw [show (dats V 0 c).Φ (Fin.last cfg0.N) = PhiS V c (Fin.last cfg0.N).val (Nat.le_of_lt_succ (Fin.last cfg0.N).isLt) from rfl,
    PhiS_pos V c _ _ (by rw [Fin.val_last]; have : cfg0.N = 128 := N_0; omega), scopedRest_sums]
  iintro HS
  iexists _; iexact HS

end Cert.Kernel.Hand

end
-- ==== Proof.LibSharedFibers.lean ====
/-
  Several windows of a pipeline on one array, for any number of shared arrays.

  A pallas_call may be handed one array through several of its windows, and it may be handed several such arrays. The
  buffers behind the windows' arrays are then fewer than the windows: the map `w ↦ arrRef w` from windows to buffers is
  not injective, and its FIBERS — for a buffer `b`, the windows `w` with `arrRef w = b` — say which windows sit on which
  buffer. What the launch holds is each DISTINCT buffer whole at the full share (`Pipeline.arrBufs`); what the pipeline's
  proof data want is one points-to per WINDOW, at the window's share (`Pipeline.Dat.arrays`). The two agree as soon as,
  buffer by buffer, the full share is dealt among the windows of the buffer's fiber:

  * `bigSep_fibers`: for any finite set `S` of values of a map `f`, the separating conjunction over `j ∈ S` of the
    conjunctions over the fiber of `j` is the conjunction over all indices whose value lies in `S` (induction on `S`:
    the indices with value in `insert j S` are the disjoint union of the fiber of `j` and the indices with value in `S`);
  * `bigSep_image_fiber`: hence a conjunction over the image of `f` whose term at each value is the conjunction of the
    indices' terms over that value's fiber is the conjunction over all indices;
  * `split_halves`: a buffer whole at the full share is the same at the left half and the same at the right half of
    the full share;
  * `arrays_of_fibers`: `arrBufs = Dat.arrays` at the same contents, given for each buffer behind a window's array that
    the buffer at the full share is the conjunction, over the windows on it, of the buffer at each window's share — an
    equality, so it serves a region's entry (deal the shares out) and its exit (gather them again);
  * `arrays_of_unscopedBufs_of_eq`, `unscopedBufs_of_arrays_of_eq`: the two forms a region's entry and exit use — a
    core's unscoped buffers at a valuation are the pipeline's arrays and the unscoped rest, and back at a valuation
    updated at the arrays — with the equality `arrBufs = Dat.arrays` as a hypothesis, whatever the sharing pattern.

  Generic in the configuration, the proof data and the element values; no program is imported.
-/
import Idealize.ShloMosaic.Lib.Pipeline.Launch

noncomputable section

namespace SharedFibers

open Idealize.ShloMosaic Idealize.ShloMosaic.TcCoe Idealize.ShloMosaic.Pipeline
open Idealize.SL Idealize.SL.RA
open Idealize.SL.BI (sProp bigSep bigSep_insert bigSep_congr bigSep_union)
open scoped Idealize.SL.BI
open Idealize.SL.BI.BIBase Idealize.SL.BI.Laws Idealize.SL.Sem

section BigSep

variable {I J : Type} [Fintype I] [DecidableEq I] [DecidableEq J] {M : Type} [URA M]

/-- Over any finite set `S` of values of `f`: the conjunction over `j ∈ S` of the conjunctions over the fiber of `j` is
    the conjunction over the indices whose value lies in `S`. -/
theorem bigSep_fibers (f : I → J) (Ψ : I → sProp M) (S : Finset J) :
    bigSep S (fun j => bigSep (Finset.univ.filter fun i => f i = j) Ψ)
      = bigSep (Finset.univ.filter fun i => f i ∈ S) Ψ := by
  induction S using Finset.induction_on with
  | empty => simp
  | insert j S hj ih =>
    have hsplit : (Finset.univ.filter fun i => f i ∈ insert j S)
        = (Finset.univ.filter fun i => f i = j) ∪ (Finset.univ.filter fun i => f i ∈ S) := by
      ext i
      simp only [Finset.mem_filter, Finset.mem_univ, true_and, Finset.mem_insert, Finset.mem_union]
    have hdisj : Disjoint (Finset.univ.filter fun i => f i = j) (Finset.univ.filter fun i => f i ∈ S) :=
      Finset.disjoint_left.mpr fun {i} h1 h2 =>
        hj ((Finset.mem_filter.mp h1).2 ▸ (Finset.mem_filter.mp h2).2)
    rw [bigSep_insert hj, ih, hsplit, bigSep_union hdisj]

/-- A conjunction over the image of `f` whose term at each value is the conjunction of the indices' terms over that
    value's fiber is the conjunction over all indices. -/
theorem bigSep_image_fiber (f : I → J) (Φ : J → sProp M) (Ψ : I → sProp M)
    (h : ∀ j ∈ Finset.univ.image f, Φ j = bigSep (Finset.univ.filter fun i => f i = j) Ψ) :
    bigSep (Finset.univ.image f) Φ = bigSep Finset.univ Ψ := by
  rw [bigSep_congr h, bigSep_fibers]
  refine congrArg (fun T => bigSep T Ψ) ?_
  ext i
  simp only [Finset.mem_filter, Finset.mem_univ, true_and, Finset.mem_image, iff_true]
  exact ⟨i, rfl⟩

end BigSep

section Arrays

variable {nD : Nat} {τ : Topo} {sig : RefSig} {Val : EltTy → Type}
variable {Ix : Type} [DecidableEq Ix] {Name : Type} [DecidableEq Name] {U : Type} [URA U] {Lvl : Type}
variable {Λ₀ : Idealize.SL.Sem.Labels}

local notation "𝕄" => MT nD τ sig Ix Val Name U Lvl

/-- A buffer whole at the full share is the same at the left half and the same at the right half of the full share. -/
theorem split_halves (ℓ : Loc nD τ sig) (f : Buf Val ℓ) :
    (ℓ ↦{fullShare} f : sProp 𝕄) = iprop((ℓ ↦{fullShare.left} f) ∗ (ℓ ↦{fullShare.right} f)) := by
  have hsh := pointsTo_share (nD := nD) (τ := τ) (sig := sig) (Ix := Ix) (Val := Val) (Name := Name) (U := U) (Lvl := Lvl)
    (ℓ := ℓ) (I := Finset.univ) (f := f) (PosShare.mem_left_op_right fullShare)
  exact Idealize.SL.BI.equiv_iff.mp ⟨hsh.1, hsh.2⟩

/-- THE FIBERS. Every window's array a whole buffer; for each buffer `b` behind a window's array, the buffer whole at the
    full share at contents `V b` is the conjunction, over the windows `w` on `b`, of the buffer at the share the proof data
    hold window `w`'s array at. Then the distinct buffers behind the arrays, each whole at the full share at contents `V`,
    ARE the proof data's arrays at the contents `F` read off `V`. -/
theorem arrays_of_fibers {cfg : Cfg sig Λ₀} {c : Dev nD} (dat : Dat τ Val Ix Name U Lvl cfg c)
    (harr : ∀ w, (cfg.spec w).arr.IsWhole)
    (V : (b : Ref sig .tc) → Buf Val ((c.tc : Thread nD τ).loc b))
    (F : (w : Fin cfg.W) → Buf Val ((cfg.spec w).arr.view.loc (c.tc : Thread nD τ))) (hF : ∀ w, F w = V (arrRef cfg.spec w))
    (hfib : ∀ b ∈ Finset.univ.image (arrRef cfg.spec),
      ((c.tc : Thread nD τ).loc b ↦{fullShare} V b : sProp 𝕄)
        = bigSep (Finset.univ.filter fun w => arrRef cfg.spec w = b)
            fun w => ((c.tc : Thread nD τ).loc b ↦{dat.share w} V b : sProp 𝕄)) :
    (arrBufs cfg.spec c V : sProp 𝕄) = dat.arrays F := by
  unfold arrBufs Dat.arrays
  refine bigSep_image_fiber (arrRef cfg.spec) _ _ fun b hb => ?_
  rw [hfib b hb]
  refine bigSep_congr fun w hw => ?_
  have hwb : arrRef cfg.spec w = b := (Finset.mem_filter.mp hw).2
  subst hwb
  rw [(harr w).set_eq_univ, hF w]

variable {P : Type} [Fintype P]

/-- ENTRY. A core's unscoped buffers at contents `V` are the pipeline's arrays at the proof data's entry contents —
    those being read off `V` (`hA`) — and the unscoped rest, given that the buffers behind the arrays at `V` are the
    proof data's arrays at any contents read off `V` (`h`). -/
theorem arrays_of_unscopedBufs_of_eq (cfgs : P → Cfg sig Λ₀) (p : P)
    (hun : ∀ w, (arrRef (cfgs p).spec w).isScoped = false) {c : Dev nD} (dat : Dat τ Val Ix Name U Lvl (cfgs p) c)
    (V : (b : Ref sig .tc) → Buf Val ((c.tc : Thread nD τ).loc b))
    (h : ∀ F : (w : Fin (cfgs p).W) → Buf Val (((cfgs p).spec w).arr.view.loc (c.tc : Thread nD τ)),
      (∀ w, F w = V (arrRef (cfgs p).spec w)) → (arrBufs (cfgs p).spec c V : sProp 𝕄) = dat.arrays F)
    (hA : ∀ w, dat.A w = V (arrRef (cfgs p).spec w)) :
    (unscopedBufs c V : sProp 𝕄) ⊢ iprop(dat.arrays (dat.arrAt · 0) ∗ unscopedRest (cfgs p).spec c V) := by
  rw [unscopedBufs_split₀ cfgs p hun c V,
    h (dat.arrAt · 0) (fun w => by rw [show dat.arrAt w 0 = dat.A w from rfl, hA])]

/-- EXIT. The pipeline's arrays at contents `F` and the unscoped rest at `V` are the core's unscoped buffers at any
    valuation `V'` that has the arrays at `F` (`hF`) and agrees with `V` off them (`hrest`), given that the buffers behind
    the arrays at `V'` are the proof data's arrays at any contents read off `V'` (`h`). -/
theorem unscopedBufs_of_arrays_of_eq (cfgs : P → Cfg sig Λ₀) (p : P)
    (hun : ∀ w, (arrRef (cfgs p).spec w).isScoped = false) {c : Dev nD} (dat : Dat τ Val Ix Name U Lvl (cfgs p) c)
    (V V' : (b : Ref sig .tc) → Buf Val ((c.tc : Thread nD τ).loc b))
    (h : ∀ F : (w : Fin (cfgs p).W) → Buf Val (((cfgs p).spec w).arr.view.loc (c.tc : Thread nD τ)),
      (∀ w, F w = V' (arrRef (cfgs p).spec w)) → (arrBufs (cfgs p).spec c V' : sProp 𝕄) = dat.arrays F)
    (F : (w : Fin (cfgs p).W) → Buf Val (((cfgs p).spec w).arr.view.loc (c.tc : Thread nD τ)))
    (hF : ∀ w, F w = V' (arrRef (cfgs p).spec w))
    (hrest : ∀ b, b ∉ Finset.univ.image (arrRef (cfgs p).spec) → V' b = V b) :
    iprop(dat.arrays F ∗ unscopedRest (cfgs p).spec c V) ⊢ (unscopedBufs c V' : sProp 𝕄) := by
  rw [unscopedBufs_split₀ cfgs p hun c V', ← h F hF]
  refine sep_mono .rfl (Entails.of_eq ?_)
  unfold unscopedRest
  exact bigSep_congr fun b hb => by rw [hrest b (Finset.mem_sdiff.mp hb).2]

end Arrays

end SharedFibers

end
-- ==== Proof.WordMainRun.lean ====
/-
  The run of the pairwise kernel's program, at any float instance.

  The program is three stretches of host operations (the mask and its count; the row norms, outlined; the normalised
  features, the squared coordinate norms, the coordinate table with the norm and mask columns, and the two row
  vectors), then the one region, then three more stretches (the three statistics columns sliced out and the ratio; the
  guarded value, outlined; the two means and the final combination). The region is handed the normalised features
  through two windows and the coordinate table through two windows: each of those two buffers is held once, and the
  proof data deal it to its two windows at the two halves of the full share; the other three arrays are each behind
  one window, at the full share. Between the region's ends only the scratch is kept by the invariant; every other
  unscoped buffer bypasses the region. The region writes one array, the statistics table, and the valuation after the
  region is the one before it updated at that buffer.
-/
import proofs.«135098_j86354612453531_2_alg».proof.Proof.WordPointData
import proofs.«135098_j86354612453531_2_alg».proof.Proof.LibSharedFibers
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The valuations along the program -/

/-- Core `c`'s buffers at launch, -/
abbrev W0 (c : Dev nD) : Valuation τ sig (Elt F) := fun b => (s₀ m ρ).mem ((c : Dev nD), b)
/-- after the mask and its count, after the row norms, and when the region is entered. -/
abbrev W1 (c : Dev nD) : Valuation τ sig (Elt F) := StableHlo.after hostOps0 (W0 m ρ c)
abbrev W2 (c : Dev nD) : Valuation τ sig (Elt F) := StableHlo.after hostOps0_1 (W1 m ρ c)
abbrev W3 (c : Dev nD) : Valuation τ sig (Elt F) := StableHlo.after hostOps0_2 (W2 m ρ c)
/-- The region-entry contents read at a TensorCore reference. -/
abbrev V (c : Dev nD) (b : Ref sig .tc) : Buf (Elt F) ((c : Thread nD τ).loc b) := W3 m ρ c b

/-- The statistics table after the region, as the library computes it from the proof data. -/
abbrev stats (c : Dev nD) := (dats (V m ρ) 0 c).arrAt 6 cfg0.N

/-- After the region: the entry valuation updated at the statistics table. -/
def W4 (c : Dev nD) : Valuation τ sig (Elt F) := Function.update (W3 m ρ c) (Proc.devRef .tc main_v17) (stats m ρ c)
abbrev W5 (c : Dev nD) : Valuation τ sig (Elt F) := StableHlo.after hostOps1 (W4 m ρ c)
abbrev W6 (c : Dev nD) : Valuation τ sig (Elt F) := StableHlo.after hostOps1_1 (W5 m ρ c)
abbrev W7 (c : Dev nD) : Valuation τ sig (Elt F) := StableHlo.after hostOps1_2 (W6 m ρ c)

theorem W4_stats (c : Dev nD) : W4 m ρ c (Proc.devRef .tc main_v17) = stats m ρ c := Function.update_self ..
theorem W4_of_ne (c : Dev nD) (b : Ref sig .tc) (hb : b ≠ main_v17) : W4 m ρ c b = W3 m ρ c b :=
  Function.update_of_ne (StableHlo.devRef_ne_of_ne hb) ..

/-! ## The two shared buffers dealt to their windows -/

/-- The buffers behind the windows' arrays. -/
theorem image_arrRef : ∀ b ∈ Finset.univ.image (Pipeline.arrRef spec0), b = main_v9 ∨ b = main_v14 ∨ b = main_v15 ∨ b = main_v16 ∨ b = main_v17 := by
  decide

theorem fiber_v9 : (Finset.univ.filter fun w : Fin 7 => Pipeline.arrRef spec0 w = main_v9) = {0, 1} := by decide
theorem fiber_v14 : (Finset.univ.filter fun w : Fin 7 => Pipeline.arrRef spec0 w = main_v14) = {2, 3} := by decide
theorem fiber_v15 : (Finset.univ.filter fun w : Fin 7 => Pipeline.arrRef spec0 w = main_v15) = {4} := by decide
theorem fiber_v16 : (Finset.univ.filter fun w : Fin 7 => Pipeline.arrRef spec0 w = main_v16) = {5} := by decide
theorem fiber_v17 : (Finset.univ.filter fun w : Fin 7 => Pipeline.arrRef spec0 w = main_v17) = {6} := by decide

/-- Whatever the arrays hold: the distinct buffers behind them, each whole at the full share, are the proof data's
    arrays — the normalised features and the coordinate table split in halves between their two windows. -/
theorem arrays_dealt (Vr : (c : Dev nD) → (b : Ref sig .tc) → Buf (Elt F) ((c : Thread nD τ).loc b)) (c : Dev nD)
    (V' : (b : Ref sig .tc) → Buf (Elt F) ((c : Thread nD τ).loc b))
    (Fa : (w : Fin cfg0.W) → Buf (Elt F) ((cfg0.spec w).arr.view.loc (c.tc : Thread nD τ))) (hF : ∀ w, Fa w = V' (Pipeline.arrRef cfg0.spec w)) :
    (Pipeline.arrBufs (Ix := Unit) (Name := ℕ) (U := UR sig nD τ) (Lvl := ℕ) cfg0.spec c V' : sProp 𝕄) = (dats Vr 0 c).arrays Fa :=
  SharedFibers.arrays_of_fibers (dats Vr 0 c) arr_whole0 V' Fa hF fun b hb => by
    rcases image_arrRef b hb with rfl | rfl | rfl | rfl | rfl
    · rw [show (Finset.univ.filter fun w : Fin cfg0.W => Pipeline.arrRef cfg0.spec w = main_v9) = {0, 1} from fiber_v9,
        bigSep_insert (by decide), bigSep_singleton]
      exact SharedFibers.split_halves _ _
    · rw [show (Finset.univ.filter fun w : Fin cfg0.W => Pipeline.arrRef cfg0.spec w = main_v14) = {2, 3} from fiber_v14,
        bigSep_insert (by decide), bigSep_singleton]
      exact SharedFibers.split_halves _ _
    · rw [show (Finset.univ.filter fun w : Fin cfg0.W => Pipeline.arrRef cfg0.spec w = main_v15) = {4} from fiber_v15, bigSep_singleton]; rfl
    · rw [show (Finset.univ.filter fun w : Fin cfg0.W => Pipeline.arrRef cfg0.spec w = main_v16) = {5} from fiber_v16, bigSep_singleton]; rfl
    · rw [show (Finset.univ.filter fun w : Fin cfg0.W => Pipeline.arrRef cfg0.spec w = main_v17) = {6} from fiber_v17, bigSep_singleton]; rfl

/-! ## The segments -/

abbrev L : GSem nD τ sig → Finset Unit := fun _ => ∅
abbrev lv : GSem nD τ sig → Unit → ℕ := fun _ _ => 0
abbrev adm : (p : Fin 1) → (pcfgs (F := F) p).Adm := fun p => (cfgs p).toPCfg_adm
/-- What rides beside the buffers: the core owes nothing. -/
abbrev R (c : Dev nD) : sProp 𝕄 := iprop(∃ W, owes (c : Thread nD τ) (0 : CellTallies nD τ sig Unit) W)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

/-- A stretch of host operations over the unscoped buffers. -/
def hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- After the region every window's array holds what the library computes: the inputs what they held, the statistics
    table the blocks written back. -/
theorem arrAt_W4 (c : Dev nD) (w : Fin cfg0.W) :
    (dats (V m ρ) 0 c).arrAt w cfg0.N = (fun b : Ref sig .tc => W4 m ρ c b) (Pipeline.arrRef cfg0.spec w) := by
  fin_cases w
  · show (dats (V m ρ) 0 c).arrAt 0 cfg0.N = W4 m ρ c (Proc.devRef .tc main_v9)
    exact ((dats (V m ρ) 0 c).arrAt_in 0 rfl _).trans (W4_of_ne m ρ c main_v9 (by decide)).symm
  · show (dats (V m ρ) 0 c).arrAt 1 cfg0.N = W4 m ρ c (Proc.devRef .tc main_v9)
    exact ((dats (V m ρ) 0 c).arrAt_in 1 rfl _).trans (W4_of_ne m ρ c main_v9 (by decide)).symm
  · show (dats (V m ρ) 0 c).arrAt 2 cfg0.N = W4 m ρ c (Proc.devRef .tc main_v14)
    exact ((dats (V m ρ) 0 c).arrAt_in 2 rfl _).trans (W4_of_ne m ρ c main_v14 (by decide)).symm
  · show (dats (V m ρ) 0 c).arrAt 3 cfg0.N = W4 m ρ c (Proc.devRef .tc main_v14)
    exact ((dats (V m ρ) 0 c).arrAt_in 3 rfl _).trans (W4_of_ne m ρ c main_v14 (by decide)).symm
  · show (dats (V m ρ) 0 c).arrAt 4 cfg0.N = W4 m ρ c (Proc.devRef .tc main_v15)
    exact ((dats (V m ρ) 0 c).arrAt_in 4 rfl _).trans (W4_of_ne m ρ c main_v15 (by decide)).symm
  · show (dats (V m ρ) 0 c).arrAt 5 cfg0.N = W4 m ρ c (Proc.devRef .tc main_v16)
    exact ((dats (V m ρ) 0 c).arrAt_in 5 rfl _).trans (W4_of_ne m ρ c main_v16 (by decide)).symm
  · show (dats (V m ρ) 0 c).arrAt 6 cfg0.N = W4 m ρ c (Proc.devRef .tc main_v17)
    exact (W4_stats m ρ c).symm

set_option backward.isDefEq.respectTransparency.types false in
/-- THE REGION, entered from what the third stretch left and left for the fourth. -/
def reg0 : Pipeline.RegionSeg (pcfgs (F := F)) adm (dats (V m ρ)) () defs₀ Variants.none L lv 0 where
  win := winFacts₀0
  block_pos := block_pos0
  stage_whole := stage_whole0
  K := PEmpty
  osem k := k.elim
  ho := Pipeline.OwnSemFacts.none _
  hbody c := (body_obligation (V m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X _ := iprop(emp)
  Y _ := iprop(emp)
  Z c := Pipeline.unscopedRest (Ix := Unit) (Name := ℕ) (U := UR sig nD τ) (Lvl := ℕ) spec0 c (V m ρ c)
  hentry c := by
    rw [show StableHlo.held (c : Thread nD τ) (Pipeline.ucRefs τ sig) (W3 m ρ c) = unscopedBufs c (V m ρ c) from (Pipeline.unscopedBufs_held c _).symm,
      Pipeline.ownSems0_none]
    have hsplit := SharedFibers.arrays_of_unscopedBufs_of_eq (Ix := Unit) (Name := ℕ) (U := UR sig nD τ) (Lvl := ℕ) cfgs 0 winFacts₀0.arr_unscoped
      (dats (V m ρ) 0 c) (V m ρ c) (arrays_dealt (V m ρ) c (V m ρ c)) (A_eq (V m ρ) c)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    iintro ⟨-, -, Hr⟩
    iapply (phi_in (V m ρ) c); iexact Hr
  hout c := by
    rw [Pipeline.ownSems0_none]
    iintro H
    isplitr; · iempintro
    isplitr; · iempintro
    iapply (phi_out (V m ρ) c); iexact H
  hexit c := by
    have hx := SharedFibers.unscopedBufs_of_arrays_of_eq (Ix := Unit) (Name := ℕ) (U := UR sig nD τ) (Lvl := ℕ) cfgs 0 winFacts₀0.arr_unscoped
      (dats (V m ρ) 0 c) (V m ρ c) (fun b : Ref sig .tc => W4 m ρ c b) (arrays_dealt (V m ρ) c (fun b : Ref sig .tc => W4 m ρ c b)) ((dats (V m ρ) 0 c).arrAt · cfg0.N)
      (arrAt_W4 m ρ c) (fun b hb => W4_of_ne m ρ c b (fun e => hb (e ▸ by decide)))
    rw [show StableHlo.held (c : Thread nD τ) (Pipeline.ucRefs τ sig) (W4 m ρ c) = unscopedBufs c (fun b : Ref sig .tc => W4 m ρ c b) from (Pipeline.unscopedBufs_held c _).symm]
    iintro ⟨Ha, HO, -, HZ⟩
    imodintro
    isplitr [HO]
    · iapply hx; isplitl [Ha] <;> iassumption
    · unfold Pipeline.Dat.owesAt Pipeline.owesWithin
      icases HO with ⟨%W, -, HO⟩; iexists W; iexact HO

/-- @main as its seven segments. -/
abbrev segs : List (Pipeline.Seg (pcfgs (F := F)) adm (dats (V m ρ)) () defs₀ Variants.none L lv) :=
  [.host (hostSeg hostOps0 hostOps0_sub hostOps0_fresh (W0 m ρ)),
   .host (hostSeg hostOps0_1 hostOps0_1_sub hostOps0_1_fresh (W1 m ρ)),
   .host (hostSeg hostOps0_2 hostOps0_2_sub hostOps0_2_fresh (W2 m ρ)),
   .region (reg0 m ρ),
   .host (hostSeg hostOps1 hostOps1_sub hostOps1_fresh (W4 m ρ)),
   .host (hostSeg hostOps1_1 hostOps1_1_sub hostOps1_1_fresh (W5 m ρ)),
   .host (hostSeg hostOps1_2 hostOps1_2_sub hostOps1_2_fresh (W6 m ρ))]

theorem main_eq_segs (c : Dev nD) : main (F := F) c = Pipeline.Seg.run (segs m ρ) := by
  rw [main_chain, Pipeline.Seg.run_eq_chain]; rfl

/-- What a final state's memory holds on core `c`: every unscoped buffer at the last valuation. -/
def QY (c : Dev nD) (s : MemSt nD τ sig (Elt F)) : Prop :=
  ∀ b ∈ Pipeline.ucRefs τ sig, s.mem ((c : Thread nD τ).1, b) = W7 m ρ c b

set_option backward.isDefEq.respectTransparency.types false in
/-- At the compiled mesh, for any float values, from any memory with zero counters: every weakly fair execution of
    @main on the TensorCores terminates, and every final state has every unscoped buffer at the last valuation. -/
theorem run_main : θ_run defs (onTc (τ := τ) (main (F := F))) (s₀ m ρ) (fun r => ∀ c : Dev nD, QY m ρ c r.2) :=
  Pipeline.θ_run_regions_kit (pcfgs (F := F)) adm (dats (V m ρ)) () cellOf_inj emb₁ defs₀ Variants.none L lv m ρ main (segs m ρ)
    (fun c Q => by rw [main_eq_segs m ρ c])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      rw [ownU_emb₁]
      iintro HP
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c))
    (Tₙ := fun c => StableHlo.held (c : Thread nD τ) (Pipeline.ucRefs τ sig) (W7 m ρ c))
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c) from Pipeline.unscopedBufs_held c (W0 m ρ c)]
      iintro ⟨⟨Hh, -, HO, -, -, -⟩, -⟩
      imodintro
      isplitl [Hh]; · iexact Hh
      iexists ∅; iexact HO)
    (QY := QY m ρ)
    (hfin := fun c s' => by
      iintro ⟨Hh, HSI⟩
      unfold StableHlo.held
      ihave Hr := (pointsTo_read_all (Pipeline.ucRefs τ sig) (fun b => ((c : Thread nD τ).1, b)) (W7 m ρ c) s') $$ [Hh HSI]
      · isplitl [Hh] <;> iassumption
      icases Hr with ⟨%h, HSI⟩
      imodintro
      isplitr; · ipureintro; exact h
      iexact HSI)
    (hQ := fun _ h => h)

end Cert.Kernel.Hand

end
-- ==== Proof.WordMainFrame.lean ====
/-
  The frame of the pairwise kernel's program, at any float instance: no host operation writes an argument array and
  the region writes the statistics table only, so the three arguments end as they were launched.
-/
import proofs.«135098_j86354612453531_2_alg».proof.Proof.WordMainRun

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An argument array reaches the end as launched. -/
theorem args_kept (c : Dev nD) (b : Ref sig .tc) (hb : b = main_arg0 ∨ b = main_arg1 ∨ b = main_arg2) :
    W7 m ρ c b = m ((c : Thread nD τ).loc b) := by
  have hne : b ≠ main_v17 := by rcases hb with rfl | rfl | rfl <;> decide
  have k0 : ∀ op ∈ (hostOps0 : List (HloOp τ sig (Elt F))), (Proc.devRef .tc b : DevRef τ sig) ∉ op.writes := by
    intro op hop
    simp only [hostOps0, List.mem_cons, List.mem_nil_iff, or_false] at hop
    rcases hb with rfl | rfl | rfl <;>
    rcases hop with rfl | rfl | rfl | rfl | rfl | rfl <;>
    exact fun h => absurd (Finset.mem_singleton.mp h) (StableHlo.devRef_ne_of_ne (by decide))
  have k1 : ∀ op ∈ (hostOps0_1 : List (HloOp τ sig (Elt F))), (Proc.devRef .tc b : DevRef τ sig) ∉ op.writes := by
    intro op hop
    simp only [hostOps0_1, List.mem_cons, List.mem_nil_iff, or_false] at hop
    rcases hb with rfl | rfl | rfl <;>
    rcases hop with rfl | rfl | rfl | rfl | rfl <;>
    exact fun h => absurd (Finset.mem_singleton.mp h) (StableHlo.devRef_ne_of_ne (by decide))
  have k2 : ∀ op ∈ (hostOps0_2 : List (HloOp τ sig (Elt F))), (Proc.devRef .tc b : DevRef τ sig) ∉ op.writes := by
    intro op hop
    simp only [hostOps0_2, List.mem_cons, List.mem_nil_iff, or_false] at hop
    rcases hb with rfl | rfl | rfl <;>
    rcases hop with rfl | rfl | rfl | rfl | rfl | rfl | rfl | rfl | rfl | rfl | rfl | rfl | rfl | rfl <;>
    exact fun h => absurd (Finset.mem_singleton.mp h) (StableHlo.devRef_ne_of_ne (by decide))
  have k3 : ∀ op ∈ (hostOps1 : List (HloOp τ sig (Elt F))), (Proc.devRef .tc b : DevRef τ sig) ∉ op.writes := by
    intro op hop
    simp only [hostOps1, List.mem_cons, List.mem_nil_iff, or_false] at hop
    rcases hb with rfl | rfl | rfl <;>
    rcases hop with rfl | rfl | rfl | rfl | rfl | rfl | rfl | rfl | rfl | rfl | rfl <;>
    exact fun h => absurd (Finset.mem_singleton.mp h) (StableHlo.devRef_ne_of_ne (by decide))
  have k4 : ∀ op ∈ (hostOps1_1 : List (HloOp τ sig (Elt F))), (Proc.devRef .tc b : DevRef τ sig) ∉ op.writes := by
    intro op hop
    simp only [hostOps1_1, List.mem_cons, List.mem_nil_iff, or_false] at hop
    rcases hb with rfl | rfl | rfl <;>
    rcases hop with rfl | rfl | rfl <;>
    exact fun h => absurd (Finset.mem_singleton.mp h) (StableHlo.devRef_ne_of_ne (by decide))
  have k5 : ∀ op ∈ (hostOps1_2 : List (HloOp τ sig (Elt F))), (Proc.devRef .tc b : DevRef τ sig) ∉ op.writes := by
    intro op hop
    simp only [hostOps1_2, List.mem_cons, List.mem_nil_iff, or_false] at hop
    rcases hb with rfl | rfl | rfl <;>
    rcases hop with rfl | rfl | rfl | rfl | rfl | rfl | rfl | rfl | rfl | rfl | rfl | rfl | rfl | rfl | rfl <;>
    exact fun h => absurd (Finset.mem_singleton.mp h) (StableHlo.devRef_ne_of_ne (by decide))
  calc W7 m ρ c b = W6 m ρ c b := StableHlo.after_of_forall_not_mem _ _ k5
    _ = W5 m ρ c b := StableHlo.after_of_forall_not_mem _ _ k4
    _ = W4 m ρ c b := StableHlo.after_of_forall_not_mem _ _ k3
    _ = W3 m ρ c b := W4_of_ne m ρ c b hne
    _ = W2 m ρ c b := StableHlo.after_of_forall_not_mem _ _ k2
    _ = W1 m ρ c b := StableHlo.after_of_forall_not_mem _ _ k1
    _ = W0 m ρ c b := StableHlo.after_of_forall_not_mem _ _ k0
    _ = m ((c : Thread nD τ).loc b) := rfl

theorem mem_ucRefs_arg0 : (Proc.devRef .tc main_arg0 : DevRef τ sig) ∈ Pipeline.ucRefs τ sig := by decide
theorem mem_ucRefs_arg1 : (Proc.devRef .tc main_arg1 : DevRef τ sig) ∈ Pipeline.ucRefs τ sig := by decide
theorem mem_ucRefs_arg2 : (Proc.devRef .tc main_arg2 : DevRef τ sig) ∈ Pipeline.ucRefs τ sig := by decide
theorem mem_ucRefs_res : (Proc.devRef .tc main_v38 : DevRef τ sig) ∈ Pipeline.ucRefs τ sig := by decide

/-- The run with the result named and the arguments unchanged. -/
theorem run_result : θ_run defs (onTc (τ := τ) (main (F := F))) ⟨m, fun _ => 0, ρ⟩ (fun r => ∀ c : Dev nD,
      r.2.mem ((c.tc : Thread nD τ).loc main_v38) = W7 m ρ c (Proc.devRef .tc main_v38)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨h c _ mem_ucRefs_res,
      (h c _ mem_ucRefs_arg0).trans (args_kept m ρ c main_arg0 (.inl rfl)),
      (h c _ mem_ucRefs_arg1).trans (args_kept m ρ c main_arg1 (.inr (.inl rfl))),
      (h c _ mem_ucRefs_arg2).trans (args_kept m ρ c main_arg2 (.inr (.inr rfl)))⟩) (run_main m ρ)

/-- THE FRAME. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_result m ρ)

end Cert.Kernel.Hand

end
-- ==== Proof.PointCases.lean ====
/-
  The grid of the pairwise kernel is 16 row blocks by 8 column tiles, visited row block by row block: point t is row
  block t / 8 and column tile t % 8. Within a row block the body keeps three running column sums in a 512 x 3 scratch:
  it clears the scratch at the first tile (t % 8 = 0), adds the tile's three row sums at every tile, and copies the
  scratch to the output block at the last tile (t % 8 = 7). This module states those two tests in closed form over
  the grid, says at which points the output block is left alone, and names the staging buffers the body is called with.
-/
import proofs.«135098_j86354612453531_2_alg».proof.Proof.Gen.KernelIdeal.Launch
import proofs.«135098_j86354612453531_2_alg».proof.Proof.Gen.KernelIdeal.Skeleton
import proofs.«135098_j86354612453531_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The two tests on the column tile -/

/-- The body clears the running sums: the column tile is the first of its row block. -/
abbrev firstTile (i : grid0.Coords) : Prop :=
  (Scalar.cmpi .ne (Scalar.extui (Scalar.cmpi .eq (BitVec.ofNat 32 (i 1).val) 0#32)) 0#32) = 1#1
theorem firstTile_iff : ∀ t : Fin cfg0.N, firstTile (grid0.coords t) ↔ t.val % 8 = 0 :=
  (by decide +kernel : ∀ t : Fin grid0.N, firstTile (grid0.coords t) ↔ t.val % 8 = 0)

/-- The body copies the running sums out: the column tile is the last of its row block. -/
abbrev lastTile (i : grid0.Coords) : Prop := k0_cond2 i = 1#1
theorem lastTile_iff : ∀ t : Fin cfg0.N, lastTile (grid0.coords t) ↔ t.val % 8 = 7 :=
  (by decide +kernel : ∀ t : Fin grid0.N, lastTile (grid0.coords t) ↔ t.val % 8 = 7)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
/-- Off the last tile the output block is idle and is not written back. -/
theorem idle6 : ∀ t : Fin cfg0.N, ¬lastTile (grid0.coords t) → cfg0.idle 6 (grid0.coords t) = true := by decide +kernel
theorem noFlush6 : ∀ t : Fin cfg0.N, ¬lastTile (grid0.coords t) → (cfg0.win 6).flush t = false := by decide +kernel
/-- At the last tile it is live. -/
theorem live6 : ∀ t : Fin cfg0.N, lastTile (grid0.coords t) → cfg0.idle 6 (grid0.coords t) = false := by decide +kernel

/-! ## The staging buffers at a point -/

abbrev ms0 (t : Fin cfg0.N) : Memref sig .tc .vmem S512x64 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x64 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x5 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x5 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1024 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S512x3 .f32 := win0_6.stage (cfg0.slots t 6)
abbrev hs6 (t : Fin cfg0.N) : (ms6 t).IsWhole := hstage0_6 ((cfg0.slots t 6).cast nbuf0_6)

/-- The scratch holding the three running column sums, and the view its contents are stated through. -/
abbrev sums : Memref sig .tc .vmem S512x3 .f32 := Memref.whole cc0_scratch0
abbrev sumsView : View sig .tc .vmem S512x3 .f32 := sums.view
/-- One staging buffer of the output window, through which its contents are stated. -/
abbrev outView : View sig .tc .vmem S512x3 .f32 := (Memref.whole cc0_stg6_0 : Memref sig .tc .vmem S512x3 .f32).view

end Cert.KernelIdeal.Hand

end
-- ==== Proof.PointRunFirst.lean ====
/-
  The body at the first column tile of a row block: it overwrites the whole scratch with zeros, then adds the tile's
  three row sums column by column; the output block is not touched. Run on whole staging buffers holding the six input
  blocks, the output buffer at any contents (handed back as found) and the scratch at any contents, it ends with the
  inputs as they were and the scratch rewritten by the pieces the run finds.
-/
import proofs.«135098_j86354612453531_2_alg».proof.Proof.PointCases

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
noncomputable def runFirst (c : Dev nD) (i : grid0.Coords) (a2 : Memref sig .tc .vmem S512x64 .bf16) (ha2 : a2.IsWhole) (a3 : Memref sig .tc .vmem S1024x64 .bf16) (ha3 : a3.IsWhole) (a4 : Memref sig .tc .vmem S512x5 .f32) (ha4 : a4.IsWhole) (a5 : Memref sig .tc .vmem S1024x5 .f32) (ha5 : a5.IsWhole) (a6 : Memref sig .tc .vmem S1x1024 .f32) (ha6 : a6.IsWhole) (a7 : Memref sig .tc .vmem S1x1024 .f32) (ha7 : a7.IsWhole) (a8 : Memref sig .tc .vmem S512x3 .f32) (ha8 : a8.IsWhole) (a9 : Memref sig .tc .vmem S512x3 .f32) (ha9 : a9.IsWhole) (hc0 : firstTile i) (hc1 : ¬lastTile i)
    (x0 : Vec F S512x64 .bf16) (x1 : Vec F S1024x64 .bf16) (x2 : Vec F S512x5 .f32) (x3 : Vec F S1024x5 .f32) (x4 : Vec F S1x1024 .f32) (x5 : Vec F S1x1024 .f32) :
    { LS : List (View.Piece (Elt F) S512x3 .f32) //
      ∀ (xo : Vec F S512x3 .f32) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare xo ∗ (∃ d, owns (c : Thread nD τ) a9 fullShare d)
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare xo ∗ (∃ f, a9.view.loc (c : Thread nD τ) ↦[a9.view.set]{fullShare} a9.view.writes (Elt F) f LS)) -∗ K ⟨⟩))
          ⊢ wp frame (wpE (defs₀ (F := F)) Variants.none c none) E (cc0__plcc_kernel i a2 ha2 a3 ha3 a4 ha4 a5 ha5 a6 ha6 a7 ha7 a8 ha8 a9 ha9) K } := by
  refine ⟨?_, fun xo E K => ?run⟩
  case run =>
    simp only [cc0__plcc_kernel_eq_skeleton]; unfold cc0__plcc_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds, %fs, -, HS⟩, Hk⟩
    obtain rfl := ha2.eq_unread hf0; obtain rfl := ha3.eq_unread hf1; obtain rfl := ha4.eq_unread hf2; obtain rfl := ha5.eq_unread hf3; obtain rfl := ha6.eq_unread hf4; obtain rfl := ha7.eq_unread hf5
    sl_exec (disch := first | exact hc0 | exact hc1)
    sl_step
    iapply Hk
    isplitl [H0]
    · iexists _; isplitr; · ipureintro; exact ha2.read_unread _
      iexact H0
    isplitl [H1]
    · iexists _; isplitr; · ipureintro; exact ha3.read_unread _
      iexact H1
    isplitl [H2]
    · iexists _; isplitr; · ipureintro; exact ha4.read_unread _
      iexact H2
    isplitl [H3]
    · iexists _; isplitr; · ipureintro; exact ha5.read_unread _
      iexact H3
    isplitl [H4]
    · iexists _; isplitr; · ipureintro; exact ha6.read_unread _
      iexact H4
    isplitl [H5]
    · iexists _; isplitr; · ipureintro; exact ha7.read_unread _
      iexact H5
    isplitl [H6]
    · iexists _; isplitr; · ipureintro; exact hf6
      iexact H6
    iexists _; iexact HS

end Cert.KernelIdeal.Hand

end
-- ==== Proof.PointRunMiddle.lean ====
/-
  The body at a column tile that is neither the first nor the last of its row block: it adds the tile's three row sums
  to the scratch column by column and touches nothing else. Run on whole staging buffers holding the six input blocks,
  the output buffer at any contents (handed back as found) and the scratch at the sums the tile before left, it ends
  with the inputs as they were and the scratch rewritten by the pieces the run finds.
-/
import proofs.«135098_j86354612453531_2_alg».proof.Proof.PointRunFirst

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
noncomputable def runMiddle (c : Dev nD) (i : grid0.Coords) (a2 : Memref sig .tc .vmem S512x64 .bf16) (ha2 : a2.IsWhole) (a3 : Memref sig .tc .vmem S1024x64 .bf16) (ha3 : a3.IsWhole) (a4 : Memref sig .tc .vmem S512x5 .f32) (ha4 : a4.IsWhole) (a5 : Memref sig .tc .vmem S1024x5 .f32) (ha5 : a5.IsWhole) (a6 : Memref sig .tc .vmem S1x1024 .f32) (ha6 : a6.IsWhole) (a7 : Memref sig .tc .vmem S1x1024 .f32) (ha7 : a7.IsWhole) (a8 : Memref sig .tc .vmem S512x3 .f32) (ha8 : a8.IsWhole) (a9 : Memref sig .tc .vmem S512x3 .f32) (ha9 : a9.IsWhole) (hc0 : ¬firstTile i) (hc1 : ¬lastTile i)
    (x0 : Vec F S512x64 .bf16) (x1 : Vec F S1024x64 .bf16) (x2 : Vec F S512x5 .f32) (x3 : Vec F S1024x5 .f32) (x4 : Vec F S1x1024 .f32) (x5 : Vec F S1x1024 .f32) (xs : Vec F S512x3 .f32) :
    { LS : List (View.Piece (Elt F) S512x3 .f32) //
      ∀ (xo : Vec F S512x3 .f32) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare xo ∗ owns (c : Thread nD τ) a9 fullShare xs
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare xo ∗ (∃ f, a9.view.loc (c : Thread nD τ) ↦[a9.view.set]{fullShare} a9.view.writes (Elt F) f LS)) -∗ K ⟨⟩))
          ⊢ wp frame (wpE (defs₀ (F := F)) Variants.none c none) E (cc0__plcc_kernel i a2 ha2 a3 ha3 a4 ha4 a5 ha5 a6 ha6 a7 ha7 a8 ha8 a9 ha9) K } := by
  refine ⟨?_, fun xo E K => ?run⟩
  case run =>
    simp only [cc0__plcc_kernel_eq_skeleton]; unfold cc0__plcc_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS⟩, Hk⟩
    obtain rfl := ha2.eq_unread hf0; obtain rfl := ha3.eq_unread hf1; obtain rfl := ha4.eq_unread hf2; obtain rfl := ha5.eq_unread hf3; obtain rfl := ha6.eq_unread hf4; obtain rfl := ha7.eq_unread hf5; obtain rfl := ha9.eq_unread hfs
    sl_exec (disch := first | exact hc0 | exact hc1)
    sl_step
    iapply Hk
    isplitl [H0]
    · iexists _; isplitr; · ipureintro; exact ha2.read_unread _
      iexact H0
    isplitl [H1]
    · iexists _; isplitr; · ipureintro; exact ha3.read_unread _
      iexact H1
    isplitl [H2]
    · iexists _; isplitr; · ipureintro; exact ha4.read_unread _
      iexact H2
    isplitl [H3]
    · iexists _; isplitr; · ipureintro; exact ha5.read_unread _
      iexact H3
    isplitl [H4]
    · iexists _; isplitr; · ipureintro; exact ha6.read_unread _
      iexact H4
    isplitl [H5]
    · iexists _; isplitr; · ipureintro; exact ha7.read_unread _
      iexact H5
    isplitl [H6]
    · iexists _; isplitr; · ipureintro; exact hf6
      iexact H6
    iexists _; iexact HS

end Cert.KernelIdeal.Hand

end
-- ==== Proof.PointRunLast.lean ====
/-
  The body at the last column tile of a row block: it adds the tile's three row sums to the scratch column by column
  and then copies the whole scratch into the output block. Run on whole staging buffers holding the six input blocks,
  the output buffer at any contents and the scratch at the sums the tile before left, it ends with the inputs as they
  were, and the output buffer and the scratch rewritten by the pieces the run finds.
-/
import proofs.«135098_j86354612453531_2_alg».proof.Proof.PointRunMiddle

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
noncomputable def runLast (c : Dev nD) (i : grid0.Coords) (a2 : Memref sig .tc .vmem S512x64 .bf16) (ha2 : a2.IsWhole) (a3 : Memref sig .tc .vmem S1024x64 .bf16) (ha3 : a3.IsWhole) (a4 : Memref sig .tc .vmem S512x5 .f32) (ha4 : a4.IsWhole) (a5 : Memref sig .tc .vmem S1024x5 .f32) (ha5 : a5.IsWhole) (a6 : Memref sig .tc .vmem S1x1024 .f32) (ha6 : a6.IsWhole) (a7 : Memref sig .tc .vmem S1x1024 .f32) (ha7 : a7.IsWhole) (a8 : Memref sig .tc .vmem S512x3 .f32) (ha8 : a8.IsWhole) (a9 : Memref sig .tc .vmem S512x3 .f32) (ha9 : a9.IsWhole) (hc0 : ¬firstTile i) (hc1 : lastTile i)
    (x0 : Vec F S512x64 .bf16) (x1 : Vec F S1024x64 .bf16) (x2 : Vec F S512x5 .f32) (x3 : Vec F S1024x5 .f32) (x4 : Vec F S1x1024 .f32) (x5 : Vec F S1x1024 .f32) (xs : Vec F S512x3 .f32) :
    Σ' (LO : List (View.Piece (Elt F) S512x3 .f32)), { LS : List (View.Piece (Elt F) S512x3 .f32) //
      ∀ (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ (∃ d, owns (c : Thread nD τ) a8 fullShare d) ∗ owns (c : Thread nD τ) a9 fullShare xs
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ (∃ f, a8.view.loc (c : Thread nD τ) ↦[a8.view.set]{fullShare} a8.view.writes (Elt F) f LO) ∗ (∃ f, a9.view.loc (c : Thread nD τ) ↦[a9.view.set]{fullShare} a9.view.writes (Elt F) f LS)) -∗ K ⟨⟩))
          ⊢ wp frame (wpE (defs₀ (F := F)) Variants.none c none) E (cc0__plcc_kernel i a2 ha2 a3 ha3 a4 ha4 a5 ha5 a6 ha6 a7 ha7 a8 ha8 a9 ha9) K } := by
  refine ⟨?_, ?_, fun E K => ?run⟩
  case run =>
    simp only [cc0__plcc_kernel_eq_skeleton]; unfold cc0__plcc_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
    obtain rfl := ha2.eq_unread hf0; obtain rfl := ha3.eq_unread hf1; obtain rfl := ha4.eq_unread hf2; obtain rfl := ha5.eq_unread hf3; obtain rfl := ha6.eq_unread hf4; obtain rfl := ha7.eq_unread hf5; obtain rfl := ha9.eq_unread hfs
    sl_exec (disch := first | exact hc0 | exact hc1)
    sl_step
    iapply Hk
    isplitl [H0]
    · iexists _; isplitr; · ipureintro; exact ha2.read_unread _
      iexact H0
    isplitl [H1]
    · iexists _; isplitr; · ipureintro; exact ha3.read_unread _
      iexact H1
    isplitl [H2]
    · iexists _; isplitr; · ipureintro; exact ha4.read_unread _
      iexact H2
    isplitl [H3]
    · iexists _; isplitr; · ipureintro; exact ha5.read_unread _
      iexact H3
    isplitl [H4]
    · iexists _; isplitr; · ipureintro; exact ha6.read_unread _
      iexact H4
    isplitl [H5]
    · iexists _; isplitr; · ipureintro; exact ha7.read_unread _
      iexact H5
    isplitl [H6]
    · iexists _; iexact H6
    iexists _; iexact HS

end Cert.KernelIdeal.Hand

end
-- ==== Proof.PointData.lean ====
/-
  The proof data of the pairwise kernel's one region, for any contents `V` the region finds in the arrays.

  Within row block r the scratch holds, after column tile k, the three running column sums over tiles 0..k of that row
  block; at tile 7 the output block receives them. Nothing else is carried: the first tile of the next row block
  clears the scratch. `sumsAfter` follows that point by point (what the output buffer and the scratch hold after point
  n), the invariant before a point is the scratch at what the point before left (at anything before the first), every
  input window's buffer holds its block of the array whether or not the pipeline fetched it at that point, and the
  two windows on the normalised features and the two on the coordinate table hold their array at the two halves of
  the full share.
-/
import proofs.«135098_j86354612453531_2_alg».proof.Proof.PointRunLast

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not. -/
theorem before4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not. -/
theorem before5_of {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## What each case leaves -/

/-- A placeholder for the output buffer at a point that leaves it alone: nothing consults it. -/
def outIdle : Vec F S512x3 .f32 := outView.read (Elt F) outView.junk

/-- The first tile's pieces cover the scratch (a whole store, then three column stores). -/
theorem coverFirst (c : Dev nD) (i : grid0.Coords) (a2 : Memref sig .tc .vmem S512x64 .bf16) (ha2 : a2.IsWhole) (a3 : Memref sig .tc .vmem S1024x64 .bf16) (ha3 : a3.IsWhole) (a4 : Memref sig .tc .vmem S512x5 .f32) (ha4 : a4.IsWhole) (a5 : Memref sig .tc .vmem S1024x5 .f32) (ha5 : a5.IsWhole) (a6 : Memref sig .tc .vmem S1x1024 .f32) (ha6 : a6.IsWhole) (a7 : Memref sig .tc .vmem S1x1024 .f32) (ha7 : a7.IsWhole) (a8 : Memref sig .tc .vmem S512x3 .f32) (ha8 : a8.IsWhole) (a9 : Memref sig .tc .vmem S512x3 .f32) (ha9 : a9.IsWhole) (hc0 : firstTile i) (hc1 : ¬lastTile i)
    (x0 : Vec F S512x64 .bf16) (x1 : Vec F S1024x64 .bf16) (x2 : Vec F S512x5 .f32) (x3 : Vec F S1024x5 .f32) (x4 : Vec F S1x1024 .f32) (x5 : Vec F S1x1024 .f32) (y : S512x3.Idx) :
    ∃ pc ∈ (runFirst c i a2 ha2 a3 ha3 a4 ha4 a5 ha5 a6 ha6 a7 ha7 a8 ha8 a9 ha9 hc0 hc1 x0 x1 x2 x3 x4 x5).1, y ∈ pc.1.set :=
  View.cover_of_tiledBy (runFirst c i a2 ha2 a3 ha3 a4 ha4 a5 ha5 a6 ha6 a7 ha7 a8 ha8 a9 ha9 hc0 hc1 x0 x1 x2 x3 x4 x5).1 S512x1.size (by sl_kernel_rfl) y
/-- What the first tile leaves in the scratch. -/
def sumsFirst (c : Dev nD) (i : grid0.Coords) (a2 : Memref sig .tc .vmem S512x64 .bf16) (ha2 : a2.IsWhole) (a3 : Memref sig .tc .vmem S1024x64 .bf16) (ha3 : a3.IsWhole) (a4 : Memref sig .tc .vmem S512x5 .f32) (ha4 : a4.IsWhole) (a5 : Memref sig .tc .vmem S1024x5 .f32) (ha5 : a5.IsWhole) (a6 : Memref sig .tc .vmem S1x1024 .f32) (ha6 : a6.IsWhole) (a7 : Memref sig .tc .vmem S1x1024 .f32) (ha7 : a7.IsWhole) (a8 : Memref sig .tc .vmem S512x3 .f32) (ha8 : a8.IsWhole) (a9 : Memref sig .tc .vmem S512x3 .f32) (ha9 : a9.IsWhole) (hc0 : firstTile i) (hc1 : ¬lastTile i)
    (x0 : Vec F S512x64 .bf16) (x1 : Vec F S1024x64 .bf16) (x2 : Vec F S512x5 .f32) (x3 : Vec F S1024x5 .f32) (x4 : Vec F S1x1024 .f32) (x5 : Vec F S1x1024 .f32) : Vec F S512x3 .f32 :=
  sumsView.read (Elt F) (sumsView.writes (Elt F) sumsView.junk (runFirst c i a2 ha2 a3 ha3 a4 ha4 a5 ha5 a6 ha6 a7 ha7 a8 ha8 a9 ha9 hc0 hc1 x0 x1 x2 x3 x4 x5).1)

/-- A middle tile's three column stores tile the scratch. -/
theorem coverMiddle (c : Dev nD) (i : grid0.Coords) (a2 : Memref sig .tc .vmem S512x64 .bf16) (ha2 : a2.IsWhole) (a3 : Memref sig .tc .vmem S1024x64 .bf16) (ha3 : a3.IsWhole) (a4 : Memref sig .tc .vmem S512x5 .f32) (ha4 : a4.IsWhole) (a5 : Memref sig .tc .vmem S1024x5 .f32) (ha5 : a5.IsWhole) (a6 : Memref sig .tc .vmem S1x1024 .f32) (ha6 : a6.IsWhole) (a7 : Memref sig .tc .vmem S1x1024 .f32) (ha7 : a7.IsWhole) (a8 : Memref sig .tc .vmem S512x3 .f32) (ha8 : a8.IsWhole) (a9 : Memref sig .tc .vmem S512x3 .f32) (ha9 : a9.IsWhole) (hc0 : ¬firstTile i) (hc1 : ¬lastTile i)
    (x0 : Vec F S512x64 .bf16) (x1 : Vec F S1024x64 .bf16) (x2 : Vec F S512x5 .f32) (x3 : Vec F S1024x5 .f32) (x4 : Vec F S1x1024 .f32) (x5 : Vec F S1x1024 .f32) (xs : Vec F S512x3 .f32) (y : S512x3.Idx) :
    ∃ pc ∈ (runMiddle c i a2 ha2 a3 ha3 a4 ha4 a5 ha5 a6 ha6 a7 ha7 a8 ha8 a9 ha9 hc0 hc1 x0 x1 x2 x3 x4 x5 xs).1, y ∈ pc.1.set :=
  View.cover_of_tiledL (runMiddle c i a2 ha2 a3 ha3 a4 ha4 a5 ha5 a6 ha6 a7 ha7 a8 ha8 a9 ha9 hc0 hc1 x0 x1 x2 x3 x4 x5 xs).1 S512x1.size (by sl_kernel_rfl) y
/-- What a middle tile leaves in the scratch, over what the tile before left. -/
def sumsMiddle (c : Dev nD) (i : grid0.Coords) (a2 : Memref sig .tc .vmem S512x64 .bf16) (ha2 : a2.IsWhole) (a3 : Memref sig .tc .vmem S1024x64 .bf16) (ha3 : a3.IsWhole) (a4 : Memref sig .tc .vmem S512x5 .f32) (ha4 : a4.IsWhole) (a5 : Memref sig .tc .vmem S1024x5 .f32) (ha5 : a5.IsWhole) (a6 : Memref sig .tc .vmem S1x1024 .f32) (ha6 : a6.IsWhole) (a7 : Memref sig .tc .vmem S1x1024 .f32) (ha7 : a7.IsWhole) (a8 : Memref sig .tc .vmem S512x3 .f32) (ha8 : a8.IsWhole) (a9 : Memref sig .tc .vmem S512x3 .f32) (ha9 : a9.IsWhole) (hc0 : ¬firstTile i) (hc1 : ¬lastTile i)
    (x0 : Vec F S512x64 .bf16) (x1 : Vec F S1024x64 .bf16) (x2 : Vec F S512x5 .f32) (x3 : Vec F S1024x5 .f32) (x4 : Vec F S1x1024 .f32) (x5 : Vec F S1x1024 .f32) (xs : Vec F S512x3 .f32) : Vec F S512x3 .f32 :=
  sumsView.read (Elt F) (sumsView.writes (Elt F) sumsView.junk (runMiddle c i a2 ha2 a3 ha3 a4 ha4 a5 ha5 a6 ha6 a7 ha7 a8 ha8 a9 ha9 hc0 hc1 x0 x1 x2 x3 x4 x5 xs).1)

/-- The last tile's three column stores tile the scratch, and its one whole store covers the output block. -/
theorem coverLastSums (c : Dev nD) (i : grid0.Coords) (a2 : Memref sig .tc .vmem S512x64 .bf16) (ha2 : a2.IsWhole) (a3 : Memref sig .tc .vmem S1024x64 .bf16) (ha3 : a3.IsWhole) (a4 : Memref sig .tc .vmem S512x5 .f32) (ha4 : a4.IsWhole) (a5 : Memref sig .tc .vmem S1024x5 .f32) (ha5 : a5.IsWhole) (a6 : Memref sig .tc .vmem S1x1024 .f32) (ha6 : a6.IsWhole) (a7 : Memref sig .tc .vmem S1x1024 .f32) (ha7 : a7.IsWhole) (a8 : Memref sig .tc .vmem S512x3 .f32) (ha8 : a8.IsWhole) (a9 : Memref sig .tc .vmem S512x3 .f32) (ha9 : a9.IsWhole) (hc0 : ¬firstTile i) (hc1 : lastTile i)
    (x0 : Vec F S512x64 .bf16) (x1 : Vec F S1024x64 .bf16) (x2 : Vec F S512x5 .f32) (x3 : Vec F S1024x5 .f32) (x4 : Vec F S1x1024 .f32) (x5 : Vec F S1x1024 .f32) (xs : Vec F S512x3 .f32) (y : S512x3.Idx) :
    ∃ pc ∈ (runLast c i a2 ha2 a3 ha3 a4 ha4 a5 ha5 a6 ha6 a7 ha7 a8 ha8 a9 ha9 hc0 hc1 x0 x1 x2 x3 x4 x5 xs).2.1, y ∈ pc.1.set :=
  View.cover_of_tiledL (runLast c i a2 ha2 a3 ha3 a4 ha4 a5 ha5 a6 ha6 a7 ha7 a8 ha8 a9 ha9 hc0 hc1 x0 x1 x2 x3 x4 x5 xs).2.1 S512x1.size (by sl_kernel_rfl) y
theorem coverLastOut (c : Dev nD) (i : grid0.Coords) (a2 : Memref sig .tc .vmem S512x64 .bf16) (ha2 : a2.IsWhole) (a3 : Memref sig .tc .vmem S1024x64 .bf16) (ha3 : a3.IsWhole) (a4 : Memref sig .tc .vmem S512x5 .f32) (ha4 : a4.IsWhole) (a5 : Memref sig .tc .vmem S1024x5 .f32) (ha5 : a5.IsWhole) (a6 : Memref sig .tc .vmem S1x1024 .f32) (ha6 : a6.IsWhole) (a7 : Memref sig .tc .vmem S1x1024 .f32) (ha7 : a7.IsWhole) (a8 : Memref sig .tc .vmem S512x3 .f32) (ha8 : a8.IsWhole) (a9 : Memref sig .tc .vmem S512x3 .f32) (ha9 : a9.IsWhole) (hc0 : ¬firstTile i) (hc1 : lastTile i)
    (x0 : Vec F S512x64 .bf16) (x1 : Vec F S1024x64 .bf16) (x2 : Vec F S512x5 .f32) (x3 : Vec F S1024x5 .f32) (x4 : Vec F S1x1024 .f32) (x5 : Vec F S1x1024 .f32) (xs : Vec F S512x3 .f32) (y : S512x3.Idx) :
    ∃ pc ∈ (runLast c i a2 ha2 a3 ha3 a4 ha4 a5 ha5 a6 ha6 a7 ha7 a8 ha8 a9 ha9 hc0 hc1 x0 x1 x2 x3 x4 x5 xs).1, y ∈ pc.1.set :=
  View.cover_of_tiledL (runLast c i a2 ha2 a3 ha3 a4 ha4 a5 ha5 a6 ha6 a7 ha7 a8 ha8 a9 ha9 hc0 hc1 x0 x1 x2 x3 x4 x5 xs).1 S512x3.size (by sl_kernel_rfl) y
def sumsLast (c : Dev nD) (i : grid0.Coords) (a2 : Memref sig .tc .vmem S512x64 .bf16) (ha2 : a2.IsWhole) (a3 : Memref sig .tc .vmem S1024x64 .bf16) (ha3 : a3.IsWhole) (a4 : Memref sig .tc .vmem S512x5 .f32) (ha4 : a4.IsWhole) (a5 : Memref sig .tc .vmem S1024x5 .f32) (ha5 : a5.IsWhole) (a6 : Memref sig .tc .vmem S1x1024 .f32) (ha6 : a6.IsWhole) (a7 : Memref sig .tc .vmem S1x1024 .f32) (ha7 : a7.IsWhole) (a8 : Memref sig .tc .vmem S512x3 .f32) (ha8 : a8.IsWhole) (a9 : Memref sig .tc .vmem S512x3 .f32) (ha9 : a9.IsWhole) (hc0 : ¬firstTile i) (hc1 : lastTile i)
    (x0 : Vec F S512x64 .bf16) (x1 : Vec F S1024x64 .bf16) (x2 : Vec F S512x5 .f32) (x3 : Vec F S1024x5 .f32) (x4 : Vec F S1x1024 .f32) (x5 : Vec F S1x1024 .f32) (xs : Vec F S512x3 .f32) : Vec F S512x3 .f32 :=
  sumsView.read (Elt F) (sumsView.writes (Elt F) sumsView.junk (runLast c i a2 ha2 a3 ha3 a4 ha4 a5 ha5 a6 ha6 a7 ha7 a8 ha8 a9 ha9 hc0 hc1 x0 x1 x2 x3 x4 x5 xs).2.1)
/-- What the last tile leaves in the output block. -/
def outLast (c : Dev nD) (i : grid0.Coords) (a2 : Memref sig .tc .vmem S512x64 .bf16) (ha2 : a2.IsWhole) (a3 : Memref sig .tc .vmem S1024x64 .bf16) (ha3 : a3.IsWhole) (a4 : Memref sig .tc .vmem S512x5 .f32) (ha4 : a4.IsWhole) (a5 : Memref sig .tc .vmem S1024x5 .f32) (ha5 : a5.IsWhole) (a6 : Memref sig .tc .vmem S1x1024 .f32) (ha6 : a6.IsWhole) (a7 : Memref sig .tc .vmem S1x1024 .f32) (ha7 : a7.IsWhole) (a8 : Memref sig .tc .vmem S512x3 .f32) (ha8 : a8.IsWhole) (a9 : Memref sig .tc .vmem S512x3 .f32) (ha9 : a9.IsWhole) (hc0 : ¬firstTile i) (hc1 : lastTile i)
    (x0 : Vec F S512x64 .bf16) (x1 : Vec F S1024x64 .bf16) (x2 : Vec F S512x5 .f32) (x3 : Vec F S1024x5 .f32) (x4 : Vec F S1x1024 .f32) (x5 : Vec F S1x1024 .f32) (xs : Vec F S512x3 .f32) : Vec F S512x3 .f32 :=
  outView.read (Elt F) (outView.writes (Elt F) outView.junk (runLast c i a2 ha2 a3 ha3 a4 ha4 a5 ha5 a6 ha6 a7 ha7 a8 ha8 a9 ha9 hc0 hc1 x0 x1 x2 x3 x4 x5 xs).1)

/-! ## Point by point -/

/-- What the output buffer and the scratch hold after the body at position `n`. -/
def sumsAfter (c : Dev nD) : (n : ℕ) → n < cfg0.N → Vec F S512x3 .f32 × Vec F S512x3 .f32
  | 0, hn => (outIdle, sumsFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) sums (Memref.isWhole_whole _) ((firstTile_iff ⟨0, hn⟩).mpr (Nat.zero_mod _)) (fun h => (fun h => by (try dsimp only at h); omega) ((lastTile_iff ⟨0, hn⟩).mp h)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩))
  | n + 1, hn =>
    if h0 : (n + 1) % 8 = 0 then
      (outIdle, sumsFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) sums (Memref.isWhole_whole _) ((firstTile_iff ⟨n + 1, hn⟩).mpr h0) (fun h => (fun h => by (try dsimp only at h); omega) ((lastTile_iff ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩))
    else if h1 : (n + 1) % 8 = 7 then
      (outLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) sums (Memref.isWhole_whole _) (fun h => h0 ((firstTile_iff ⟨n + 1, hn⟩).mp h)) ((lastTile_iff ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (sumsAfter c n (Nat.lt_of_succ_lt hn)).2,
       sumsLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) sums (Memref.isWhole_whole _) (fun h => h0 ((firstTile_iff ⟨n + 1, hn⟩).mp h)) ((lastTile_iff ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (sumsAfter c n (Nat.lt_of_succ_lt hn)).2)
    else
      (outIdle, sumsMiddle c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) sums (Memref.isWhole_whole _) (fun h => h0 ((firstTile_iff ⟨n + 1, hn⟩).mp h)) (fun h => h1 ((lastTile_iff ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (sumsAfter c n (Nat.lt_of_succ_lt hn)).2)

theorem sumsAfter_first (c : Dev nD) (t : Fin cfg0.N) (h0 : t.val % 8 = 0) (h1 : ¬t.val % 8 = 7) :
    sumsAfter V c t.val t.isLt = (outIdle, sumsFirst c (grid0.coords t) (ms0 t) (hs0 t) (ms1 t) (hs1 t) (ms2 t) (hs2 t) (ms3 t) (hs3 t) (ms4 t) (hs4 t) (ms5 t) (hs5 t) (ms6 t) (hs6 t) sums (Memref.isWhole_whole _) ((firstTile_iff t).mpr h0) (fun h => h1 ((lastTile_iff t).mp h)) (iblk V c 0 t) (iblk V c 1 t) (iblk V c 2 t) (iblk V c 3 t) (iblk V c 4 t) (iblk V c 5 t)) := by
  obtain ⟨n, hn⟩ := t
  cases n with
  | zero => exact rfl
  | succ n => exact (dif_pos h0).trans rfl

theorem sumsAfter_middle (c : Dev nD) (t : Fin cfg0.N) (h0 : ¬t.val % 8 = 0) (h1 : ¬t.val % 8 = 7) :
    sumsAfter V c t.val t.isLt = (outIdle, sumsMiddle c (grid0.coords t) (ms0 t) (hs0 t) (ms1 t) (hs1 t) (ms2 t) (hs2 t) (ms3 t) (hs3 t) (ms4 t) (hs4 t) (ms5 t) (hs5 t) (ms6 t) (hs6 t) sums (Memref.isWhole_whole _) (fun h => h0 ((firstTile_iff t).mp h)) (fun h => h1 ((lastTile_iff t).mp h)) (iblk V c 0 t) (iblk V c 1 t) (iblk V c 2 t) (iblk V c 3 t) (iblk V c 4 t) (iblk V c 5 t) (sumsAfter V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem sumsAfter_last (c : Dev nD) (t : Fin cfg0.N) (h0 : ¬t.val % 8 = 0) (h1 : t.val % 8 = 7) :
    sumsAfter V c t.val t.isLt = (outLast c (grid0.coords t) (ms0 t) (hs0 t) (ms1 t) (hs1 t) (ms2 t) (hs2 t) (ms3 t) (hs3 t) (ms4 t) (hs4 t) (ms5 t) (hs5 t) (ms6 t) (hs6 t) sums (Memref.isWhole_whole _) (fun h => h0 ((firstTile_iff t).mp h)) ((lastTile_iff t).mpr h1) (iblk V c 0 t) (iblk V c 1 t) (iblk V c 2 t) (iblk V c 3 t) (iblk V c 4 t) (iblk V c 5 t) (sumsAfter V c (t.val - 1) (Nat.lt_of_le_of_lt (Nat.sub_le _ _) t.isLt)).2,
      sumsLast c (grid0.coords t) (ms0 t) (hs0 t) (ms1 t) (hs1 t) (ms2 t) (hs2 t) (ms3 t) (hs3 t) (ms4 t) (hs4 t) (ms5 t) (hs5 t) (ms6 t) (hs6 t) sums (Memref.isWhole_whole _) (fun h => h0 ((firstTile_iff t).mp h)) ((lastTile_iff t).mpr h1) (iblk V c 0 t) (iblk V c 1 t) (iblk V c 2 t) (iblk V c 3 t) (iblk V c 4 t) (iblk V c 5 t) (sumsAfter V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- The scoped buffers no window stages are the scratch alone. -/
theorem scopedRest_sums (c : Dev nD) :
    (Pipeline.scopedRest (Ix := Unit) (Name := ℕ) (U := UR sig nD τ) (Lvl := ℕ) (Val := Elt F) spec0 c : sProp 𝕄)
      = iprop(∃ d, owns (c : Thread nD τ) sums fullShare d) := by
  rw [scopedRest0_eq]; simp only [sums, owns_whole]; try rfl

/-- Before position `n`: the scratch at anything before the first point, then at what the point before left. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => owns (c : Thread nD τ) sums fullShare ((sumsAfter V c n hn).2)

theorem PhiS_zero (c : Dev nD) (n : ℕ) (h : n ≤ cfg0.N) (hz : n = 0) :
    PhiS V c n h = Pipeline.scopedRest (Ix := Unit) (Name := ℕ) (U := UR sig nD τ) (Lvl := ℕ) (Val := Elt F) spec0 c := by
  subst hz; rfl
theorem PhiS_succ (c : Dev nD) (n : ℕ) (hn : n < cfg0.N) :
    PhiS V c (n + 1) hn = owns (c : Thread nD τ) sums fullShare ((sumsAfter V c n hn).2) := rfl
theorem PhiS_pos (c : Dev nD) (n : ℕ) (h : n ≤ cfg0.N) (hz : n ≠ 0) :
    PhiS V c n h = owns (c : Thread nD τ) sums fullShare ((sumsAfter V c (n - 1) (by omega)).2) := by
  cases n with
  | zero => exact absurd rfl hz
  | succ n => rfl

/-! ## The proof data -/

/-- The arrays as the region finds them; after the body each input's buffer at its block and the output's at
    `sumsAfter`; the invariant `PhiS`; nothing owed; the two windows on one array at the two halves of the full share. -/
def dats (_ : Fin 1) (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => (sumsAfter V c t.val t.isLt).1
  Φ t := PhiS V c t.val (Nat.le_of_lt_succ t.isLt)
  q w := match w with
    | ⟨0, _⟩ => fullShare.left
    | ⟨1, _⟩ => fullShare.right
    | ⟨2, _⟩ => fullShare.left
    | ⟨3, _⟩ => fullShare.right
    | _ => fullShare
  owed _ := 0

theorem A_eq (c : Dev nD) (w : Fin cfg0.W) : (dats V 0 c).A w = V c (Pipeline.arrRef spec0 w) := by
  dsimp only [dats]
theorem PhiS_castSucc (c : Dev nD) (t : Fin cfg0.N) :
    (dats V 0 c).Φ t.castSucc = PhiS V c t.val (Nat.le_of_lt t.isLt) := by
  dsimp only [dats]; simp only [Fin.coe_castSucc]
theorem after0 (c : Dev nD) (t : Fin cfg0.N) : (dats V 0 c).after 0 t = iblk V c 0 t := by dsimp only [dats]
theorem after1 (c : Dev nD) (t : Fin cfg0.N) : (dats V 0 c).after 1 t = iblk V c 1 t := by dsimp only [dats]
theorem after2 (c : Dev nD) (t : Fin cfg0.N) : (dats V 0 c).after 2 t = iblk V c 2 t := by dsimp only [dats]
theorem after3 (c : Dev nD) (t : Fin cfg0.N) : (dats V 0 c).after 3 t = iblk V c 3 t := by dsimp only [dats]
theorem after4 (c : Dev nD) (t : Fin cfg0.N) : (dats V 0 c).after 4 t = iblk V c 4 t := by dsimp only [dats]
theorem after5 (c : Dev nD) (t : Fin cfg0.N) : (dats V 0 c).after 5 t = iblk V c 5 t := by dsimp only [dats]
theorem after6 (c : Dev nD) (t : Fin cfg0.N) : (dats V 0 c).after 6 t = (sumsAfter V c t.val t.isLt).1 := by dsimp only [dats]
theorem before0 (c : Dev nD) (t : Fin cfg0.N) (d) : (dats V 0 c).before 0 t d = iblk V c 0 t :=
  before0_of V (dats V 0 c) (A_eq V c 0) (after0 V c) t d
theorem leaves0 (c : Dev nD) (t : Fin cfg0.N) :
    (dats V 0 c).leavesExact 0 t = owns (c : Thread nD τ) (ms0 t) fullShare (iblk V c 0 t) := by
  unfold Dat.leavesExact; rw [live0 t, after0]
theorem before1 (c : Dev nD) (t : Fin cfg0.N) (d) : (dats V 0 c).before 1 t d = iblk V c 1 t :=
  before1_of V (dats V 0 c) (A_eq V c 1) (after1 V c) t d
theorem leaves1 (c : Dev nD) (t : Fin cfg0.N) :
    (dats V 0 c).leavesExact 1 t = owns (c : Thread nD τ) (ms1 t) fullShare (iblk V c 1 t) := by
  unfold Dat.leavesExact; rw [live1 t, after1]
theorem before2 (c : Dev nD) (t : Fin cfg0.N) (d) : (dats V 0 c).before 2 t d = iblk V c 2 t :=
  before2_of V (dats V 0 c) (A_eq V c 2) (after2 V c) t d
theorem leaves2 (c : Dev nD) (t : Fin cfg0.N) :
    (dats V 0 c).leavesExact 2 t = owns (c : Thread nD τ) (ms2 t) fullShare (iblk V c 2 t) := by
  unfold Dat.leavesExact; rw [live2 t, after2]
theorem before3 (c : Dev nD) (t : Fin cfg0.N) (d) : (dats V 0 c).before 3 t d = iblk V c 3 t :=
  before3_of V (dats V 0 c) (A_eq V c 3) (after3 V c) t d
theorem leaves3 (c : Dev nD) (t : Fin cfg0.N) :
    (dats V 0 c).leavesExact 3 t = owns (c : Thread nD τ) (ms3 t) fullShare (iblk V c 3 t) := by
  unfold Dat.leavesExact; rw [live3 t, after3]
theorem before4 (c : Dev nD) (t : Fin cfg0.N) (d) : (dats V 0 c).before 4 t d = iblk V c 4 t :=
  before4_of V (dats V 0 c) (A_eq V c 4) (after4 V c) t d
theorem leaves4 (c : Dev nD) (t : Fin cfg0.N) :
    (dats V 0 c).leavesExact 4 t = owns (c : Thread nD τ) (ms4 t) fullShare (iblk V c 4 t) := by
  unfold Dat.leavesExact; rw [live4 t, after4]
theorem before5 (c : Dev nD) (t : Fin cfg0.N) (d) : (dats V 0 c).before 5 t d = iblk V c 5 t :=
  before5_of V (dats V 0 c) (A_eq V c 5) (after5 V c) t d
theorem leaves5 (c : Dev nD) (t : Fin cfg0.N) :
    (dats V 0 c).leavesExact 5 t = owns (c : Thread nD τ) (ms5 t) fullShare (iblk V c 5 t) := by
  unfold Dat.leavesExact; rw [live5 t, after5]

/-! ## The body obligation -/

def bodyPre (c : Dev nD) (t : Fin cfg0.N) : sProp 𝕄 :=
  iprop((dats V 0 c).Φ t.castSucc ∗ (dats V 0 c).owesAt () t.castSucc
    ∗ (∃ d, owns (c : Thread nD τ) (ms0 t) fullShare ((dats V 0 c).before 0 t d))
    ∗ (∃ d, owns (c : Thread nD τ) (ms1 t) fullShare ((dats V 0 c).before 1 t d))
    ∗ (∃ d, owns (c : Thread nD τ) (ms2 t) fullShare ((dats V 0 c).before 2 t d))
    ∗ (∃ d, owns (c : Thread nD τ) (ms3 t) fullShare ((dats V 0 c).before 3 t d))
    ∗ (∃ d, owns (c : Thread nD τ) (ms4 t) fullShare ((dats V 0 c).before 4 t d))
    ∗ (∃ d, owns (c : Thread nD τ) (ms5 t) fullShare ((dats V 0 c).before 5 t d))
    ∗ (∃ d, owns (c : Thread nD τ) (ms6 t) fullShare ((dats V 0 c).before 6 t d)))

def bodyPost (c : Dev nD) (t : Fin cfg0.N) : sProp 𝕄 :=
  iprop((dats V 0 c).Φ t.succ ∗ (dats V 0 c).owesAt () t.succ
    ∗ (dats V 0 c).leavesExact 0 t
    ∗ (dats V 0 c).leavesExact 1 t
    ∗ (dats V 0 c).leavesExact 2 t
    ∗ (dats V 0 c).leavesExact 3 t
    ∗ (dats V 0 c).leavesExact 4 t
    ∗ (dats V 0 c).leavesExact 5 t
    ∗ (dats V 0 c).leavesExact 6 t)

set_option maxHeartbeats 4800000 in
/-- The body at any point: the inputs' buffers hold their blocks; the closed forms say which of the three cases the
    point is in; the invariant hands over the scratch at what the point before left and takes it back at this point's. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3, before4, before5]
  rw [show (dats V 0 c).owesAt () t.succ = (dats V 0 c).owesAt () t.castSucc from rfl]
  rw [show (dats V 0 c).Φ t.succ = PhiS V c (t.val + 1) t.isLt from rfl, PhiS_succ]
  rw [leaves0, leaves1, leaves2, leaves3, leaves4, leaves5]
  have hN : t.val < 128 := lt_of_lt_of_eq t.isLt (show cfg0.N = 128 from N_0)
  by_cases h0 : t.val % 8 = 0
  · have h1 : ¬t.val % 8 = 7 := by omega
    rw [Dat.leavesExact_idle (dats V 0 c) 6 t (idle6 t (fun h => h1 ((lastTile_iff t).mp h))) (noFlush6 t (fun h => h1 ((lastTile_iff t).mp h)))]
    rw [sumsAfter_first V c t h0 h1]
    unfold sumsFirst; (try dsimp only)
    by_cases hz : t.val = 0
    · rw [PhiS_castSucc V c t, PhiS_zero V c _ _ hz, scopedRest_sums]
      iintro ⟨HS, Ho, ⟨%d0, H0⟩, ⟨%d1, H1⟩, ⟨%d2, H2⟩, ⟨%d3, H3⟩, ⟨%d4, H4⟩, ⟨%d5, H5⟩, ⟨%d6, H6⟩⟩
      iapply ((runFirst c (grid0.coords t) _ _ _ _ _ _ _ _ _ _ _ _ _ _ _ _ ((firstTile_iff t).mpr h0) (fun h => h1 ((lastTile_iff t).mp h)) (iblk V c 0 t) (iblk V c 1 t) (iblk V c 2 t) (iblk V c 3 t) (iblk V c 4 t) (iblk V c 5 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, ⟨%es, HS⟩⟩
      isplitl [HS]
      · unfold owns; iexists _; isplitr
        swap; · iexact HS
        ipureintro; exact View.read_writes_of_cover _ _ _ _ _ (coverFirst c _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS_castSucc V c t, PhiS_pos V c _ _ hz]
      iintro ⟨HS, Ho, ⟨%d0, H0⟩, ⟨%d1, H1⟩, ⟨%d2, H2⟩, ⟨%d3, H3⟩, ⟨%d4, H4⟩, ⟨%d5, H5⟩, ⟨%d6, H6⟩⟩
      iapply ((runFirst c (grid0.coords t) _ _ _ _ _ _ _ _ _ _ _ _ _ _ _ _ ((firstTile_iff t).mpr h0) (fun h => h1 ((lastTile_iff t).mp h)) (iblk V c 0 t) (iblk V c 1 t) (iblk V c 2 t) (iblk V c 3 t) (iblk V c 4 t) (iblk V c 5 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexists _; iexact HS
      iintro ⟨H0, H1, H2, H3, H4, H5, H6, ⟨%es, HS⟩⟩
      isplitl [HS]
      · unfold owns; iexists _; isplitr
        swap; · iexact HS
        ipureintro; exact View.read_writes_of_cover _ _ _ _ _ (coverFirst c _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun e => h0 (by rw [e])
    by_cases h1 : t.val % 8 = 7
    · rw [show (dats V 0 c).leavesExact 6 t = owns (c : Thread nD τ) (ms6 t) fullShare ((dats V 0 c).after 6 t) from by
        unfold Dat.leavesExact; rw [live6 t ((lastTile_iff t).mpr h1)], after6]
      rw [sumsAfter_last V c t h0 h1]
      unfold outLast sumsLast; (try dsimp only)
      rw [PhiS_castSucc V c t, PhiS_pos V c _ _ hz]
      iintro ⟨HS, Ho, ⟨%d0, H0⟩, ⟨%d1, H1⟩, ⟨%d2, H2⟩, ⟨%d3, H3⟩, ⟨%d4, H4⟩, ⟨%d5, H5⟩, ⟨%d6, H6⟩⟩
      iapply ((runLast c (grid0.coords t) _ _ _ _ _ _ _ _ _ _ _ _ _ _ _ _ (fun h => h0 ((firstTile_iff t).mp h)) ((lastTile_iff t).mpr h1) (iblk V c 0 t) (iblk V c 1 t) (iblk V c 2 t) (iblk V c 3 t) (iblk V c 4 t) (iblk V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, ⟨%e6, H6⟩, ⟨%es, HS⟩⟩
      isplitl [HS]
      · unfold owns; iexists _; isplitr
        swap; · iexact HS
        ipureintro; exact View.read_writes_of_cover _ _ _ _ _ (coverLastSums c _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (coverLastOut c _ _ _ _ _ _ _ _ _ _ _ _ _ _ _ _ _ _ _ _ _ _ _ _ _ _)
    · rw [Dat.leavesExact_idle (dats V 0 c) 6 t (idle6 t (fun h => h1 ((lastTile_iff t).mp h))) (noFlush6 t (fun h => h1 ((lastTile_iff t).mp h)))]
      rw [sumsAfter_middle V c t h0 h1]
      unfold sumsMiddle; (try dsimp only)
      rw [PhiS_castSucc V c t, PhiS_pos V c _ _ hz]
      iintro ⟨HS, Ho, ⟨%d0, H0⟩, ⟨%d1, H1⟩, ⟨%d2, H2⟩, ⟨%d3, H3⟩, ⟨%d4, H4⟩, ⟨%d5, H5⟩, ⟨%d6, H6⟩⟩
      iapply ((runMiddle c (grid0.coords t) _ _ _ _ _ _ _ _ _ _ _ _ _ _ _ _ (fun h => h0 ((firstTile_iff t).mp h)) (fun h => h1 ((lastTile_iff t).mp h)) (iblk V c 0 t) (iblk V c 1 t) (iblk V c 2 t) (iblk V c 3 t) (iblk V c 4 t) (iblk V c 5 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, ⟨%es, HS⟩⟩
      isplitl [HS]
      · unfold owns; iexists _; isplitr
        swap; · iexact HS
        ipureintro; exact View.read_writes_of_cover _ _ _ _ _ (coverMiddle c _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation (c : Dev nD) : BodyObligation (dats (F := F) V 0 c) (defs₀ (F := F)) Variants.none () Set.univ := fun t => by
  rw [bigSep_W0, bigSep_W0]
  exact sound_body V c t

/-- What the region is handed (the scratch at anything) is the invariant before the first point. -/
theorem phi_in (c : Dev nD) :
    (Pipeline.scopedRest (Ix := Unit) (Name := ℕ) (U := UR sig nD τ) (Lvl := ℕ) (Val := Elt F) spec0 c : sProp 𝕄) ⊢ (dats V 0 c).Φ 0 := by
  rw [show (dats V 0 c).Φ 0 = PhiS V c 0 (Nat.zero_le _) from rfl, PhiS_zero V c 0 _ rfl]
  try exact Idealize.SL.BI.Entails.refl _

/-- After the last point the invariant gives the scratch back, its contents forgotten. -/
theorem phi_out (c : Dev nD) :
    (dats V 0 c).Φ (Fin.last cfg0.N) ⊢ (Pipeline.scopedRest (Ix := Unit) (Name := ℕ) (U := UR sig nD τ) (Lvl := ℕ) (Val := Elt F) spec0 c : sProp 𝕄) := by
  rw [show (dats V 0 c).Φ (Fin.last cfg0.N) = PhiS V c (Fin.last cfg0.N).val (Nat.le_of_lt_succ (Fin.last cfg0.N).isLt) from rfl,
    PhiS_pos V c _ _ (by rw [Fin.val_last]; have : cfg0.N = 128 := N_0; omega), scopedRest_sums]
  iintro HS
  iexists _; iexact HS

end Cert.KernelIdeal.Hand

end
-- ==== Proof.MainRun.lean ====
/-
  The run of the pairwise kernel's program, at any float instance.

  The program is three stretches of host operations (the mask and its count; the row norms, outlined; the normalised
  features, the squared coordinate norms, the coordinate table with the norm and mask columns, and the two row
  vectors), then the one region, then three more stretches (the three statistics columns sliced out and the ratio; the
  guarded value, outlined; the two means and the final combination). The region is handed the normalised features
  through two windows and the coordinate table through two windows: each of those two buffers is held once, and the
  proof data deal it to its two windows at the two halves of the full share; the other three arrays are each behind
  one window, at the full share. Between the region's ends only the scratch is kept by the invariant; every other
  unscoped buffer bypasses the region. The region writes one array, the statistics table, and the valuation after the
  region is the one before it updated at that buffer.
-/
import proofs.«135098_j86354612453531_2_alg».proof.Proof.PointData
import proofs.«135098_j86354612453531_2_alg».proof.Proof.LibSharedFibers
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The valuations along the program -/

/-- Core `c`'s buffers at launch, -/
abbrev W0 (c : Dev nD) : Valuation τ sig (Elt F) := fun b => (s₀ m ρ).mem ((c : Dev nD), b)
/-- after the mask and its count, after the row norms, and when the region is entered. -/
abbrev W1 (c : Dev nD) : Valuation τ sig (Elt F) := StableHlo.after hostOps0 (W0 m ρ c)
abbrev W2 (c : Dev nD) : Valuation τ sig (Elt F) := StableHlo.after hostOps0_1 (W1 m ρ c)
abbrev W3 (c : Dev nD) : Valuation τ sig (Elt F) := StableHlo.after hostOps0_2 (W2 m ρ c)
/-- The region-entry contents read at a TensorCore reference. -/
abbrev V (c : Dev nD) (b : Ref sig .tc) : Buf (Elt F) ((c : Thread nD τ).loc b) := W3 m ρ c b

/-- The statistics table after the region, as the library computes it from the proof data. -/
abbrev stats (c : Dev nD) := (dats (V m ρ) 0 c).arrAt 6 cfg0.N

/-- After the region: the entry valuation updated at the statistics table. -/
def W4 (c : Dev nD) : Valuation τ sig (Elt F) := Function.update (W3 m ρ c) (Proc.devRef .tc main_v17) (stats m ρ c)
abbrev W5 (c : Dev nD) : Valuation τ sig (Elt F) := StableHlo.after hostOps1 (W4 m ρ c)
abbrev W6 (c : Dev nD) : Valuation τ sig (Elt F) := StableHlo.after hostOps1_1 (W5 m ρ c)
abbrev W7 (c : Dev nD) : Valuation τ sig (Elt F) := StableHlo.after hostOps1_2 (W6 m ρ c)

theorem W4_stats (c : Dev nD) : W4 m ρ c (Proc.devRef .tc main_v17) = stats m ρ c := Function.update_self ..
theorem W4_of_ne (c : Dev nD) (b : Ref sig .tc) (hb : b ≠ main_v17) : W4 m ρ c b = W3 m ρ c b :=
  Function.update_of_ne (StableHlo.devRef_ne_of_ne hb) ..

/-! ## The two shared buffers dealt to their windows -/

/-- The buffers behind the windows' arrays. -/
theorem image_arrRef : ∀ b ∈ Finset.univ.image (Pipeline.arrRef spec0), b = main_v9 ∨ b = main_v14 ∨ b = main_v15 ∨ b = main_v16 ∨ b = main_v17 := by
  decide

theorem fiber_v9 : (Finset.univ.filter fun w : Fin 7 => Pipeline.arrRef spec0 w = main_v9) = {0, 1} := by decide
theorem fiber_v14 : (Finset.univ.filter fun w : Fin 7 => Pipeline.arrRef spec0 w = main_v14) = {2, 3} := by decide
theorem fiber_v15 : (Finset.univ.filter fun w : Fin 7 => Pipeline.arrRef spec0 w = main_v15) = {4} := by decide
theorem fiber_v16 : (Finset.univ.filter fun w : Fin 7 => Pipeline.arrRef spec0 w = main_v16) = {5} := by decide
theorem fiber_v17 : (Finset.univ.filter fun w : Fin 7 => Pipeline.arrRef spec0 w = main_v17) = {6} := by decide

/-- Whatever the arrays hold: the distinct buffers behind them, each whole at the full share, are the proof data's
    arrays — the normalised features and the coordinate table split in halves between their two windows. -/
theorem arrays_dealt (Vr : (c : Dev nD) → (b : Ref sig .tc) → Buf (Elt F) ((c : Thread nD τ).loc b)) (c : Dev nD)
    (V' : (b : Ref sig .tc) → Buf (Elt F) ((c : Thread nD τ).loc b))
    (Fa : (w : Fin cfg0.W) → Buf (Elt F) ((cfg0.spec w).arr.view.loc (c.tc : Thread nD τ))) (hF : ∀ w, Fa w = V' (Pipeline.arrRef cfg0.spec w)) :
    (Pipeline.arrBufs (Ix := Unit) (Name := ℕ) (U := UR sig nD τ) (Lvl := ℕ) cfg0.spec c V' : sProp 𝕄) = (dats Vr 0 c).arrays Fa :=
  SharedFibers.arrays_of_fibers (dats Vr 0 c) arr_whole0 V' Fa hF fun b hb => by
    rcases image_arrRef b hb with rfl | rfl | rfl | rfl | rfl
    · rw [show (Finset.univ.filter fun w : Fin cfg0.W => Pipeline.arrRef cfg0.spec w = main_v9) = {0, 1} from fiber_v9,
        bigSep_insert (by decide), bigSep_singleton]
      exact SharedFibers.split_halves _ _
    · rw [show (Finset.univ.filter fun w : Fin cfg0.W => Pipeline.arrRef cfg0.spec w = main_v14) = {2, 3} from fiber_v14,
        bigSep_insert (by decide), bigSep_singleton]
      exact SharedFibers.split_halves _ _
    · rw [show (Finset.univ.filter fun w : Fin cfg0.W => Pipeline.arrRef cfg0.spec w = main_v15) = {4} from fiber_v15, bigSep_singleton]; rfl
    · rw [show (Finset.univ.filter fun w : Fin cfg0.W => Pipeline.arrRef cfg0.spec w = main_v16) = {5} from fiber_v16, bigSep_singleton]; rfl
    · rw [show (Finset.univ.filter fun w : Fin cfg0.W => Pipeline.arrRef cfg0.spec w = main_v17) = {6} from fiber_v17, bigSep_singleton]; rfl

/-! ## The segments -/

abbrev L : GSem nD τ sig → Finset Unit := fun _ => ∅
abbrev lv : GSem nD τ sig → Unit → ℕ := fun _ _ => 0
abbrev adm : (p : Fin 1) → (pcfgs (F := F) p).Adm := fun p => (cfgs p).toPCfg_adm
/-- What rides beside the buffers: the core owes nothing. -/
abbrev R (c : Dev nD) : sProp 𝕄 := iprop(∃ W, owes (c : Thread nD τ) (0 : CellTallies nD τ sig Unit) W)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

/-- A stretch of host operations over the unscoped buffers. -/
def hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- After the region every window's array holds what the library computes: the inputs what they held, the statistics
    table the blocks written back. -/
theorem arrAt_W4 (c : Dev nD) (w : Fin cfg0.W) :
    (dats (V m ρ) 0 c).arrAt w cfg0.N = (fun b : Ref sig .tc => W4 m ρ c b) (Pipeline.arrRef cfg0.spec w) := by
  fin_cases w
  · show (dats (V m ρ) 0 c).arrAt 0 cfg0.N = W4 m ρ c (Proc.devRef .tc main_v9)
    exact ((dats (V m ρ) 0 c).arrAt_in 0 rfl _).trans (W4_of_ne m ρ c main_v9 (by decide)).symm
  · show (dats (V m ρ) 0 c).arrAt 1 cfg0.N = W4 m ρ c (Proc.devRef .tc main_v9)
    exact ((dats (V m ρ) 0 c).arrAt_in 1 rfl _).trans (W4_of_ne m ρ c main_v9 (by decide)).symm
  · show (dats (V m ρ) 0 c).arrAt 2 cfg0.N = W4 m ρ c (Proc.devRef .tc main_v14)
    exact ((dats (V m ρ) 0 c).arrAt_in 2 rfl _).trans (W4_of_ne m ρ c main_v14 (by decide)).symm
  · show (dats (V m ρ) 0 c).arrAt 3 cfg0.N = W4 m ρ c (Proc.devRef .tc main_v14)
    exact ((dats (V m ρ) 0 c).arrAt_in 3 rfl _).trans (W4_of_ne m ρ c main_v14 (by decide)).symm
  · show (dats (V m ρ) 0 c).arrAt 4 cfg0.N = W4 m ρ c (Proc.devRef .tc main_v15)
    exact ((dats (V m ρ) 0 c).arrAt_in 4 rfl _).trans (W4_of_ne m ρ c main_v15 (by decide)).symm
  · show (dats (V m ρ) 0 c).arrAt 5 cfg0.N = W4 m ρ c (Proc.devRef .tc main_v16)
    exact ((dats (V m ρ) 0 c).arrAt_in 5 rfl _).trans (W4_of_ne m ρ c main_v16 (by decide)).symm
  · show (dats (V m ρ) 0 c).arrAt 6 cfg0.N = W4 m ρ c (Proc.devRef .tc main_v17)
    exact (W4_stats m ρ c).symm

set_option backward.isDefEq.respectTransparency.types false in
/-- THE REGION, entered from what the third stretch left and left for the fourth. -/
def reg0 : Pipeline.RegionSeg (pcfgs (F := F)) adm (dats (V m ρ)) () defs₀ Variants.none L lv 0 where
  win := winFacts₀0
  block_pos := block_pos0
  stage_whole := stage_whole0
  K := PEmpty
  osem k := k.elim
  ho := Pipeline.OwnSemFacts.none _
  hbody c := (body_obligation (V m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X _ := iprop(emp)
  Y _ := iprop(emp)
  Z c := Pipeline.unscopedRest (Ix := Unit) (Name := ℕ) (U := UR sig nD τ) (Lvl := ℕ) spec0 c (V m ρ c)
  hentry c := by
    rw [show StableHlo.held (c : Thread nD τ) (Pipeline.ucRefs τ sig) (W3 m ρ c) = unscopedBufs c (V m ρ c) from (Pipeline.unscopedBufs_held c _).symm,
      Pipeline.ownSems0_none]
    have hsplit := SharedFibers.arrays_of_unscopedBufs_of_eq (Ix := Unit) (Name := ℕ) (U := UR sig nD τ) (Lvl := ℕ) cfgs 0 winFacts₀0.arr_unscoped
      (dats (V m ρ) 0 c) (V m ρ c) (arrays_dealt (V m ρ) c (V m ρ c)) (A_eq (V m ρ) c)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    iintro ⟨-, -, Hr⟩
    iapply (phi_in (V m ρ) c); iexact Hr
  hout c := by
    rw [Pipeline.ownSems0_none]
    iintro H
    isplitr; · iempintro
    isplitr; · iempintro
    iapply (phi_out (V m ρ) c); iexact H
  hexit c := by
    have hx := SharedFibers.unscopedBufs_of_arrays_of_eq (Ix := Unit) (Name := ℕ) (U := UR sig nD τ) (Lvl := ℕ) cfgs 0 winFacts₀0.arr_unscoped
      (dats (V m ρ) 0 c) (V m ρ c) (fun b : Ref sig .tc => W4 m ρ c b) (arrays_dealt (V m ρ) c (fun b : Ref sig .tc => W4 m ρ c b)) ((dats (V m ρ) 0 c).arrAt · cfg0.N)
      (arrAt_W4 m ρ c) (fun b hb => W4_of_ne m ρ c b (fun e => hb (e ▸ by decide)))
    rw [show StableHlo.held (c : Thread nD τ) (Pipeline.ucRefs τ sig) (W4 m ρ c) = unscopedBufs c (fun b : Ref sig .tc => W4 m ρ c b) from (Pipeline.unscopedBufs_held c _).symm]
    iintro ⟨Ha, HO, -, HZ⟩
    imodintro
    isplitr [HO]
    · iapply hx; isplitl [Ha] <;> iassumption
    · unfold Pipeline.Dat.owesAt Pipeline.owesWithin
      icases HO with ⟨%W, -, HO⟩; iexists W; iexact HO

/-- @main as its seven segments. -/
abbrev segs : List (Pipeline.Seg (pcfgs (F := F)) adm (dats (V m ρ)) () defs₀ Variants.none L lv) :=
  [.host (hostSeg hostOps0 hostOps0_sub hostOps0_fresh (W0 m ρ)),
   .host (hostSeg hostOps0_1 hostOps0_1_sub hostOps0_1_fresh (W1 m ρ)),
   .host (hostSeg hostOps0_2 hostOps0_2_sub hostOps0_2_fresh (W2 m ρ)),
   .region (reg0 m ρ),
   .host (hostSeg hostOps1 hostOps1_sub hostOps1_fresh (W4 m ρ)),
   .host (hostSeg hostOps1_1 hostOps1_1_sub hostOps1_1_fresh (W5 m ρ)),
   .host (hostSeg hostOps1_2 hostOps1_2_sub hostOps1_2_fresh (W6 m ρ))]

theorem main_eq_segs (c : Dev nD) : main (F := F) c = Pipeline.Seg.run (segs m ρ) := by
  rw [main_chain, Pipeline.Seg.run_eq_chain]; rfl

/-- What a final state's memory holds on core `c`: every unscoped buffer at the last valuation. -/
def QY (c : Dev nD) (s : MemSt nD τ sig (Elt F)) : Prop :=
  ∀ b ∈ Pipeline.ucRefs τ sig, s.mem ((c : Thread nD τ).1, b) = W7 m ρ c b

set_option backward.isDefEq.respectTransparency.types false in
/-- At the compiled mesh, for any float values, from any memory with zero counters: every weakly fair execution of
    @main on the TensorCores terminates, and every final state has every unscoped buffer at the last valuation. -/
theorem run_main : θ_run defs (onTc (τ := τ) (main (F := F))) (s₀ m ρ) (fun r => ∀ c : Dev nD, QY m ρ c r.2) :=
  Pipeline.θ_run_regions_kit (pcfgs (F := F)) adm (dats (V m ρ)) () cellOf_inj emb₁ defs₀ Variants.none L lv m ρ main (segs m ρ)
    (fun c Q => by rw [main_eq_segs m ρ c])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      rw [ownU_emb₁]
      iintro HP
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c))
    (Tₙ := fun c => StableHlo.held (c : Thread nD τ) (Pipeline.ucRefs τ sig) (W7 m ρ c))
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c) from Pipeline.unscopedBufs_held c (W0 m ρ c)]
      iintro ⟨⟨Hh, -, HO, -, -, -⟩, -⟩
      imodintro
      isplitl [Hh]; · iexact Hh
      iexists ∅; iexact HO)
    (QY := QY m ρ)
    (hfin := fun c s' => by
      iintro ⟨Hh, HSI⟩
      unfold StableHlo.held
      ihave Hr := (pointsTo_read_all (Pipeline.ucRefs τ sig) (fun b => ((c : Thread nD τ).1, b)) (W7 m ρ c) s') $$ [Hh HSI]
      · isplitl [Hh] <;> iassumption
      icases Hr with ⟨%h, HSI⟩
      imodintro
      isplitr; · ipureintro; exact h
      iexact HSI)
    (hQ := fun _ h => h)

end Cert.KernelIdeal.Hand

end
-- ==== Proof.MainFrame.lean ====
/-
  The frame of the pairwise kernel's program, at any float instance: no host operation writes an argument array and
  the region writes the statistics table only, so the three arguments end as they were launched.
-/
import proofs.«135098_j86354612453531_2_alg».proof.Proof.MainRun

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- An argument array reaches the end as launched. -/
theorem args_kept (c : Dev nD) (b : Ref sig .tc) (hb : b = main_arg0 ∨ b = main_arg1 ∨ b = main_arg2) :
    W7 m ρ c b = m ((c : Thread nD τ).loc b) := by
  have hne : b ≠ main_v17 := by rcases hb with rfl | rfl | rfl <;> decide
  have k0 : ∀ op ∈ (hostOps0 : List (HloOp τ sig (Elt F))), (Proc.devRef .tc b : DevRef τ sig) ∉ op.writes := by
    intro op hop
    simp only [hostOps0, List.mem_cons, List.mem_nil_iff, or_false] at hop
    rcases hb with rfl | rfl | rfl <;>
    rcases hop with rfl | rfl | rfl | rfl | rfl | rfl <;>
    exact fun h => absurd (Finset.mem_singleton.mp h) (StableHlo.devRef_ne_of_ne (by decide))
  have k1 : ∀ op ∈ (hostOps0_1 : List (HloOp τ sig (Elt F))), (Proc.devRef .tc b : DevRef τ sig) ∉ op.writes := by
    intro op hop
    simp only [hostOps0_1, List.mem_cons, List.mem_nil_iff, or_false] at hop
    rcases hb with rfl | rfl | rfl <;>
    rcases hop with rfl | rfl | rfl | rfl | rfl <;>
    exact fun h => absurd (Finset.mem_singleton.mp h) (StableHlo.devRef_ne_of_ne (by decide))
  have k2 : ∀ op ∈ (hostOps0_2 : List (HloOp τ sig (Elt F))), (Proc.devRef .tc b : DevRef τ sig) ∉ op.writes := by
    intro op hop
    simp only [hostOps0_2, List.mem_cons, List.mem_nil_iff, or_false] at hop
    rcases hb with rfl | rfl | rfl <;>
    rcases hop with rfl | rfl | rfl | rfl | rfl | rfl | rfl | rfl | rfl | rfl | rfl | rfl | rfl | rfl <;>
    exact fun h => absurd (Finset.mem_singleton.mp h) (StableHlo.devRef_ne_of_ne (by decide))
  have k3 : ∀ op ∈ (hostOps1 : List (HloOp τ sig (Elt F))), (Proc.devRef .tc b : DevRef τ sig) ∉ op.writes := by
    intro op hop
    simp only [hostOps1, List.mem_cons, List.mem_nil_iff, or_false] at hop
    rcases hb with rfl | rfl | rfl <;>
    rcases hop with rfl | rfl | rfl | rfl | rfl | rfl | rfl | rfl | rfl | rfl | rfl <;>
    exact fun h => absurd (Finset.mem_singleton.mp h) (StableHlo.devRef_ne_of_ne (by decide))
  have k4 : ∀ op ∈ (hostOps1_1 : List (HloOp τ sig (Elt F))), (Proc.devRef .tc b : DevRef τ sig) ∉ op.writes := by
    intro op hop
    simp only [hostOps1_1, List.mem_cons, List.mem_nil_iff, or_false] at hop
    rcases hb with rfl | rfl | rfl <;>
    rcases hop with rfl | rfl | rfl <;>
    exact fun h => absurd (Finset.mem_singleton.mp h) (StableHlo.devRef_ne_of_ne (by decide))
  have k5 : ∀ op ∈ (hostOps1_2 : List (HloOp τ sig (Elt F))), (Proc.devRef .tc b : DevRef τ sig) ∉ op.writes := by
    intro op hop
    simp only [hostOps1_2, List.mem_cons, List.mem_nil_iff, or_false] at hop
    rcases hb with rfl | rfl | rfl <;>
    rcases hop with rfl | rfl | rfl | rfl | rfl | rfl | rfl | rfl | rfl | rfl | rfl | rfl | rfl | rfl | rfl <;>
    exact fun h => absurd (Finset.mem_singleton.mp h) (StableHlo.devRef_ne_of_ne (by decide))
  calc W7 m ρ c b = W6 m ρ c b := StableHlo.after_of_forall_not_mem _ _ k5
    _ = W5 m ρ c b := StableHlo.after_of_forall_not_mem _ _ k4
    _ = W4 m ρ c b := StableHlo.after_of_forall_not_mem _ _ k3
    _ = W3 m ρ c b := W4_of_ne m ρ c b hne
    _ = W2 m ρ c b := StableHlo.after_of_forall_not_mem _ _ k2
    _ = W1 m ρ c b := StableHlo.after_of_forall_not_mem _ _ k1
    _ = W0 m ρ c b := StableHlo.after_of_forall_not_mem _ _ k0
    _ = m ((c : Thread nD τ).loc b) := rfl

theorem mem_ucRefs_arg0 : (Proc.devRef .tc main_arg0 : DevRef τ sig) ∈ Pipeline.ucRefs τ sig := by decide
theorem mem_ucRefs_arg1 : (Proc.devRef .tc main_arg1 : DevRef τ sig) ∈ Pipeline.ucRefs τ sig := by decide
theorem mem_ucRefs_arg2 : (Proc.devRef .tc main_arg2 : DevRef τ sig) ∈ Pipeline.ucRefs τ sig := by decide
theorem mem_ucRefs_res : (Proc.devRef .tc main_v38 : DevRef τ sig) ∈ Pipeline.ucRefs τ sig := by decide

/-- The run with the result named and the arguments unchanged. -/
theorem run_result : θ_run defs (onTc (τ := τ) (main (F := F))) ⟨m, fun _ => 0, ρ⟩ (fun r => ∀ c : Dev nD,
      r.2.mem ((c.tc : Thread nD τ).loc main_v38) = W7 m ρ c (Proc.devRef .tc main_v38)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨h c _ mem_ucRefs_res,
      (h c _ mem_ucRefs_arg0).trans (args_kept m ρ c main_arg0 (.inl rfl)),
      (h c _ mem_ucRefs_arg1).trans (args_kept m ρ c main_arg1 (.inr (.inl rfl))),
      (h c _ mem_ucRefs_arg2).trans (args_kept m ρ c main_arg2 (.inr (.inr rfl)))⟩) (run_main m ρ)

/-- THE FRAME. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_result m ρ)

end Cert.KernelIdeal.Hand

end
-- ==== Proof.TileCanon.lean ====
/-
  What each of the three cases leaves in the scratch, as a value.

  A tile's body adds three row sums to the three columns of the 512 x 3 scratch, one column store each; the three stores
  tile the scratch. So after a tile the scratch is the canon of three column pieces, each the column it held plus the
  tile's row sum for that column (`addCols`). At the first tile of a row block the columns it adds to are those of the
  zero block the body has just stored; at the last tile the output block receives a copy of the scratch.
-/
import proofs.«135098_j86354612453531_2_alg».proof.Proof.PointData
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem hz2 : (![0, 0] : Fin 2 → Nat) = fun _ => 0 := funext fun a => by fin_cases a <;> rfl

/-- The three column stores of one tile, over the six input blocks and the scratch contents `xs` they add to. -/
def colPieces (x0 : Vec F S512x64 .bf16) (x1 : Vec F S1024x64 .bf16) (x2 : Vec F S512x5 .f32) (x3 : Vec F S1024x5 .f32) (x4 : Vec F S1x1024 .f32) (x5 : Vec F S1x1024 .f32) (xs : Vec F S512x3 .f32) : List (View.Piece (Elt F) S512x3 .f32) :=
  [⟨Rect.unit ![0, 2] ![512, 1] inb_S512x3_S512x1_0_2, k0_pay13 (k0_pay3 x5) (k0_pay4 x2) (k0_pay5 x0 x1) (k0_pay6 x2 x3 x4) (k0_pay7 x2 x3 x4) (View.ld xs (Rect.unit ![0, 2] ![512, 1] inb_S512x3_S512x1_0_2))⟩,
   ⟨Rect.unit ![0, 1] ![512, 1] inb_S512x3_S512x1_0_1, k0_pay12 (k0_pay3 x5) (k0_pay4 x2) (k0_pay5 x0 x1) (k0_pay7 x2 x3 x4) (View.ld xs (Rect.unit ![0, 1] ![512, 1] inb_S512x3_S512x1_0_1))⟩,
   ⟨Rect.unit ![0, 0] ![512, 1] inb_S512x3_S512x1_0_0, k0_pay11 (k0_pay3 x5) (k0_pay4 x2) (k0_pay5 x0 x1) (View.ld xs (Rect.unit ![0, 0] ![512, 1] inb_S512x3_S512x1_0_0))⟩]

/-- The scratch after one tile's three column updates of `xs`. -/
def addCols (x0 : Vec F S512x64 .bf16) (x1 : Vec F S1024x64 .bf16) (x2 : Vec F S512x5 .f32) (x3 : Vec F S1024x5 .f32) (x4 : Vec F S1x1024 .f32) (x5 : Vec F S1x1024 .f32) (xs : Vec F S512x3 .f32) : Vec F S512x3 .f32 :=
  View.canon (colPieces x0 x1 x2 x3 x4 x5 xs)

/-- The three column stores cover the scratch. -/
theorem colPieces_cover (x0 : Vec F S512x64 .bf16) (x1 : Vec F S1024x64 .bf16) (x2 : Vec F S512x5 .f32) (x3 : Vec F S1024x5 .f32) (x4 : Vec F S1x1024 .f32) (x5 : Vec F S1x1024 .f32) (xs : Vec F S512x3 .f32) (y : S512x3.Idx) :
    ∃ pc ∈ colPieces x0 x1 x2 x3 x4 x5 xs, y ∈ pc.1.set :=
  View.cover_of_tiledL (colPieces x0 x1 x2 x3 x4 x5 xs) S512x1.size (by sl_kernel_rfl) y

/-- A middle tile leaves the scratch it found with the tile's three row sums added. -/
theorem sumsMiddle_eq (c : Dev nD) (i : grid0.Coords) (a2 : Memref sig .tc .vmem S512x64 .bf16) (ha2 : a2.IsWhole) (a3 : Memref sig .tc .vmem S1024x64 .bf16) (ha3 : a3.IsWhole) (a4 : Memref sig .tc .vmem S512x5 .f32) (ha4 : a4.IsWhole) (a5 : Memref sig .tc .vmem S1024x5 .f32) (ha5 : a5.IsWhole) (a6 : Memref sig .tc .vmem S1x1024 .f32) (ha6 : a6.IsWhole) (a7 : Memref sig .tc .vmem S1x1024 .f32) (ha7 : a7.IsWhole) (a8 : Memref sig .tc .vmem S512x3 .f32) (ha8 : a8.IsWhole) (a9 : Memref sig .tc .vmem S512x3 .f32) (ha9 : a9.IsWhole) (hc0 : ¬firstTile i) (hc1 : ¬lastTile i)
    (x0 : Vec F S512x64 .bf16) (x1 : Vec F S1024x64 .bf16) (x2 : Vec F S512x5 .f32) (x3 : Vec F S1024x5 .f32) (x4 : Vec F S1x1024 .f32) (x5 : Vec F S1x1024 .f32) (xs : Vec F S512x3 .f32) :
    sumsMiddle c i a2 ha2 a3 ha3 a4 ha4 a5 ha5 a6 ha6 a7 ha7 a8 ha8 a9 ha9 hc0 hc1 x0 x1 x2 x3 x4 x5 xs = addCols x0 x1 x2 x3 x4 x5 xs := by
  unfold sumsMiddle
  rw [View.read_writes_eq_canon _ _ _ (coverMiddle c i a2 ha2 a3 ha3 a4 ha4 a5 ha5 a6 ha6 a7 ha7 a8 ha8 a9 ha9 hc0 hc1 x0 x1 x2 x3 x4 x5 xs)]
  unfold runMiddle
  dsimp only
  sl_unfold_words
  simp only [View.readAt_eq_ld, ha2.read_unread, ha3.read_unread, ha4.read_unread, ha5.read_unread, ha6.read_unread, ha7.read_unread, ha9.read_unread,
    View.ld_unit_zero (S := S512x64) hz2, View.ld_unit_zero (S := S1024x64) hz2, View.ld_unit_zero (S := S512x5) hz2, View.ld_unit_zero (S := S1024x5) hz2, View.ld_unit_zero (S := S1x1024) hz2]
  rfl

/-- So does the last tile; -/
theorem sumsLast_eq (c : Dev nD) (i : grid0.Coords) (a2 : Memref sig .tc .vmem S512x64 .bf16) (ha2 : a2.IsWhole) (a3 : Memref sig .tc .vmem S1024x64 .bf16) (ha3 : a3.IsWhole) (a4 : Memref sig .tc .vmem S512x5 .f32) (ha4 : a4.IsWhole) (a5 : Memref sig .tc .vmem S1024x5 .f32) (ha5 : a5.IsWhole) (a6 : Memref sig .tc .vmem S1x1024 .f32) (ha6 : a6.IsWhole) (a7 : Memref sig .tc .vmem S1x1024 .f32) (ha7 : a7.IsWhole) (a8 : Memref sig .tc .vmem S512x3 .f32) (ha8 : a8.IsWhole) (a9 : Memref sig .tc .vmem S512x3 .f32) (ha9 : a9.IsWhole) (hc0 : ¬firstTile i) (hc1 : lastTile i)
    (x0 : Vec F S512x64 .bf16) (x1 : Vec F S1024x64 .bf16) (x2 : Vec F S512x5 .f32) (x3 : Vec F S1024x5 .f32) (x4 : Vec F S1x1024 .f32) (x5 : Vec F S1x1024 .f32) (xs : Vec F S512x3 .f32) :
    sumsLast c i a2 ha2 a3 ha3 a4 ha4 a5 ha5 a6 ha6 a7 ha7 a8 ha8 a9 ha9 hc0 hc1 x0 x1 x2 x3 x4 x5 xs = addCols x0 x1 x2 x3 x4 x5 xs := by
  unfold sumsLast
  rw [View.read_writes_eq_canon _ _ _ (coverLastSums c i a2 ha2 a3 ha3 a4 ha4 a5 ha5 a6 ha6 a7 ha7 a8 ha8 a9 ha9 hc0 hc1 x0 x1 x2 x3 x4 x5 xs)]
  unfold runLast
  dsimp only
  sl_unfold_words
  simp only [View.readAt_eq_ld, ha2.read_unread, ha3.read_unread, ha4.read_unread, ha5.read_unread, ha6.read_unread, ha7.read_unread, ha9.read_unread,
    View.ld_unit_zero (S := S512x64) hz2, View.ld_unit_zero (S := S1024x64) hz2, View.ld_unit_zero (S := S512x5) hz2, View.ld_unit_zero (S := S1024x5) hz2, View.ld_unit_zero (S := S1x1024) hz2]
  rfl

/-- and the output block receives a copy of that: the whole scratch read back after the three column stores. -/
theorem outLast_eq (c : Dev nD) (i : grid0.Coords) (a2 : Memref sig .tc .vmem S512x64 .bf16) (ha2 : a2.IsWhole) (a3 : Memref sig .tc .vmem S1024x64 .bf16) (ha3 : a3.IsWhole) (a4 : Memref sig .tc .vmem S512x5 .f32) (ha4 : a4.IsWhole) (a5 : Memref sig .tc .vmem S1024x5 .f32) (ha5 : a5.IsWhole) (a6 : Memref sig .tc .vmem S1x1024 .f32) (ha6 : a6.IsWhole) (a7 : Memref sig .tc .vmem S1x1024 .f32) (ha7 : a7.IsWhole) (a8 : Memref sig .tc .vmem S512x3 .f32) (ha8 : a8.IsWhole) (a9 : Memref sig .tc .vmem S512x3 .f32) (ha9 : a9.IsWhole) (hc0 : ¬firstTile i) (hc1 : lastTile i)
    (x0 : Vec F S512x64 .bf16) (x1 : Vec F S1024x64 .bf16) (x2 : Vec F S512x5 .f32) (x3 : Vec F S1024x5 .f32) (x4 : Vec F S1x1024 .f32) (x5 : Vec F S1x1024 .f32) (xs : Vec F S512x3 .f32) :
    outLast c i a2 ha2 a3 ha3 a4 ha4 a5 ha5 a6 ha6 a7 ha7 a8 ha8 a9 ha9 hc0 hc1 x0 x1 x2 x3 x4 x5 xs = addCols x0 x1 x2 x3 x4 x5 xs := by
  unfold outLast
  rw [View.read_writes_eq_canon _ _ _ (coverLastOut c i a2 ha2 a3 ha3 a4 ha4 a5 ha5 a6 ha6 a7 ha7 a8 ha8 a9 ha9 hc0 hc1 x0 x1 x2 x3 x4 x5 xs)]
  unfold runLast
  dsimp only
  sl_unfold_words
  simp only [View.readAt_eq_ld, ha2.read_unread, ha3.read_unread, ha4.read_unread, ha5.read_unread, ha6.read_unread, ha7.read_unread, ha9.read_unread,
    View.ld_unit_zero (S := S512x64) hz2, View.ld_unit_zero (S := S1024x64) hz2, View.ld_unit_zero (S := S512x5) hz2, View.ld_unit_zero (S := S1024x5) hz2, View.ld_unit_zero (S := S1x1024) hz2]
  rw [View.canon_unit_zero (S := S512x3) hz2]
  exact (View.readCov_eq_canon_ld _ _ _ (colPieces_cover x0 x1 x2 x3 x4 x5 xs)).trans (View.ld_unit_zero (S := S512x3) hz2 _ _)

/-! ## Reading the scratch at an entry -/

section Entries
open Idealize.ShloMosaic.ValueIdx

/-- Entry `(p, k)` of the scratch lies in the column-`k'` band exactly when `k = k'`. -/
theorem mem_col {k' : ℕ} {inb : ∀ a, (![0, k'] : Fin 2 → ℕ) a + (![512, 1] : Fin 2 → ℕ) a ≤ S512x3.size a} (p : Fin 512) (k : Fin 3) :
    (ix2 p k : S512x3.Idx) ∈ (Rect.unit (s := S512x3) ![0, k'] ![512, 1] inb).set ↔ k.val = k' := by
  rw [Rect.mem_set_unit]
  constructor
  · intro h
    have h1 := h (1 : Fin 2)
    change k' ≤ k.val ∧ k.val < k' + 1 at h1
    omega
  · intro e a
    match a with
    | ⟨0, _⟩ => show 0 ≤ p.val ∧ p.val < 0 + 512; omega
    | ⟨1, _⟩ => show k' ≤ k.val ∧ k.val < k' + 1; omega

/-- Row `p` of the column-`k'` band is entry `(p, k')` of the scratch, as a store places it -/
theorem emb_col {k' : ℕ} {inb : ∀ a, (![0, k'] : Fin 2 → ℕ) a + (![512, 1] : Fin 2 → ℕ) a ≤ S512x3.size a} (p : Fin 512) (h : k' < 3) :
    (Rect.unit (s := S512x3) ![0, k'] ![512, 1] inb).emb (ix2 p (0 : Fin 1)) = ix2 p ⟨k', h⟩ := by
  funext ax; apply Fin.ext
  match ax with
  | ⟨0, _⟩ => show 0 + 1 * p.val = p.val; omega
  | ⟨1, _⟩ => show k' + 1 * 0 = k'; omega

/-- and as a load reads it. -/
theorem idx_col {k' : ℕ} {inb : ∀ a, (![0, k'] : Fin 2 → ℕ) a + (![512, 1] : Fin 2 → ℕ) a ≤ S512x3.size a} (p : Fin 512) (h : k' < 3) :
    (Rect.unit (s := S512x3) ![0, k'] ![512, 1] inb).toLoadRect.idx (ix2 p (0 : Fin 1)) = ix2 p ⟨k', h⟩ := by
  funext ax; apply Fin.ext
  match ax with
  | ⟨0, _⟩ => show 0 + 1 * p.val = p.val; omega
  | ⟨1, _⟩ => show k' + 1 * 0 = k'; omega

/-- A column store decides its own column; -/
theorem canon_hit {k' : ℕ} {inb : ∀ a, (![0, k'] : Fin 2 → ℕ) a + (![512, 1] : Fin 2 → ℕ) a ≤ S512x3.size a}
    (w : (⟨2, ![512, 1]⟩ : Shape).Idx → Elt F .f32) (L : List (View.Piece (Elt F) S512x3 .f32)) (p : Fin 512) (h : k' < 3) :
    View.canon ((⟨Rect.unit (s := S512x3) ![0, k'] ![512, 1] inb, w⟩ : View.Piece (Elt F) S512x3 .f32) :: L) (ix2 p ⟨k', h⟩) = w (ix2 p (0 : Fin 1)) := by
  have e := View.canon_cons_emb (Val := Elt F) (Rect.unit (s := S512x3) ![0, k'] ![512, 1] inb) w L (ix2 p (0 : Fin 1))
  rwa [emb_col p h] at e

/-- it leaves the other columns to the earlier stores; -/
theorem canon_miss {k' : ℕ} {inb : ∀ a, (![0, k'] : Fin 2 → ℕ) a + (![512, 1] : Fin 2 → ℕ) a ≤ S512x3.size a}
    (w : (⟨2, ![512, 1]⟩ : Shape).Idx → Elt F .f32) (L : List (View.Piece (Elt F) S512x3 .f32)) (p : Fin 512) (k : Fin 3) (hk : k.val ≠ k') :
    View.canon ((⟨Rect.unit (s := S512x3) ![0, k'] ![512, 1] inb, w⟩ : View.Piece (Elt F) S512x3 .f32) :: L) (ix2 p k) = View.canon L (ix2 p k) :=
  View.canon_cons_of_not_mem _ _ (fun hm => hk ((mem_col (k' := k') (inb := inb) p k).mp hm))

/-- a whole-block store decides every entry; -/
theorem canon_whole (w : S512x3.Idx → Elt F .f32) (L : List (View.Piece (Elt F) S512x3 .f32)) (y : S512x3.Idx) :
    View.canon ((⟨Rect.unit (s := S512x3) ![0, 0] ![512, 3] inb_S512x3_S512x3_0_0, w⟩ : View.Piece (Elt F) S512x3 .f32) :: L) y = w y :=
  congrFun (View.canon_cons_unit_zero (S := S512x3) hz2 _ w L) y

/-- and a column load after stores reads what they left at that column's entry. -/
theorem load_at {κ' : Kind} {sp' : Space} (v : View sig κ' sp' S512x3 .f32) {k' : ℕ}
    {inb : ∀ a, (![0, k'] : Fin 2 → ℕ) a + (![512, 1] : Fin 2 → ℕ) a ≤ S512x3.size a}
    (L : List (View.Piece (Elt F) S512x3 .f32)) (p : Fin 512) (h : k' < 3) :
    v.readCov L (Rect.unit (s := S512x3) ![0, k'] ![512, 1] inb).toLoadRect (ix2 p (0 : Fin 1)) = View.canon L (ix2 p ⟨k', h⟩) := by
  have e := congrFun (View.readCov_eq_canon' v L (Rect.unit (s := S512x3) ![0, k'] ![512, 1] inb).toLoadRect) (ix2 p (0 : Fin 1))
  rw [e, idx_col p h]

end Entries

end Cert.KernelIdeal.Hand

end
-- ==== Proof.LibKeepdims.lean ====
/-
  Arrays with a kept unit axis, read at an index given by coordinates.

  A row reduction that keeps its axis (the sum over the columns of an [a, b] array, kept as an [a, 1] column) is three
  operations: the sum over the second axis into [a], a cast of [a] to [a, 1], and, where the column meets an [a, b]
  array again, its broadcast along the rows. Read at coordinates: the sum at row r is the sum over the columns k of the
  entry (r, k); the cast's entry (r, 0) is the vector's entry r; the broadcast's entry (r, c) is the column's entry (r, 0).
-/
import Idealize.ShloMosaic.Lib.ValueLayout
import Idealize.ShloMosaic.PureOps.Ideal.Laws

namespace Keepdims

open Idealize.ShloMosaic Idealize.ShloMosaic.ValueIdx

variable {α : Type}

/-- An [a] array cast to [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast to [a, b] reads, at (p, c), the column's entry at row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- On the extended reals the sum of an [a, b] array over its second axis, read at row r, is the sum over the columns
    k of the entry (r, k). -/
theorem rowSum_apply {a b : ℕ} {φ : FTy} (v : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ v acc h hφ hacc (ix1 r) = ∑ k : Fin b, v (ix2 r k) := by
  refine (Ideal.multiReduction_add_single v acc h hφ hacc (ix1 r)).trans ?_
  show ∑ k : Fin b, v (h.lift (ix1 r) k) = ∑ k : Fin b, v (ix2 r k)
  refine Finset.sum_congr rfl fun k _ => congrArg v (funext fun d => Fin.ext ?_)
  match d with
  | ⟨0, _⟩ => rfl
  | ⟨1, _⟩ => rfl

/-- The kept-axis row sum: the sum over the second axis cast to a column reads, at (r, 0), the sum over the columns k
    of the entry (r, k). -/
theorem rowSumKeep_apply {a b : ℕ} {φ : FTy} (v : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (r : Fin a) (u : Fin 1) :
    shapeCast ⟨2, ![a, 1]⟩ (multiReduction .add [1] ⟨1, ![a]⟩ v acc h hφ hacc) hc (ix2 r u) = ∑ k : Fin b, v (ix2 r k) :=
  (shapeCast_a_a1_apply _ hc r u).trans (rowSum_apply v acc h hφ hacc r)

end Keepdims
-- ==== Proof.LibColumnBand.lean ====
/-
  A band of columns of a matrix, read at an entry.

  From an `[a, b]` array take every row and the `w` consecutive columns that start at column `off` (a unit-stride
  rectangle with offsets `(0, off)` and extents `(a, w)`). What a load through that rectangle holds at `(p, k)` is the
  array's entry `(p, off + k)`: the row is kept and the column is shifted by the band's first column. Generic in the
  extents, the offset and the element type.
-/
import Idealize.ShloMosaic.Lib.Pipeline.Value
import Idealize.ShloMosaic.Lib.ValueIdx

noncomputable section

namespace ColumnBand

open Idealize.ShloMosaic Idealize.ShloMosaic.ValueIdx

/-- A load of all rows and columns `off, …, off + w - 1` of an `[a, b]` array reads, at `(p, k)`, the array at
    `(p, off + k)`. -/
theorem ld_apply {Val : EltTy → Type} {e : EltTy} {a b w : ℕ} (X : (⟨2, ![a, b]⟩ : Shape).Idx → Val e) (off : ℕ)
    (inb : ∀ ax, (![0, off] : Fin 2 → ℕ) ax + (![a, w] : Fin 2 → ℕ) ax ≤ (⟨2, ![a, b]⟩ : Shape).size ax)
    (p : Fin a) (k : Fin w) (h : off + k.val < b) :
    View.ld X (Rect.unit (s := ⟨2, ![a, b]⟩) ![0, off] ![a, w] inb) (ix2 p k) = X (ix2 p ⟨off + k.val, h⟩) := by
  show X ((Rect.unit (s := ⟨2, ![a, b]⟩) ![0, off] ![a, w] inb).idx (ix2 p k)) = X (ix2 p ⟨off + k.val, h⟩)
  refine congrArg X (funext fun ax => Fin.ext ?_)
  match ax with
  | ⟨0, _⟩ => show 0 + 1 * p.val = p.val; omega
  | ⟨1, _⟩ => show off + 1 * k.val = off + k.val; omega

end ColumnBand

end
-- ==== Proof.TileRead.lean ====
/-
  One tile's three column updates read entry by entry, on the extended reals.

  For the six input blocks of a tile, three 512 x 1024 arrays of per-pair terms: the exponential of the scaled
  similarity times the product of the two mask entries (`pairTerm`), the same times the distance test (`posTerm`),
  and the absolute difference of one minus the similarity and the distance, times the same factor (`contTerm`). The
  tile adds, to row p of column 0, 1, 2 of the scratch, the sum over the tile's 1024 lanes of row p of the first,
  second, third array.
-/
import proofs.«135098_j86354612453531_2_alg».proof.Proof.TileCanon
import proofs.«135098_j86354612453531_2_alg».proof.Proof.LibKeepdims
import proofs.«135098_j86354612453531_2_alg».proof.Proof.LibColumnBand

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

/-- exp(similarity x the named reciprocal temperature) x (mask of the row point x mask of the column point). -/
def pairTerm (x0 : Vec Ideal S512x64 .bf16) (x1 : Vec Ideal S1024x64 .bf16) (x2 : Vec Ideal S512x5 .f32) (x3 : Vec Ideal S1024x5 .f32) (x4 : Vec Ideal S1x1024 .f32) (x5 : Vec Ideal S1x1024 .f32) : FVec Ideal S512x1024 .f32 :=
  mulf (k0_pay10 (F := Ideal) (k0_pay5 x0 x1)) (k0_pay8 (k0_pay3 x5) (k0_pay4 x2))
/-- The same, times the test "squared distance below one and above the small threshold". -/
def posTerm (x0 : Vec Ideal S512x64 .bf16) (x1 : Vec Ideal S1024x64 .bf16) (x2 : Vec Ideal S512x5 .f32) (x3 : Vec Ideal S1024x5 .f32) (x4 : Vec Ideal S1x1024 .f32) (x5 : Vec Ideal S1x1024 .f32) : FVec Ideal S512x1024 .f32 :=
  mulf (k0_pay10 (F := Ideal) (k0_pay5 x0 x1)) (k0_pay9 (k0_pay3 x5) (k0_pay4 x2) (k0_pay7 x2 x3 x4))
/-- |(1 - similarity) - distance| times that factor. -/
def contTerm (x0 : Vec Ideal S512x64 .bf16) (x1 : Vec Ideal S1024x64 .bf16) (x2 : Vec Ideal S512x5 .f32) (x3 : Vec Ideal S1024x5 .f32) (x4 : Vec Ideal S1x1024 .f32) (x5 : Vec Ideal S1x1024 .f32) : FVec Ideal S512x1024 .f32 :=
  mulf (absf (subf (subf (broadcast S512x1024 (Scalar.ofBits (F := Ideal) .f32 0x3F800000#32)) (k0_pay5 (F := Ideal) x0 x1)) (sqrt (k0_pay6 x2 x3 x4))))
    (k0_pay9 (k0_pay3 x5) (k0_pay4 x2) (k0_pay7 x2 x3 x4))

theorem pay11_apply (v14 : FVec Ideal S1x1024 .f32) (v17 : FVec Ideal S512x1 .f32) (v20 : FVec Ideal S512x1024 .f32) (v59 : Vec Ideal S512x1 .f32) (p : Fin 512) :
    k0_pay11 (F := Ideal) v14 v17 v20 v59 (ix2 p (0 : Fin 1))
      = v59 (ix2 p (0 : Fin 1)) + ∑ q : Fin 1024, mulf (k0_pay10 (F := Ideal) v20) (k0_pay8 v14 v17) (ix2 p q) := by
  unfold k0_pay11
  simp only [shapeCast_self]
  exact congrArg (v59 (ix2 p (0 : Fin 1)) + ·) (Keepdims.rowSumKeep_apply _ _ _ _ _ _ p (0 : Fin 1))

theorem pay12_apply (v14 : FVec Ideal S1x1024 .f32) (v17 : FVec Ideal S512x1 .f32) (v20 : FVec Ideal S512x1024 .f32) (v36 : IVec S512x1024 32) (v64 : Vec Ideal S512x1 .f32) (p : Fin 512) :
    k0_pay12 (F := Ideal) v14 v17 v20 v36 v64 (ix2 p (0 : Fin 1))
      = v64 (ix2 p (0 : Fin 1)) + ∑ q : Fin 1024, mulf (k0_pay10 (F := Ideal) v20) (k0_pay9 v14 v17 v36) (ix2 p q) := by
  unfold k0_pay12
  simp only [shapeCast_self]
  exact congrArg (v64 (ix2 p (0 : Fin 1)) + ·) (Keepdims.rowSumKeep_apply _ _ _ _ _ _ p (0 : Fin 1))

theorem pay13_apply (v14 : FVec Ideal S1x1024 .f32) (v17 : FVec Ideal S512x1 .f32) (v20 v30 : FVec Ideal S512x1024 .f32) (v36 : IVec S512x1024 32) (v69 : Vec Ideal S512x1 .f32) (p : Fin 512) :
    k0_pay13 (F := Ideal) v14 v17 v20 v30 v36 v69 (ix2 p (0 : Fin 1))
      = v69 (ix2 p (0 : Fin 1)) + ∑ q : Fin 1024, mulf (absf (subf (subf (broadcast S512x1024 (Scalar.ofBits (F := Ideal) .f32 0x3F800000#32)) v20) (sqrt v30))) (k0_pay9 v14 v17 v36) (ix2 p q) := by
  unfold k0_pay13
  simp only [shapeCast_self]
  exact congrArg (v69 (ix2 p (0 : Fin 1)) + ·) (Keepdims.rowSumKeep_apply _ _ _ _ _ _ p (0 : Fin 1))

/-- The zero block. -/
theorem zeroBlock_apply (y : S512x3.Idx) : k0_pay1 (F := Ideal) y = Ideal.ofBits .f32 0x00000000#32 := by
  unfold k0_pay1
  simp only [shapeCast_self]
  rfl

/-- Column 0 after a tile. -/
theorem addCols_apply0 (x0 : Vec Ideal S512x64 .bf16) (x1 : Vec Ideal S1024x64 .bf16) (x2 : Vec Ideal S512x5 .f32) (x3 : Vec Ideal S1024x5 .f32) (x4 : Vec Ideal S1x1024 .f32) (x5 : Vec Ideal S1x1024 .f32) (xs : Vec Ideal S512x3 .f32) (p : Fin 512) (h : 0 < 3) :
    addCols (F := Ideal) x0 x1 x2 x3 x4 x5 xs (ix2 p ⟨0, h⟩) = xs (ix2 p ⟨0, h⟩) + ∑ q : Fin 1024, pairTerm x0 x1 x2 x3 x4 x5 (ix2 p q) := by
  unfold addCols colPieces
  refine (canon_miss _ _ p ⟨0, h⟩ (by show (0 : ℕ) ≠ 2; omega)).trans ((canon_miss _ _ p ⟨0, h⟩ (by show (0 : ℕ) ≠ 1; omega)).trans ((canon_hit _ _ p h).trans ((pay11_apply _ _ _ _ p).trans ?_)))
  exact congrArg (· + _) (ColumnBand.ld_apply xs 0 _ p (0 : Fin 1) (by omega))

/-- Column 1 after a tile. -/
theorem addCols_apply1 (x0 : Vec Ideal S512x64 .bf16) (x1 : Vec Ideal S1024x64 .bf16) (x2 : Vec Ideal S512x5 .f32) (x3 : Vec Ideal S1024x5 .f32) (x4 : Vec Ideal S1x1024 .f32) (x5 : Vec Ideal S1x1024 .f32) (xs : Vec Ideal S512x3 .f32) (p : Fin 512) (h : 1 < 3) :
    addCols (F := Ideal) x0 x1 x2 x3 x4 x5 xs (ix2 p ⟨1, h⟩) = xs (ix2 p ⟨1, h⟩) + ∑ q : Fin 1024, posTerm x0 x1 x2 x3 x4 x5 (ix2 p q) := by
  unfold addCols colPieces
  refine (canon_miss _ _ p ⟨1, h⟩ (by show (1 : ℕ) ≠ 2; omega)).trans ((canon_hit _ _ p h).trans ((pay12_apply _ _ _ _ _ p).trans ?_))
  exact congrArg (· + _) (ColumnBand.ld_apply xs 1 _ p (0 : Fin 1) (by omega))

/-- Column 2 after a tile. -/
theorem addCols_apply2 (x0 : Vec Ideal S512x64 .bf16) (x1 : Vec Ideal S1024x64 .bf16) (x2 : Vec Ideal S512x5 .f32) (x3 : Vec Ideal S1024x5 .f32) (x4 : Vec Ideal S1x1024 .f32) (x5 : Vec Ideal S1x1024 .f32) (xs : Vec Ideal S512x3 .f32) (p : Fin 512) (h : 2 < 3) :
    addCols (F := Ideal) x0 x1 x2 x3 x4 x5 xs (ix2 p ⟨2, h⟩) = xs (ix2 p ⟨2, h⟩) + ∑ q : Fin 1024, contTerm x0 x1 x2 x3 x4 x5 (ix2 p q) := by
  unfold addCols colPieces
  refine (canon_hit _ _ p h).trans ((pay13_apply _ _ _ _ _ _ p).trans ?_)
  exact congrArg (· + _) (ColumnBand.ld_apply xs 2 _ p (0 : Fin 1) (by omega))

/-! ## The first tile: the columns it adds to are those of the zero block it has just stored -/

theorem sumsFirst_apply0 (c : Dev nD) (i : grid0.Coords) (a2 : Memref sig .tc .vmem S512x64 .bf16) (ha2 : a2.IsWhole) (a3 : Memref sig .tc .vmem S1024x64 .bf16) (ha3 : a3.IsWhole) (a4 : Memref sig .tc .vmem S512x5 .f32) (ha4 : a4.IsWhole) (a5 : Memref sig .tc .vmem S1024x5 .f32) (ha5 : a5.IsWhole) (a6 : Memref sig .tc .vmem S1x1024 .f32) (ha6 : a6.IsWhole) (a7 : Memref sig .tc .vmem S1x1024 .f32) (ha7 : a7.IsWhole) (a8 : Memref sig .tc .vmem S512x3 .f32) (ha8 : a8.IsWhole) (a9 : Memref sig .tc .vmem S512x3 .f32) (ha9 : a9.IsWhole) (hc0 : firstTile i) (hc1 : ¬lastTile i) (x0 : Vec Ideal S512x64 .bf16) (x1 : Vec Ideal S1024x64 .bf16) (x2 : Vec Ideal S512x5 .f32) (x3 : Vec Ideal S1024x5 .f32) (x4 : Vec Ideal S1x1024 .f32) (x5 : Vec Ideal S1x1024 .f32) (p : Fin 512) (h : 0 < 3) :
    sumsFirst (F := Ideal) c i a2 ha2 a3 ha3 a4 ha4 a5 ha5 a6 ha6 a7 ha7 a8 ha8 a9 ha9 hc0 hc1 x0 x1 x2 x3 x4 x5 (ix2 p ⟨0, h⟩)
      = Ideal.ofBits .f32 0x00000000#32 + ∑ q : Fin 1024, pairTerm x0 x1 x2 x3 x4 x5 (ix2 p q) := by
  unfold sumsFirst
  rw [View.read_writes_eq_canon _ _ _ (coverFirst c i a2 ha2 a3 ha3 a4 ha4 a5 ha5 a6 ha6 a7 ha7 a8 ha8 a9 ha9 hc0 hc1 x0 x1 x2 x3 x4 x5)]
  unfold runFirst
  dsimp only
  sl_unfold_words
  simp only [View.readAt_eq_ld, ha2.read_unread, ha3.read_unread, ha4.read_unread, ha5.read_unread, ha6.read_unread, ha7.read_unread, ha9.read_unread,
    View.ld_unit_zero (S := S512x64) hz2, View.ld_unit_zero (S := S1024x64) hz2, View.ld_unit_zero (S := S512x5) hz2, View.ld_unit_zero (S := S1024x5) hz2, View.ld_unit_zero (S := S1x1024) hz2]
  refine (canon_miss _ _ p ⟨0, h⟩ (by show (0 : ℕ) ≠ 2; omega)).trans ((canon_miss _ _ p ⟨0, h⟩ (by show (0 : ℕ) ≠ 1; omega)).trans ((canon_hit _ _ p h).trans ((pay11_apply _ _ _ _ p).trans ?_)))
  refine congrArg (· + _) ?_
  exact (load_at _ _ p h).trans ((canon_whole _ _ _).trans (zeroBlock_apply _))

theorem sumsFirst_apply1 (c : Dev nD) (i : grid0.Coords) (a2 : Memref sig .tc .vmem S512x64 .bf16) (ha2 : a2.IsWhole) (a3 : Memref sig .tc .vmem S1024x64 .bf16) (ha3 : a3.IsWhole) (a4 : Memref sig .tc .vmem S512x5 .f32) (ha4 : a4.IsWhole) (a5 : Memref sig .tc .vmem S1024x5 .f32) (ha5 : a5.IsWhole) (a6 : Memref sig .tc .vmem S1x1024 .f32) (ha6 : a6.IsWhole) (a7 : Memref sig .tc .vmem S1x1024 .f32) (ha7 : a7.IsWhole) (a8 : Memref sig .tc .vmem S512x3 .f32) (ha8 : a8.IsWhole) (a9 : Memref sig .tc .vmem S512x3 .f32) (ha9 : a9.IsWhole) (hc0 : firstTile i) (hc1 : ¬lastTile i) (x0 : Vec Ideal S512x64 .bf16) (x1 : Vec Ideal S1024x64 .bf16) (x2 : Vec Ideal S512x5 .f32) (x3 : Vec Ideal S1024x5 .f32) (x4 : Vec Ideal S1x1024 .f32) (x5 : Vec Ideal S1x1024 .f32) (p : Fin 512) (h : 1 < 3) :
    sumsFirst (F := Ideal) c i a2 ha2 a3 ha3 a4 ha4 a5 ha5 a6 ha6 a7 ha7 a8 ha8 a9 ha9 hc0 hc1 x0 x1 x2 x3 x4 x5 (ix2 p ⟨1, h⟩)
      = Ideal.ofBits .f32 0x00000000#32 + ∑ q : Fin 1024, posTerm x0 x1 x2 x3 x4 x5 (ix2 p q) := by
  unfold sumsFirst
  rw [View.read_writes_eq_canon _ _ _ (coverFirst c i a2 ha2 a3 ha3 a4 ha4 a5 ha5 a6 ha6 a7 ha7 a8 ha8 a9 ha9 hc0 hc1 x0 x1 x2 x3 x4 x5)]
  unfold runFirst
  dsimp only
  sl_unfold_words
  simp only [View.readAt_eq_ld, ha2.read_unread, ha3.read_unread, ha4.read_unread, ha5.read_unread, ha6.read_unread, ha7.read_unread, ha9.read_unread,
    View.ld_unit_zero (S := S512x64) hz2, View.ld_unit_zero (S := S1024x64) hz2, View.ld_unit_zero (S := S512x5) hz2, View.ld_unit_zero (S := S1024x5) hz2, View.ld_unit_zero (S := S1x1024) hz2]
  refine (canon_miss _ _ p ⟨1, h⟩ (by show (1 : ℕ) ≠ 2; omega)).trans ((canon_hit _ _ p h).trans ((pay12_apply _ _ _ _ _ p).trans ?_))
  refine congrArg (· + _) ?_
  exact (load_at _ _ p h).trans ((canon_miss _ _ p ⟨1, h⟩ (by show (1 : ℕ) ≠ 0; omega)).trans ((canon_whole _ _ _).trans (zeroBlock_apply _)))

theorem sumsFirst_apply2 (c : Dev nD) (i : grid0.Coords) (a2 : Memref sig .tc .vmem S512x64 .bf16) (ha2 : a2.IsWhole) (a3 : Memref sig .tc .vmem S1024x64 .bf16) (ha3 : a3.IsWhole) (a4 : Memref sig .tc .vmem S512x5 .f32) (ha4 : a4.IsWhole) (a5 : Memref sig .tc .vmem S1024x5 .f32) (ha5 : a5.IsWhole) (a6 : Memref sig .tc .vmem S1x1024 .f32) (ha6 : a6.IsWhole) (a7 : Memref sig .tc .vmem S1x1024 .f32) (ha7 : a7.IsWhole) (a8 : Memref sig .tc .vmem S512x3 .f32) (ha8 : a8.IsWhole) (a9 : Memref sig .tc .vmem S512x3 .f32) (ha9 : a9.IsWhole) (hc0 : firstTile i) (hc1 : ¬lastTile i) (x0 : Vec Ideal S512x64 .bf16) (x1 : Vec Ideal S1024x64 .bf16) (x2 : Vec Ideal S512x5 .f32) (x3 : Vec Ideal S1024x5 .f32) (x4 : Vec Ideal S1x1024 .f32) (x5 : Vec Ideal S1x1024 .f32) (p : Fin 512) (h : 2 < 3) :
    sumsFirst (F := Ideal) c i a2 ha2 a3 ha3 a4 ha4 a5 ha5 a6 ha6 a7 ha7 a8 ha8 a9 ha9 hc0 hc1 x0 x1 x2 x3 x4 x5 (ix2 p ⟨2, h⟩)
      = Ideal.ofBits .f32 0x00000000#32 + ∑ q : Fin 1024, contTerm x0 x1 x2 x3 x4 x5 (ix2 p q) := by
  unfold sumsFirst
  rw [View.read_writes_eq_canon _ _ _ (coverFirst c i a2 ha2 a3 ha3 a4 ha4 a5 ha5 a6 ha6 a7 ha7 a8 ha8 a9 ha9 hc0 hc1 x0 x1 x2 x3 x4 x5)]
  unfold runFirst
  dsimp only
  sl_unfold_words
  simp only [View.readAt_eq_ld, ha2.read_unread, ha3.read_unread, ha4.read_unread, ha5.read_unread, ha6.read_unread, ha7.read_unread, ha9.read_unread,
    View.ld_unit_zero (S := S512x64) hz2, View.ld_unit_zero (S := S1024x64) hz2, View.ld_unit_zero (S := S512x5) hz2, View.ld_unit_zero (S := S1024x5) hz2, View.ld_unit_zero (S := S1x1024) hz2]
  refine (canon_hit _ _ p h).trans ((pay13_apply _ _ _ _ _ _ p).trans ?_)
  refine congrArg (· + _) ?_
  exact (load_at _ _ p h).trans ((canon_miss _ _ p ⟨2, h⟩ (by show (2 : ℕ) ≠ 1; omega)).trans ((canon_miss _ _ p ⟨2, h⟩ (by show (2 : ℕ) ≠ 0; omega)).trans ((canon_whole _ _ _).trans (zeroBlock_apply _))))

end Cert.KernelIdeal.Hand

end
-- ==== Proof.GridSums.lean ====
/-
  The running column sums over the grid, on the extended reals.

  At point t = 8 r + k (row block r, column tile k) the body adds to entry (p, col) of the scratch the tile's row sum
  `tileSum t col p`. So after point t the entry is the zero word plus the tile sums of row block r for tiles 0..k, and the
  output block written at the last tile of the row block holds the zero word plus all eight.
-/
import proofs.«135098_j86354612453531_2_alg».proof.Proof.TileRead

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (V : (c : Dev nD) → (b : Ref sig .tc) → Buf (Elt Ideal) ((c : Thread nD τ).loc b))

/-- Point `t`'s contribution to entry `(p, col)`: the sum over the tile's 1024 lanes of the column's per-pair term. -/
def tileSum (c : Dev nD) (t : Fin cfg0.N) (col : Fin 3) (p : Fin 512) : EReal :=
  match col with
  | ⟨0, _⟩ => ∑ q : Fin 1024, pairTerm (iblk V c 0 t) (iblk V c 1 t) (iblk V c 2 t) (iblk V c 3 t) (iblk V c 4 t) (iblk V c 5 t) (ix2 p q)
  | ⟨1, _⟩ => ∑ q : Fin 1024, posTerm (iblk V c 0 t) (iblk V c 1 t) (iblk V c 2 t) (iblk V c 3 t) (iblk V c 4 t) (iblk V c 5 t) (ix2 p q)
  | ⟨2, _⟩ => ∑ q : Fin 1024, contTerm (iblk V c 0 t) (iblk V c 1 t) (iblk V c 2 t) (iblk V c 3 t) (iblk V c 4 t) (iblk V c 5 t) (ix2 p q)

/-- The same over all naturals (zero past the grid), so that sums over ranges of points need no bound. -/
def tileSumN (c : Dev nD) (n : ℕ) (col : Fin 3) (p : Fin 512) : EReal :=
  if h : n < cfg0.N then tileSum V c ⟨n, h⟩ col p else 0

theorem tileSumN_of_lt (c : Dev nD) (t : Fin cfg0.N) (col : Fin 3) (p : Fin 512) : tileSumN V c t.val col p = tileSum V c t col p := by
  unfold tileSumN; rw [dif_pos t.isLt]

set_option maxHeartbeats 4000000 in
/-- One tile's update of an entry. -/
theorem addCols_apply (c : Dev nD) (t : Fin cfg0.N) (xs : Vec Ideal S512x3 .f32) (col : Fin 3) (p : Fin 512) :
    addCols (F := Ideal) (iblk V c 0 t) (iblk V c 1 t) (iblk V c 2 t) (iblk V c 3 t) (iblk V c 4 t) (iblk V c 5 t) xs (ix2 p col) = xs (ix2 p col) + tileSum V c t col p := by
  match col with
  | ⟨0, h⟩ => exact addCols_apply0 _ _ _ _ _ _ xs p h
  | ⟨1, h⟩ => exact addCols_apply1 _ _ _ _ _ _ xs p h
  | ⟨2, h⟩ => exact addCols_apply2 _ _ _ _ _ _ xs p h

set_option maxHeartbeats 4000000 in
/-- After the first tile of a row block an entry is the zero word plus that tile's sum. -/
theorem after_first (c : Dev nD) (t : Fin cfg0.N) (h0 : t.val % 8 = 0) (col : Fin 3) (p : Fin 512) :
    (sumsAfter V c t.val t.isLt).2 (ix2 p col) = Ideal.ofBits .f32 0x00000000#32 + tileSum V c t col p := by
  have h1 : ¬t.val % 8 = 7 := by omega
  rw [sumsAfter_first V c t h0 h1]
  match col with
  | ⟨0, h⟩ => exact sumsFirst_apply0 c (grid0.coords t) (ms0 t) (hs0 t) (ms1 t) (hs1 t) (ms2 t) (hs2 t) (ms3 t) (hs3 t) (ms4 t) (hs4 t) (ms5 t) (hs5 t) (ms6 t) (hs6 t) sums (Memref.isWhole_whole _) ((firstTile_iff t).mpr h0) (fun h => h1 ((lastTile_iff t).mp h)) (iblk V c 0 t) (iblk V c 1 t) (iblk V c 2 t) (iblk V c 3 t) (iblk V c 4 t) (iblk V c 5 t) p h
  | ⟨1, h⟩ => exact sumsFirst_apply1 c (grid0.coords t) (ms0 t) (hs0 t) (ms1 t) (hs1 t) (ms2 t) (hs2 t) (ms3 t) (hs3 t) (ms4 t) (hs4 t) (ms5 t) (hs5 t) (ms6 t) (hs6 t) sums (Memref.isWhole_whole _) ((firstTile_iff t).mpr h0) (fun h => h1 ((lastTile_iff t).mp h)) (iblk V c 0 t) (iblk V c 1 t) (iblk V c 2 t) (iblk V c 3 t) (iblk V c 4 t) (iblk V c 5 t) p h
  | ⟨2, h⟩ => exact sumsFirst_apply2 c (grid0.coords t) (ms0 t) (hs0 t) (ms1 t) (hs1 t) (ms2 t) (hs2 t) (ms3 t) (hs3 t) (ms4 t) (hs4 t) (ms5 t) (hs5 t) (ms6 t) (hs6 t) sums (Memref.isWhole_whole _) ((firstTile_iff t).mpr h0) (fun h => h1 ((lastTile_iff t).mp h)) (iblk V c 0 t) (iblk V c 1 t) (iblk V c 2 t) (iblk V c 3 t) (iblk V c 4 t) (iblk V c 5 t) p h

set_option maxHeartbeats 4000000 in
/-- After any later tile it is what the tile before left plus this tile's sum. -/
theorem after_later (c : Dev nD) (t : Fin cfg0.N) (h0 : ¬t.val % 8 = 0) (col : Fin 3) (p : Fin 512) :
    (sumsAfter V c t.val t.isLt).2 (ix2 p col)
      = (sumsAfter V c (t.val - 1) (Nat.lt_of_le_of_lt (Nat.sub_le _ _) t.isLt)).2 (ix2 p col) + tileSum V c t col p := by
  by_cases h1 : t.val % 8 = 7
  · rw [sumsAfter_last V c t h0 h1]
    exact (congrFun (sumsLast_eq c (grid0.coords t) (ms0 t) (hs0 t) (ms1 t) (hs1 t) (ms2 t) (hs2 t) (ms3 t) (hs3 t) (ms4 t) (hs4 t) (ms5 t) (hs5 t) (ms6 t) (hs6 t) sums (Memref.isWhole_whole _) (fun h => h0 ((firstTile_iff t).mp h)) ((lastTile_iff t).mpr h1) (iblk V c 0 t) (iblk V c 1 t) (iblk V c 2 t) (iblk V c 3 t) (iblk V c 4 t) (iblk V c 5 t) (sumsAfter V c (t.val - 1) (Nat.lt_of_le_of_lt (Nat.sub_le _ _) t.isLt)).2) (ix2 p col)).trans
      (addCols_apply V c t (sumsAfter V c (t.val - 1) (Nat.lt_of_le_of_lt (Nat.sub_le _ _) t.isLt)).2 col p)
  · rw [sumsAfter_middle V c t h0 h1]
    exact (congrFun (sumsMiddle_eq c (grid0.coords t) (ms0 t) (hs0 t) (ms1 t) (hs1 t) (ms2 t) (hs2 t) (ms3 t) (hs3 t) (ms4 t) (hs4 t) (ms5 t) (hs5 t) (ms6 t) (hs6 t) sums (Memref.isWhole_whole _) (fun h => h0 ((firstTile_iff t).mp h)) (fun h => h1 ((lastTile_iff t).mp h)) (iblk V c 0 t) (iblk V c 1 t) (iblk V c 2 t) (iblk V c 3 t) (iblk V c 4 t) (iblk V c 5 t) (sumsAfter V c (t.val - 1) (Nat.lt_of_le_of_lt (Nat.sub_le _ _) t.isLt)).2) (ix2 p col)).trans
      (addCols_apply V c t (sumsAfter V c (t.val - 1) (Nat.lt_of_le_of_lt (Nat.sub_le _ _) t.isLt)).2 col p)

set_option maxHeartbeats 4000000 in
/-- At the last tile of a row block the output block receives the scratch. -/
theorem out_eq_sums (c : Dev nD) (t : Fin cfg0.N) (h1 : t.val % 8 = 7) :
    (sumsAfter V c t.val t.isLt).1 = (sumsAfter V c t.val t.isLt).2 := by
  have h0 : ¬t.val % 8 = 0 := by omega
  rw [sumsAfter_last V c t h0 h1]
  exact (outLast_eq c (grid0.coords t) (ms0 t) (hs0 t) (ms1 t) (hs1 t) (ms2 t) (hs2 t) (ms3 t) (hs3 t) (ms4 t) (hs4 t) (ms5 t) (hs5 t) (ms6 t) (hs6 t) sums (Memref.isWhole_whole _) (fun h => h0 ((firstTile_iff t).mp h)) ((lastTile_iff t).mpr h1) (iblk V c 0 t) (iblk V c 1 t) (iblk V c 2 t) (iblk V c 3 t) (iblk V c 4 t) (iblk V c 5 t) (sumsAfter V c (t.val - 1) (Nat.lt_of_le_of_lt (Nat.sub_le _ _) t.isLt)).2).trans
    (sumsLast_eq c (grid0.coords t) (ms0 t) (hs0 t) (ms1 t) (hs1 t) (ms2 t) (hs2 t) (ms3 t) (hs3 t) (ms4 t) (hs4 t) (ms5 t) (hs5 t) (ms6 t) (hs6 t) sums (Memref.isWhole_whole _) (fun h => h0 ((firstTile_iff t).mp h)) ((lastTile_iff t).mpr h1) (iblk V c 0 t) (iblk V c 1 t) (iblk V c 2 t) (iblk V c 3 t) (iblk V c 4 t) (iblk V c 5 t) (sumsAfter V c (t.val - 1) (Nat.lt_of_le_of_lt (Nat.sub_le _ _) t.isLt)).2).symm

set_option maxHeartbeats 4000000 in
/-- THE RUNNING SUM: after point n, an entry is the zero word plus the tile sums of its row block so far. -/
theorem running (c : Dev nD) (col : Fin 3) (p : Fin 512) : ∀ (n : ℕ) (hn : n < cfg0.N),
    (sumsAfter V c n hn).2 (ix2 p col)
      = Ideal.ofBits .f32 0x00000000#32 + ∑ j ∈ Finset.range (n % 8 + 1), tileSumN V c (n - n % 8 + j) col p
  | 0, hn => by
    rw [show 0 % 8 + 1 = 1 from rfl, Finset.sum_range_one]
    exact (after_first V c ⟨0, hn⟩ (Nat.zero_mod _) col p).trans (congrArg _ (tileSumN_of_lt V c ⟨0, hn⟩ col p).symm)
  | n + 1, hn => by
    by_cases h0 : (n + 1) % 8 = 0
    · have e1 : (n + 1) % 8 + 1 = 1 := by omega
      have e2 : n + 1 - (n + 1) % 8 = n + 1 := by omega
      have e4 : ∑ j ∈ Finset.range ((n + 1) % 8 + 1), tileSumN V c (n + 1 - (n + 1) % 8 + j) col p = tileSumN V c (n + 1) col p := by
        rw [e1, Finset.sum_range_one, e2, Nat.add_zero]
      rw [e4]
      exact (after_first V c ⟨n + 1, hn⟩ h0 col p).trans (congrArg _ (tileSumN_of_lt V c ⟨n + 1, hn⟩ col p).symm)
    · have ih := running c col p n (Nat.lt_of_succ_lt hn)
      have e1 : (n + 1) % 8 + 1 = (n % 8 + 1) + 1 := by omega
      have e2 : n + 1 - (n + 1) % 8 = n - n % 8 := by omega
      have e3 : n - n % 8 + (n % 8 + 1) = n + 1 := by omega
      have e4 : ∑ j ∈ Finset.range ((n + 1) % 8 + 1), tileSumN V c (n + 1 - (n + 1) % 8 + j) col p
          = ∑ j ∈ Finset.range (n % 8 + 1), tileSumN V c (n - n % 8 + j) col p + tileSumN V c (n + 1) col p := by
        rw [e1, e2, Finset.sum_range_succ, e3]
      rw [e4, ← add_assoc, ← ih]
      exact (after_later V c ⟨n + 1, hn⟩ h0 col p).trans (congrArg _ (tileSumN_of_lt V c ⟨n + 1, hn⟩ col p).symm)

end Cert.KernelIdeal.Hand

end
-- ==== Proof.StatsTable.lean ====
/-
  The statistics table after the run, entry by entry, on the extended reals.

  The pipeline writes the output block back only at the last tile of each row block: point t = 8 r + 7 writes rows
  512 r .. 512 r + 511 of the table, all three columns. So entry (i, col) of the table is what point 8 (i / 512) + 7 left
  at row i % 512 of the output block, which is the scratch there: the zero word plus the eight tile sums of the row
  block.
-/
import proofs.«135098_j86354612453531_2_alg».proof.Proof.GridSums

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (V : (c : Dev nD) → (b : Ref sig .tc) → Buf (Elt Ideal) ((c : Thread nD τ).loc b))

/-- The output window's block index at point t is (t / 8, 0). -/
theorem out_index : ∀ t : Fin cfg0.N, win0_6.index t (0 : Fin 2) = t.val / 8 ∧ win0_6.index t (1 : Fin 2) = 0 :=
  (by decide +kernel : ∀ t : Fin grid0.N, win0_6.index t (0 : Fin 2) = t.val / 8 ∧ win0_6.index t (1 : Fin 2) = 0)

theorem sumsAfter_val (c : Dev nD) {n n' : ℕ} (hn : n < cfg0.N) (hn' : n' < cfg0.N) (e : n = n') :
    sumsAfter V c n hn = sumsAfter V c n' hn' := by subst e; rfl

theorem lastPoint_lt (r : ℕ) (hr : r < 8192) : 8 * (r / 512) + 7 < cfg0.N := by
  rw [show cfg0.N = 128 from N_0]; omega

/-- The table as one function of its index: what the last tile of the index's row block left in the output block. -/
def table (c : Dev nD) : S8192x3.Idx → EReal := fun y =>
  (sumsAfter V c (8 * ((y 0).val / 512) + 7) (lastPoint_lt _ (y 0).isLt)).1
    (ix2 (⟨(y 0).val % 512, Nat.mod_lt _ (by omega)⟩ : Fin 512) (⟨(y 1).val, (y 1).isLt⟩ : Fin 3))

/-- An index of the table is in point t's block iff each coordinate is in the block's range on its axis. -/
theorem mem_blk (t : Fin cfg0.N) (i : S8192x3.Idx) :
    i ∈ ((cfg0.win 6).blk t).view.set ↔ ∀ a : Fin 2, win0_6.index t a * S512x3.size a ≤ (i a).val ∧ (i a).val < win0_6.index t a * S512x3.size a + S512x3.size a := by
  show i ∈ ((View.whole main_v17).slice (win0_6.rect t)).set ↔ _
  rw [View.set_slice_whole, Rect.mem_set_unit]
  exact Iff.rfl

/-- What a writing point writes back is its block of the table. -/
theorem flushed_eq (c : Dev nD) (t : Fin cfg0.N) (hf : (cfg0.win 6).flush t = true) :
    (dats V 0 c).flushed 6 t = ((cfg0.win 6).blk t).view.read (Elt Ideal) (table V c) := by
  have h7 : t.val % 8 = 7 := (flush0_6 t).mp hf
  have hN : t.val < 128 := lt_of_lt_of_eq t.isLt (show cfg0.N = 128 from N_0)
  obtain ⟨e0, e1⟩ := out_index t
  show (cfg0.win 6).cut (grid0.coords t) ((dats V 0 c).after 6 t) = _
  rw [after6]
  funext j
  have hj0 : (j 0).val < 512 := (j 0).isLt
  have hj1 : (j 1).val < 3 := (j 1).isLt
  have hb0 : ((((cfg0.win 6).blk t).view.emb j) 0).val = t.val / 8 * 512 + (j 0).val := by
    show win0_6.index t (0 : Fin 2) * 512 + 1 * (j 0).val = _; rw [e0]; omega
  have hb1 : ((((cfg0.win 6).blk t).view.emb j) 1).val = (j 1).val := by
    show win0_6.index t (1 : Fin 2) * 3 + 1 * (j 1).val = _; rw [e1]; omega
  have hn : 8 * (((((cfg0.win 6).blk t).view.emb j) 0).val / 512) + 7 = t.val := by rw [hb0]; omega
  show (sumsAfter V c t.val t.isLt).1 j = table V c (((cfg0.win 6).blk t).view.emb j)
  unfold table
  rw [sumsAfter_val V c (lastPoint_lt _ ((((cfg0.win 6).blk t).view.emb j) 0).isLt) t.isLt hn]
  refine congrArg _ (funext fun a => Fin.ext ?_)
  match a with
  | ⟨0, _⟩ => show (j 0).val = ((((cfg0.win 6).blk t).view.emb j) 0).val % 512; rw [hb0]; omega
  | ⟨1, _⟩ => show (j 1).val = ((((cfg0.win 6).blk t).view.emb j) 1).val; rw [hb1]

/-- The table after the run. -/
theorem table_final (c : Dev nD) : (dats V 0 c).arrAt 6 cfg0.N = table V c :=
  (dats V 0 c).arrAt_eq_of_cover 6 (table V c) (flushed_eq V c) fun i => by
    have hi0 : (i 0).val < 8192 := (i 0).isLt
    have hi1 : (i 1).val < 3 := (i 1).isLt
    refine ⟨⟨8 * ((i 0).val / 512) + 7, lastPoint_lt _ hi0⟩, (flush0_6 _).mpr (by show (8 * ((i 0).val / 512) + 7) % 8 = 7; omega), ?_⟩
    rw [mem_blk]
    obtain ⟨e0, e1⟩ := out_index ⟨8 * ((i 0).val / 512) + 7, lastPoint_lt _ hi0⟩
    intro a
    match a with
    | ⟨0, _⟩ =>
      show win0_6.index _ (0 : Fin 2) * 512 ≤ (i 0).val ∧ (i 0).val < win0_6.index _ (0 : Fin 2) * 512 + 512
      rw [e0]; show (8 * ((i 0).val / 512) + 7) / 8 * 512 ≤ (i 0).val ∧ (i 0).val < (8 * ((i 0).val / 512) + 7) / 8 * 512 + 512; omega
    | ⟨1, _⟩ =>
      show win0_6.index _ (1 : Fin 2) * 3 ≤ (i 1).val ∧ (i 1).val < win0_6.index _ (1 : Fin 2) * 3 + 3
      rw [e1]; omega

/-- ENTRY (i, col) OF THE TABLE: the zero word plus the eight tile sums of row block i / 512 at row i % 512. -/
theorem table_apply (c : Dev nD) (i : Fin 8192) (col : Fin 3) :
    (dats V 0 c).arrAt 6 cfg0.N (ix2 i col)
      = Ideal.ofBits .f32 0x00000000#32
        + ∑ j ∈ Finset.range 8, tileSumN V c (8 * (i.val / 512) + j) col ⟨i.val % 512, Nat.mod_lt _ (by omega)⟩ := by
  rw [table_final]
  show (sumsAfter V c (8 * (i.val / 512) + 7) _).1 (ix2 (⟨i.val % 512, _⟩ : Fin 512) (⟨col.val, _⟩ : Fin 3)) = _
  have h7 : (8 * (i.val / 512) + 7) % 8 = 7 := by omega
  rw [out_eq_sums V c ⟨8 * (i.val / 512) + 7, lastPoint_lt _ i.isLt⟩ h7]
  have hr := running V c col ⟨i.val % 512, Nat.mod_lt _ (by omega)⟩ (8 * (i.val / 512) + 7) (lastPoint_lt _ i.isLt)
  rw [h7, show 8 * (i.val / 512) + 7 - 7 = 8 * (i.val / 512) from by omega] at hr
  exact hr

end Cert.KernelIdeal.Hand

end
-- ==== Proof.BlockReads.lean ====
/-
  The input blocks of a grid point, read in their arrays.

  At point t = 8 r + k the two row windows (the row points' unit features and table rows) hold rows 512 r .. 512 r + 511 of
  their arrays, the two column windows (the column points' unit features and table rows) hold rows 1024 k .. 1024 k + 1023,
  and the two lane windows (the column points' squared norms and masks, as rows) hold lanes 1024 k .. 1024 k + 1023.
-/
import proofs.«135098_j86354612453531_2_alg».proof.Proof.PointData
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (V : (c : Dev nD) → (b : Ref sig .tc) → Buf (Elt Ideal) ((c : Thread nD τ).loc b))

/-- The printed index maps, decided over the grid. -/
theorem in_index : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0
    ∧ win0_3.index t (0 : Fin 2) = t.val % 8 ∧ win0_3.index t (1 : Fin 2) = 0
    ∧ win0_4.index t (0 : Fin 2) = 0 ∧ win0_4.index t (1 : Fin 2) = t.val % 8
    ∧ win0_5.index t (0 : Fin 2) = 0 ∧ win0_5.index t (1 : Fin 2) = t.val % 8 :=
  (by decide +kernel : ∀ t : Fin grid0.N, _)

theorem rowIdx_lt (t : Fin cfg0.N) (p : Fin 512) : 512 * (t.val / 8) + p.val < 8192 := by
  have hN : t.val < 128 := lt_of_lt_of_eq t.isLt (show cfg0.N = 128 from N_0); omega
theorem colIdx_lt (t : Fin cfg0.N) (q : Fin 1024) : 1024 * (t.val % 8) + q.val < 8192 := by omega

/-- The row point and the column point of entry (p, q) of point t's tile. -/
abbrev rowPt (t : Fin cfg0.N) (p : Fin 512) : Fin 8192 := ⟨512 * (t.val / 8) + p.val, rowIdx_lt t p⟩
abbrev colPt (t : Fin cfg0.N) (q : Fin 1024) : Fin 8192 := ⟨1024 * (t.val % 8) + q.val, colIdx_lt t q⟩

theorem iblk0_apply (c : Dev nD) (t : Fin cfg0.N) (p : Fin 512) (k : Fin 64) :
    (iblk V c 0 t : S512x64.Idx → EReal) (ix2 p k) = (V c main_v9 : S8192x64.Idx → EReal) (ix2 (rowPt t p) k) := by
  obtain ⟨e0, e1, -⟩ := in_index t
  unfold iblk
  rw [View.read_apply]
  show (V c main_v9 : S8192x64.Idx → EReal) _ = _
  refine congrArg _ (funext fun a => Fin.ext ?_)
  match a with
  | ⟨0, _⟩ => show win0_0.index t (0 : Fin 2) * 512 + 1 * p.val = 512 * (t.val / 8) + p.val; rw [e0]; omega
  | ⟨1, _⟩ => show win0_0.index t (1 : Fin 2) * 64 + 1 * k.val = k.val; rw [e1]; omega

theorem iblk1_apply (c : Dev nD) (t : Fin cfg0.N) (q : Fin 1024) (k : Fin 64) :
    (iblk V c 1 t : S1024x64.Idx → EReal) (ix2 q k) = (V c main_v9 : S8192x64.Idx → EReal) (ix2 (colPt t q) k) := by
  obtain ⟨-, -, e0, e1, -⟩ := in_index t
  unfold iblk
  rw [View.read_apply]
  show (V c main_v9 : S8192x64.Idx → EReal) _ = _
  refine congrArg _ (funext fun a => Fin.ext ?_)
  match a with
  | ⟨0, _⟩ => show win0_1.index t (0 : Fin 2) * 1024 + 1 * q.val = 1024 * (t.val % 8) + q.val; rw [e0]; omega
  | ⟨1, _⟩ => show win0_1.index t (1 : Fin 2) * 64 + 1 * k.val = k.val; rw [e1]; omega

theorem iblk2_apply (c : Dev nD) (t : Fin cfg0.N) (p : Fin 512) (k : Fin 5) :
    (iblk V c 2 t : S512x5.Idx → EReal) (ix2 p k) = (V c main_v14 : S8192x5.Idx → EReal) (ix2 (rowPt t p) k) := by
  obtain ⟨-, -, -, -, e0, e1, -⟩ := in_index t
  unfold iblk
  rw [View.read_apply]
  show (V c main_v14 : S8192x5.Idx → EReal) _ = _
  refine congrArg _ (funext fun a => Fin.ext ?_)
  match a with
  | ⟨0, _⟩ => show win0_2.index t (0 : Fin 2) * 512 + 1 * p.val = 512 * (t.val / 8) + p.val; rw [e0]; omega
  | ⟨1, _⟩ => show win0_2.index t (1 : Fin 2) * 5 + 1 * k.val = k.val; rw [e1]; omega

theorem iblk3_apply (c : Dev nD) (t : Fin cfg0.N) (q : Fin 1024) (k : Fin 5) :
    (iblk V c 3 t : S1024x5.Idx → EReal) (ix2 q k) = (V c main_v14 : S8192x5.Idx → EReal) (ix2 (colPt t q) k) := by
  obtain ⟨-, -, -, -, -, -, e0, e1, -⟩ := in_index t
  unfold iblk
  rw [View.read_apply]
  show (V c main_v14 : S8192x5.Idx → EReal) _ = _
  refine congrArg _ (funext fun a => Fin.ext ?_)
  match a with
  | ⟨0, _⟩ => show win0_3.index t (0 : Fin 2) * 1024 + 1 * q.val = 1024 * (t.val % 8) + q.val; rw [e0]; omega
  | ⟨1, _⟩ => show win0_3.index t (1 : Fin 2) * 5 + 1 * k.val = k.val; rw [e1]; omega

theorem iblk4_apply (c : Dev nD) (t : Fin cfg0.N) (q : Fin 1024) :
    (iblk V c 4 t : S1x1024.Idx → EReal) (ix2 (0 : Fin 1) q) = (V c main_v15 : S1x8192.Idx → EReal) (ix2 (0 : Fin 1) (colPt t q)) := by
  obtain ⟨-, -, -, -, -, -, -, -, e0, e1, -⟩ := in_index t
  unfold iblk
  rw [View.read_apply]
  show (V c main_v15 : S1x8192.Idx → EReal) _ = _
  refine congrArg _ (funext fun a => Fin.ext ?_)
  match a with
  | ⟨0, _⟩ => show win0_4.index t (0 : Fin 2) * 1 + 1 * 0 = 0; rw [e0]
  | ⟨1, _⟩ => show win0_4.index t (1 : Fin 2) * 1024 + 1 * q.val = 1024 * (t.val % 8) + q.val; rw [e1]; omega

theorem iblk5_apply (c : Dev nD) (t : Fin cfg0.N) (q : Fin 1024) :
    (iblk V c 5 t : S1x1024.Idx → EReal) (ix2 (0 : Fin 1) q) = (V c main_v16 : S1x8192.Idx → EReal) (ix2 (0 : Fin 1) (colPt t q)) := by
  obtain ⟨-, -, -, -, -, -, -, -, -, -, e0, e1⟩ := in_index t
  unfold iblk
  rw [View.read_apply]
  show (V c main_v16 : S1x8192.Idx → EReal) _ = _
  refine congrArg _ (funext fun a => Fin.ext ?_)
  match a with
  | ⟨0, _⟩ => show win0_5.index t (0 : Fin 2) * 1 + 1 * 0 = 0; rw [e0]
  | ⟨1, _⟩ => show win0_5.index t (1 : Fin 2) * 1024 + 1 * q.val = 1024 * (t.val % 8) + q.val; rw [e1]; omega

end Cert.KernelIdeal.Hand

end
-- ==== Proof.RefSums.lean ====
import proofs.«135098_j86354612453531_2_alg».proof.Proof.Gen.ReferenceIdeal.Read
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx
open scoped BigOperators

/-! The reference's three double sums over pairs of points, read pair by pair.

Three stages are kept as opaque functions of the arguments: the unit features `U` (the features divided row-wise
by their clamped Euclidean norm), the squared norms `Q` of the coordinates, and the mask bits `B`. Every quantity
below is a function of a pair `(i, j)` of points, over `U`, `Q`, `B` and the coordinates `X`. -/

/-- The similarity of points `i` and `j`: the inner product of their unit features. -/
def sim (U : S8192x64.Idx → EReal) (i j : Fin 8192) : EReal :=
  ∑ k : Fin 64, U (ix2 i k) * U (ix2 j k)

/-- The squared distance of points `i` and `j` from the polarisation identity
`(Q i + Q j) - 2 * ⟨X i, X j⟩`, clamped below at zero. -/
def sq (Q : S8192.Idx → EReal) (X : S8192x3.Idx → EReal) (i j : Fin 8192) : EReal :=
  max ((Q (ix1 i) + Q (ix1 j)) - Ideal.ofBits .f32 0x40000000#32 * ∑ k : Fin 3, X (ix2 i k) * X (ix2 j k))
    (Ideal.ofBits .f32 0x00000000#32)

/-- The pair is within range: squared distance below one and above the small threshold. -/
def within (Q : S8192.Idx → EReal) (X : S8192x3.Idx → EReal) (i j : Fin 8192) : BitVec 1 :=
  IntOp.andi (Ideal.cmp .olt (sq Q X i j) (Ideal.ofBits .f32 0x3F800000#32))
    (Ideal.cmp .ogt (sq Q X i j) (Ideal.ofBits .f32 0x2B8CBCCC#32))

/-- Both points carry the mask bit. -/
def both (B : S8192.Idx → BitVec 1) (i j : Fin 8192) : BitVec 1 :=
  IntOp.andi (B (ix1 i)) (B (ix1 j))

/-- A positive pair: both masked and within range. -/
def pos (B : S8192.Idx → BitVec 1) (Q : S8192.Idx → EReal) (X : S8192x3.Idx → EReal) (i j : Fin 8192) : BitVec 1 :=
  IntOp.andi (both B i j) (within Q X i j)

/-- A negative pair: both masked and not within range. -/
def neg (B : S8192.Idx → BitVec 1) (Q : S8192.Idx → EReal) (X : S8192x3.Idx → EReal) (i j : Fin 8192) : BitVec 1 :=
  IntOp.andi (both B i j) (~~~(within Q X i j))

/-- The positive-pair bit as a number. -/
def posWeight (B : S8192.Idx → BitVec 1) (Q : S8192.Idx → EReal) (X : S8192x3.Idx → EReal) (i j : Fin 8192) : EReal :=
  FloatOps.uitofp (F := Ideal) .f32 (pos B Q X i j)

/-- The negative-pair bit as a number. -/
def negWeight (B : S8192.Idx → BitVec 1) (Q : S8192.Idx → EReal) (X : S8192x3.Idx → EReal) (i j : Fin 8192) : EReal :=
  FloatOps.uitofp (F := Ideal) .f32 (neg B Q X i j)

/-- The exponential of the similarity over the temperature. -/
def E (U : S8192x64.Idx → EReal) (i j : Fin 8192) : EReal :=
  Ideal.exp (Ideal.div (sim U i j) (Ideal.ofBits .f32 0x3DCCCCCD#32))

/-- The continuity residual of a pair: `(1 - sim) - sqrt d`, where `d` is the squared distance on a positive pair
and one elsewhere. -/
def contArg (U : S8192x64.Idx → EReal) (B : S8192.Idx → BitVec 1) (Q : S8192.Idx → EReal) (X : S8192x3.Idx → EReal)
    (i j : Fin 8192) : EReal :=
  (Ideal.ofBits .f32 0x3F800000#32 - sim U i j)
    - Ideal.sqrt (Scalar.select (pos B Q X i j) (sq Q X i j) (Ideal.ofBits .f32 0x3F800000#32))

/-- The continuity term of a pair: the absolute residual, counted on positive pairs. -/
def contTerm (U : S8192x64.Idx → EReal) (B : S8192.Idx → BitVec 1) (Q : S8192.Idx → EReal) (X : S8192x3.Idx → EReal)
    (i j : Fin 8192) : EReal :=
  max (contArg U B Q X i j) (-(contArg U B Q X i j)) * posWeight B Q X i j

variable (x0 : (⟨S8192x64, .f32⟩ : BufTy).Contents (Elt Ideal)) (x1 : (⟨S8192, .i32⟩ : BufTy).Contents (Elt Ideal))
  (x2 : (⟨S8192x3, .f32⟩ : BufTy).Contents (Elt Ideal))

/-- The similarity matrix of the reference at `(i, j)`. -/
theorem sim_apply (i j : Fin 8192) :
    Read.val_main_v10 (F := Ideal) x0 (ix2 i j) = sim (Read.val_main_v8 (F := Ideal) x0) i j := by
  rw [Read.val_main_v10_apply]
  refine Finset.sum_congr rfl fun k _ => ?_
  rw [Read.val_main_v9_apply,
    show Read.lidx_main_v10 (ix2 i j) k = ix2 i k from
      funext fun a => Fin.ext (by match a with | ⟨0, _⟩ => rfl | ⟨1, _⟩ => rfl),
    show Read.idx_main_v9 (Read.ridx_main_v10 (ix2 i j) k) = ix2 j k from
      funext fun a => Fin.ext (by match a with | ⟨0, _⟩ => rfl | ⟨1, _⟩ => rfl)]

/-- The Gram matrix of the coordinates at `(i, j)`. -/
theorem gram_apply (i j : Fin 8192) :
    Read.val_main_v19 (F := Ideal) x2 (ix2 i j) = ∑ k : Fin 3, x2 (ix2 i k) * x2 (ix2 j k) := by
  rw [Read.val_main_v19_apply]
  refine Finset.sum_congr rfl fun k _ => ?_
  rw [Read.val_main_v18_apply,
    show Read.lidx_main_v19 (ix2 i j) k = ix2 i k from
      funext fun a => Fin.ext (by match a with | ⟨0, _⟩ => rfl | ⟨1, _⟩ => rfl),
    show Read.idx_main_v18 (Read.ridx_main_v19 (ix2 i j) k) = ix2 j k from
      funext fun a => Fin.ext (by match a with | ⟨0, _⟩ => rfl | ⟨1, _⟩ => rfl)]

/-- The pair mask "both points masked" at `(i, j)`. -/
theorem both_apply (i j : Fin 8192) :
    Read.val_main_v29 (F := Ideal) x1 (ix2 i j) = both (Read.val_main_v1 (F := Ideal) x1) i j := by
  rw [Read.val_main_v29_apply, Read.val_main_v27_apply, Read.val_main_v25_apply, Read.val_main_v28_apply,
    Read.val_main_v26_apply,
    show Read.idx_main_v25 (Read.idx_main_v27 (ix2 i j)) = ix1 i from
      funext fun a => Fin.ext (by match a with | ⟨0, _⟩ => rfl),
    show Read.idx_main_v26 (Read.idx_main_v28 (ix2 i j)) = ix1 j from
      funext fun a => Fin.ext (by match a with | ⟨0, _⟩ => rfl)]
  rfl

/-- The clamped squared distance at `(i, j)`. -/
theorem sq_apply (i j : Fin 8192) :
    Read.val_main_v24 (F := Ideal) x2 (ix2 i j) = sq (Read.val_main_v12 (F := Ideal) x2) x2 i j := by
  rw [Read.val_main_v24_apply, Read.val_main_v22_apply, Read.val_main_v17_apply, Read.val_main_v15_apply,
    Read.val_main_v13_apply, Read.val_main_v16_apply, Read.val_main_v14_apply, Read.val_main_v21_apply,
    Read.val_main_v20_apply, Read.val_main_cst_2_apply, gram_apply, Read.val_main_v23_apply,
    Read.val_main_cst_3_apply,
    show Read.idx_main_v13 (Read.idx_main_v15 (ix2 i j)) = ix1 i from
      funext fun a => Fin.ext (by match a with | ⟨0, _⟩ => rfl),
    show Read.idx_main_v14 (Read.idx_main_v16 (ix2 i j)) = ix1 j from
      funext fun a => Fin.ext (by match a with | ⟨0, _⟩ => rfl)]
  rfl

/-- The range bit at `(i, j)`. -/
theorem within_apply (i j : Fin 8192) :
    Read.val_main_v34 (F := Ideal) x2 (ix2 i j) = within (Read.val_main_v12 (F := Ideal) x2) x2 i j := by
  rw [Read.val_main_v34_apply, Read.val_main_v31_apply, Read.val_main_v33_apply, sq_apply,
    Read.val_main_v30_apply, Read.val_main_cst_4_apply, Read.val_main_v32_apply, Read.val_main_cst_5_apply]
  rfl

/-- The positive-pair bit at `(i, j)`. -/
theorem pos_apply (i j : Fin 8192) :
    Read.val_main_v35 (F := Ideal) x1 x2 (ix2 i j)
      = pos (Read.val_main_v1 (F := Ideal) x1) (Read.val_main_v12 (F := Ideal) x2) x2 i j := by
  rw [Read.val_main_v35_apply, both_apply, within_apply]
  rfl

/-- The negative-pair bit at `(i, j)`. -/
theorem neg_apply (i j : Fin 8192) :
    Read.val_main_v37 (F := Ideal) x1 x2 (ix2 i j)
      = neg (Read.val_main_v1 (F := Ideal) x1) (Read.val_main_v12 (F := Ideal) x2) x2 i j := by
  rw [Read.val_main_v37_apply, both_apply, Read.val_main_v36_apply, within_apply]
  rfl

/-- The exponential factor at `(i, j)`. -/
theorem E_apply (i j : Fin 8192) :
    Read.val_main_v42 (F := Ideal) x0 (ix2 i j) = E (Read.val_main_v8 (F := Ideal) x0) i j := by
  rw [Read.val_main_v42_apply, Read.val_main_v41_apply, sim_apply, Read.val_main_v40_apply,
    Read.val_main_cst_6_apply]
  rfl

/-- The row sum over positive pairs. -/
theorem pos_sum_apply (i : Fin 8192) :
    Read.val_main_v46 (F := Ideal) x0 x1 x2 (ix1 i)
      = Ideal.ofBits .f32 0x00000000#32
        + ∑ j : Fin 8192, E (Read.val_main_v8 (F := Ideal) x0) i j
            * posWeight (Read.val_main_v1 (F := Ideal) x1) (Read.val_main_v12 (F := Ideal) x2) x2 i j := by
  rw [Read.val_main_v46_apply, Read.val_main_cst_8_apply]
  refine congrArg (_ + ·) (Finset.sum_congr rfl fun j _ => ?_)
  rw [show Read.idx_main_v46 (ix1 i) j = ix2 i j from
      funext fun a => Fin.ext (by match a with | ⟨0, _⟩ => rfl | ⟨1, _⟩ => rfl),
    Read.val_main_v45_apply, E_apply, Read.val_main_v38_apply, pos_apply]
  rfl

/-- The row sum over negative pairs. -/
theorem neg_sum_apply (i : Fin 8192) :
    Read.val_main_v44 (F := Ideal) x0 x1 x2 (ix1 i)
      = Ideal.ofBits .f32 0x00000000#32
        + ∑ j : Fin 8192, E (Read.val_main_v8 (F := Ideal) x0) i j
            * negWeight (Read.val_main_v1 (F := Ideal) x1) (Read.val_main_v12 (F := Ideal) x2) x2 i j := by
  rw [Read.val_main_v44_apply, Read.val_main_cst_7_apply]
  refine congrArg (_ + ·) (Finset.sum_congr rfl fun j _ => ?_)
  rw [show Read.idx_main_v44 (ix1 i) j = ix2 i j from
      funext fun a => Fin.ext (by match a with | ⟨0, _⟩ => rfl | ⟨1, _⟩ => rfl),
    Read.val_main_v43_apply, E_apply, Read.val_main_v39_apply, neg_apply]
  rfl

/-- The continuity term at `(i, j)`. -/
theorem contTerm_apply (i j : Fin 8192) :
    Read.val_main_v63 (F := Ideal) x0 x1 x2 (ix2 i j)
      = contTerm (Read.val_main_v8 (F := Ideal) x0) (Read.val_main_v1 (F := Ideal) x1)
          (Read.val_main_v12 (F := Ideal) x2) x2 i j := by
  rw [Read.val_main_v63_apply, Read.val_main_v38_apply, Read.val_main_v62_apply, Read.val_main_v61_apply,
    Read.val_main_v60_apply, Read.val_main_v59_apply, Read.val_main_cst_13_apply, sim_apply,
    Read.val_main_v58_apply, Read.val_main_v57_apply, pos_apply, sq_apply, Read.val_main_call2_v1_apply,
    Read.val_main_call2_v0_apply, Read.val_main_cst_12_apply]
  rfl

/-- The continuity double sum over all pairs. -/
theorem cont_sum_apply :
    Read.val_main_v64 (F := Ideal) x0 x1 x2 ix0
      = Ideal.ofBits .f32 0x00000000#32
        + ∑ i : Fin 8192, ∑ j : Fin 8192,
            contTerm (Read.val_main_v8 (F := Ideal) x0) (Read.val_main_v1 (F := Ideal) x1)
              (Read.val_main_v12 (F := Ideal) x2) x2 i j := by
  rw [Read.val_main_v64_apply, Read.val_main_cst_14_apply, sum_idx2]
  refine congrArg (_ + ·) (Finset.sum_congr rfl fun i _ => Finset.sum_congr rfl fun j _ => ?_)
  exact contTerm_apply x0 x1 x2 i j

end Cert.ReferenceIdeal.RefValue

end
-- ==== Proof.RefTail.lean ====
import proofs.«135098_j86354612453531_2_alg».proof.Proof.RefSums

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx
open scoped BigOperators

/-! The reference's scalar tail: the result as a function of the mask count, the per-row sums over positive and
negative pairs, and the continuity double sum. -/

/-- A rank-1 index set is its coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The share of the positive-pair sum `P` in `(N + P) + ε`. -/
def ratio (P N : EReal) : EReal :=
  Ideal.div P ((N + P) + Ideal.ofBits .f32 0x358637BD#32)

/-- A row's loss: minus the logarithm of the share on a masked row (of one elsewhere), counted on masked rows. -/
def rowLoss (b : BitVec 1) (P N : EReal) : EReal :=
  -(Ideal.log (Scalar.select b (ratio P N) (Ideal.ofBits .f32 0x3F800000#32)))
    * FloatOps.uitofp (F := Ideal) .f32 b

/-- The result from the mask count `L`, the summed row losses `S` and the continuity sum `C`:
`(S / L + ½ · C / L²) · 1`. -/
def total (L S C : EReal) : EReal :=
  (Ideal.div S L + Ideal.ofBits .f32 0x3F000000#32 * Ideal.div C (L * L)) * Ideal.ofBits .f32 0x3F800000#32

variable (x0 : (⟨S8192x64, .f32⟩ : BufTy).Contents (Elt Ideal)) (x1 : (⟨S8192, .i32⟩ : BufTy).Contents (Elt Ideal))
  (x2 : (⟨S8192x3, .f32⟩ : BufTy).Contents (Elt Ideal))

/-- The number of masked points. -/
theorem count_apply :
    Read.val_main_v3 (F := Ideal) x1 ix0
      = Ideal.ofBits .f32 0x00000000#32
        + ∑ a : Fin 8192, FloatOps.uitofp (F := Ideal) .f32 (Read.val_main_v1 (F := Ideal) x1 (ix1 a)) := by
  rw [Read.val_main_v3_apply, Read.val_main_cst_apply, sum_idx1]
  rfl

/-- A row's loss from that row's two sums. -/
theorem rowLoss_apply (i : Fin 8192) :
    Read.val_main_v54 (F := Ideal) x0 x1 x2 (ix1 i)
      = rowLoss (Read.val_main_v1 (F := Ideal) x1 (ix1 i)) (Read.val_main_v46 (F := Ideal) x0 x1 x2 (ix1 i))
          (Read.val_main_v44 (F := Ideal) x0 x1 x2 (ix1 i)) := by
  rw [Read.val_main_v54_apply, Read.val_main_v2_apply, Read.val_main_v53_apply, Read.val_main_v52_apply,
    Read.val_main_v51_apply, Read.val_main_v50_apply, Read.val_main_v49_apply, Read.val_main_v47_apply,
    Read.val_main_v48_apply, Read.val_main_cst_9_apply, Read.val_main_call1_v1_apply,
    Read.val_main_call1_v0_apply, Read.val_main_cst_10_apply]
  rfl

/-- The summed row losses. -/
theorem loss_sum_apply :
    Read.val_main_v55 (F := Ideal) x0 x1 x2 ix0
      = Ideal.ofBits .f32 0x00000000#32
        + ∑ a : Fin 8192, rowLoss (Read.val_main_v1 (F := Ideal) x1 (ix1 a))
            (Read.val_main_v46 (F := Ideal) x0 x1 x2 (ix1 a)) (Read.val_main_v44 (F := Ideal) x0 x1 x2 (ix1 a)) := by
  rw [Read.val_main_v55_apply, Read.val_main_cst_11_apply, sum_idx1]
  refine congrArg (_ + ·) (Finset.sum_congr rfl fun a _ => ?_)
  exact rowLoss_apply x0 x1 x2 a

/-- The result from the three scalar stages. -/
theorem total_apply :
    Read.val_main_v69 (F := Ideal) x0 x1 x2 ix0
      = total (Read.val_main_v3 (F := Ideal) x1 ix0) (Read.val_main_v55 (F := Ideal) x0 x1 x2 ix0)
          (Read.val_main_v64 (F := Ideal) x0 x1 x2 ix0) := by
  rw [Read.val_main_v69_apply, Read.val_main_cst_16_apply, Read.val_main_v68_apply, Read.val_main_v56_apply,
    Read.val_main_v67_apply, Read.val_main_cst_15_apply, Read.val_main_v66_apply, Read.val_main_v65_apply]
  rfl

/-- The whole reference, pair by pair, over the three opaque stages `U`, `Q`, `B` and the coordinates. -/
def spec (U : S8192x64.Idx → EReal) (B : S8192.Idx → BitVec 1) (Q : S8192.Idx → EReal) (X : S8192x3.Idx → EReal) : EReal :=
  total
    (Ideal.ofBits .f32 0x00000000#32 + ∑ a : Fin 8192, FloatOps.uitofp (F := Ideal) .f32 (B (ix1 a)))
    (Ideal.ofBits .f32 0x00000000#32
      + ∑ a : Fin 8192, rowLoss (B (ix1 a))
          (Ideal.ofBits .f32 0x00000000#32 + ∑ j : Fin 8192, E U a j * posWeight B Q X a j)
          (Ideal.ofBits .f32 0x00000000#32 + ∑ j : Fin 8192, E U a j * negWeight B Q X a j))
    (Ideal.ofBits .f32 0x00000000#32 + ∑ i : Fin 8192, ∑ j : Fin 8192, contTerm U B Q X i j)

/-- The reference's result is `spec` of its three opaque stages. -/
theorem ref_apply :
    Read.val_main_v69 (F := Ideal) x0 x1 x2 ix0
      = spec (Read.val_main_v8 (F := Ideal) x0) (Read.val_main_v1 (F := Ideal) x1)
          (Read.val_main_v12 (F := Ideal) x2) x2 := by
  rw [total_apply, count_apply, loss_sum_apply, cont_sum_apply]
  simp only [pos_sum_apply, neg_sum_apply]
  rfl

end Cert.ReferenceIdeal.RefValue

end
-- ==== Proof.LibBlockSum.lean ====
/-
  A finite sum over `m · n` consecutive positions, split into `m` blocks of `n`: for any function `f`
  of the natural numbers with values in a commutative additive monoid,
  `Σ_{i < m·n} f i = Σ_{t < m} Σ_{r < n} f (n·t + r)` — over `Finset.range` (`sum_range_blocks`) and
  with the outer left side and the inner right side indexed by `Fin` (`sum_fin_blocks`). A grid of
  `m` row blocks of `n` rows that accumulates one block per step ends at the sum over all `m·n` rows.
-/
import Idealize.ShloMosaic.Lib.ValueIdx

namespace AnchorGcn

/-- `Σ_{i < m·n} f i = Σ_{t < m} Σ_{r < n} f (n·t + r)`, by induction on the number of blocks. -/
theorem sum_range_blocks {M : Type*} [AddCommMonoid M] (f : ℕ → M) (n : ℕ) : ∀ m : ℕ,
    ∑ i ∈ Finset.range (m * n), f i = ∑ t ∈ Finset.range m, ∑ r ∈ Finset.range n, f (n * t + r)
  | 0 => by rw [Nat.zero_mul, Finset.sum_range_zero, Finset.sum_range_zero]
  | m + 1 => by
    rw [Nat.succ_mul, Finset.sum_range_add, sum_range_blocks f n m, Finset.sum_range_succ, Nat.mul_comm m n]

/-- The same with the positions and the rows of a block as `Fin` indices:
    `Σ_{i : Fin (m·n)} f i = Σ_{t < m} Σ_{r : Fin n} f (n·t + r)`. -/
theorem sum_fin_blocks {M : Type*} [AddCommMonoid M] (f : ℕ → M) (m n : ℕ) :
    ∑ i : Fin (m * n), f i.val = ∑ t ∈ Finset.range m, ∑ r : Fin n, f (n * t + r.val) := by
  rw [Fin.sum_univ_eq_sum_range f (m * n), sum_range_blocks f n m]
  exact Finset.sum_congr rfl fun t _ => (Fin.sum_univ_eq_sum_range (fun r => f (n * t + r)) n).symm

end AnchorGcn
-- ==== Proof.FinalSums.lean ====
/-
  Two pure facts that close the pairwise certificate. Eight tiles of 1024 consecutive column points are all 8192 column
  points. And the scalar tail over a statistics table whose three columns are, per row, the sum of the exponentials over
  all masked pairs, the sum over the near pairs, and the row's continuity sum, is the reference's specification: the
  all-pairs column is the far-pairs sum plus the near-pairs sum, and the zero word is zero.
-/
import proofs.«135098_j86354612453531_2_alg».proof.Proof.RefTail
import proofs.«135098_j86354612453531_2_alg».proof.Proof.LibBlockSum
import Idealize.ShloMosaic.PureOps.Ideal.Laws
import Idealize.ShloMosaic.Lib.ValueIdx

noncomputable section

namespace FinalSums

open Cert.ReferenceIdeal Cert.ReferenceIdeal.RefValue
open Idealize.ShloMosaic Idealize.ShloMosaic.ValueIdx
open scoped BigOperators

/-! ## Tiles of column points -/

/-- Eight tiles of 1024 lanes are all 8192 column points. -/
theorem sum_tiles (g : Fin 8192 → EReal) :
    ∑ k ∈ Finset.range 8, ∑ q : Fin 1024, (if h : 1024 * k + q.val < 8192 then g ⟨1024 * k + q.val, h⟩ else 0)
      = ∑ j : Fin 8192, g j := by
  have h : ∑ i : Fin (8 * 1024), (if h : i.val < 8192 then g ⟨i.val, h⟩ else 0)
      = ∑ k ∈ Finset.range 8, ∑ q : Fin 1024, (if h : 1024 * k + q.val < 8192 then g ⟨1024 * k + q.val, h⟩ else 0) :=
    AnchorGcn.sum_fin_blocks (fun n => if h : n < 8192 then g ⟨n, h⟩ else 0) 8 1024
  rw [← h]
  show ∑ i : Fin 8192, (if h : i.val < 8192 then g ⟨i.val, h⟩ else 0) = _
  exact Finset.sum_congr rfl fun i _ => by rw [dif_pos i.isLt]

/-! ## The zero word -/

/-- The zero word added in front changes nothing. -/
theorem zero_word_add (x : EReal) : Ideal.ofBits .f32 0x00000000#32 + x = x := by
  rw [Ideal.ofBits_zero_f32, zero_add]

/-- A sum of pairwise sums from the zero word is the two sums, each from the zero word, added. -/
theorem split_sum {ι : Type} [Fintype ι] (n p : ι → EReal) :
    Ideal.ofBits .f32 0x00000000#32 + ∑ j, (n j + p j)
      = (Ideal.ofBits .f32 0x00000000#32 + ∑ j, n j) + (Ideal.ofBits .f32 0x00000000#32 + ∑ j, p j) := by
  simp only [zero_word_add, Finset.sum_add_distrib]

/-! ## The closing equation -/

/-- The closing equation over any finite set of points: with the near-pairs column `t1`, the all-pairs column `t0` and
    the continuity column `t2` given as row sums, the tail over the columns is the tail over the row losses. -/
theorem close_gen {ι : Type} [Fintype ι] (b : ι → BitVec 1) (t0 t1 t2 : ι → EReal) (p n c : ι → ι → EReal)
    (hP : ∀ a, t1 a = Ideal.ofBits .f32 0x00000000#32 + ∑ j, p a j)
    (hA : ∀ a, t0 a = Ideal.ofBits .f32 0x00000000#32 + ∑ j, (n a j + p a j))
    (hC : ∀ a, t2 a = Ideal.ofBits .f32 0x00000000#32 + ∑ j, c a j) :
    total (Ideal.ofBits .f32 0x00000000#32 + ∑ a, FloatOps.uitofp (F := Ideal) .f32 (b a))
        (Ideal.ofBits .f32 0x00000000#32 + ∑ a,
          -(Ideal.log (Scalar.select (b a) (Ideal.div (t1 a) (t0 a + Ideal.ofBits .f32 0x358637BD#32))
              (Ideal.ofBits .f32 0x3F800000#32))) * FloatOps.uitofp (F := Ideal) .f32 (b a))
        (Ideal.ofBits .f32 0x00000000#32 + ∑ a, t2 a)
      = total (Ideal.ofBits .f32 0x00000000#32 + ∑ a, FloatOps.uitofp (F := Ideal) .f32 (b a))
        (Ideal.ofBits .f32 0x00000000#32 + ∑ a,
          rowLoss (b a) (Ideal.ofBits .f32 0x00000000#32 + ∑ j, p a j) (Ideal.ofBits .f32 0x00000000#32 + ∑ j, n a j))
        (Ideal.ofBits .f32 0x00000000#32 + ∑ i, ∑ j, c i j) := by
  have e2 : ∀ a, -(Ideal.log (Scalar.select (b a) (Ideal.div (t1 a) (t0 a + Ideal.ofBits .f32 0x358637BD#32))
        (Ideal.ofBits .f32 0x3F800000#32))) * FloatOps.uitofp (F := Ideal) .f32 (b a)
      = rowLoss (b a) (Ideal.ofBits .f32 0x00000000#32 + ∑ j, p a j) (Ideal.ofBits .f32 0x00000000#32 + ∑ j, n a j) := fun a => by
    rw [hP a, hA a, split_sum]
    rfl
  have e3 : ∀ a, t2 a = ∑ j, c a j := fun a => by rw [hC a, zero_word_add]
  simp only [e2, e3]

/-- THE CLOSING EQUATION: the tail over the statistics table is the reference's specification. -/
theorem close (U : S8192x64.Idx → EReal) (B : S8192.Idx → BitVec 1) (Q : S8192.Idx → EReal) (X : S8192x3.Idx → EReal)
    (T : S8192x3.Idx → EReal)
    (hP : ∀ a : Fin 8192, T (ix2 a (1 : Fin 3))
      = Ideal.ofBits .f32 0x00000000#32 + ∑ j : Fin 8192, E U a j * posWeight B Q X a j)
    (hA : ∀ a : Fin 8192, T (ix2 a (0 : Fin 3))
      = Ideal.ofBits .f32 0x00000000#32 + ∑ j : Fin 8192, (E U a j * negWeight B Q X a j + E U a j * posWeight B Q X a j))
    (hC : ∀ a : Fin 8192, T (ix2 a (2 : Fin 3))
      = Ideal.ofBits .f32 0x00000000#32 + ∑ j : Fin 8192, contTerm U B Q X a j) :
    total (Ideal.ofBits .f32 0x00000000#32 + ∑ a : Fin 8192, FloatOps.uitofp (F := Ideal) .f32 (B (ix1 a)))
        (Ideal.ofBits .f32 0x00000000#32 + ∑ a : Fin 8192,
          -(Ideal.log (Scalar.select (B (ix1 a))
              (Ideal.div (T (ix2 a (1 : Fin 3))) (T (ix2 a (0 : Fin 3)) + Ideal.ofBits .f32 0x358637BD#32))
              (Ideal.ofBits .f32 0x3F800000#32))) * FloatOps.uitofp (F := Ideal) .f32 (B (ix1 a)))
        (Ideal.ofBits .f32 0x00000000#32 + ∑ a : Fin 8192, T (ix2 a (2 : Fin 3)))
      = spec U B Q X :=
  close_gen (fun a : Fin 8192 => B (ix1 a)) (fun a => T (ix2 a (0 : Fin 3))) (fun a => T (ix2 a (1 : Fin 3)))
    (fun a => T (ix2 a (2 : Fin 3))) (fun a j => E U a j * posWeight B Q X a j) (fun a j => E U a j * negWeight B Q X a j)
    (fun a j => contTerm U B Q X a j) hP hA hC

end FinalSums

end
-- ==== Proof.RowSums.lean ====
/-
  A row of the statistics table as one sum over all column points.

  Row i of the table belongs to row block i / 512, at row i % 512 of the block. Its eight tile sums run over the column
  points 1024 k + q, k < 8, q < 1024: all 8192 of them, each once. If a column's per-pair term at entry (p, q) of the tile
  at point t is a function g of the row point and the column point of that entry, the eight tile sums add up to the sum of
  g (i, j) over all column points j.
-/
import proofs.«135098_j86354612453531_2_alg».proof.Proof.StatsTable
import proofs.«135098_j86354612453531_2_alg».proof.Proof.BlockReads
import proofs.«135098_j86354612453531_2_alg».proof.Proof.FinalSums

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (V : (c : Dev nD) → (b : Ref sig .tc) → Buf (Elt Ideal) ((c : Thread nD τ).loc b))

theorem rows_sum (c : Dev nD) (col : Fin 3) (term : Fin cfg0.N → Fin 512 → Fin 1024 → EReal)
    (hS : ∀ (t : Fin cfg0.N) (p : Fin 512), tileSum V c t col p = ∑ q : Fin 1024, term t p q)
    (g : Fin 8192 → Fin 8192 → EReal) (hg : ∀ t p q, term t p q = g (rowPt t p) (colPt t q)) (i : Fin 8192) :
    ∑ k ∈ Finset.range 8, tileSumN V c (8 * (i.val / 512) + k) col ⟨i.val % 512, Nat.mod_lt _ (by omega)⟩
      = ∑ j : Fin 8192, g i j := by
  rw [← FinalSums.sum_tiles (g i)]
  refine Finset.sum_congr rfl fun k hk => ?_
  have hk8 : k < 8 := Finset.mem_range.mp hk
  have hi : i.val < 8192 := i.isLt
  have hlt : 8 * (i.val / 512) + k < cfg0.N := by rw [show cfg0.N = 128 from N_0]; omega
  refine ((tileSumN_of_lt V c ⟨8 * (i.val / 512) + k, hlt⟩ col ⟨i.val % 512, Nat.mod_lt _ (by omega)⟩).trans (hS _ _)).trans ?_
  refine Finset.sum_congr rfl fun q _ => ?_
  have hq : 1024 * k + q.val < 8192 := by have := q.isLt; omega
  rw [dif_pos hq, hg]
  refine congrArg₂ g (Fin.ext ?_) (Fin.ext ?_)
  · show 512 * ((8 * (i.val / 512) + k) / 8) + i.val % 512 = i.val; omega
  · show 1024 * ((8 * (i.val / 512) + k) % 8) + q.val = 1024 * k + q.val; omega

/-- ENTRY (i, col) OF THE TABLE as one sum over all column points. -/
theorem table_row (c : Dev nD) (col : Fin 3) (term : Fin cfg0.N → Fin 512 → Fin 1024 → EReal)
    (hS : ∀ (t : Fin cfg0.N) (p : Fin 512), tileSum V c t col p = ∑ q : Fin 1024, term t p q)
    (g : Fin 8192 → Fin 8192 → EReal) (hg : ∀ t p q, term t p q = g (rowPt t p) (colPt t q)) (i : Fin 8192) :
    (dats V 0 c).arrAt 6 cfg0.N (ix2 i col) = Ideal.ofBits .f32 0x00000000#32 + ∑ j : Fin 8192, g i j :=
  (table_apply V c i col).trans (congrArg _ (rows_sum V c col term hS g hg i))

end Cert.KernelIdeal.Hand

end
-- ==== Proof.EntryValues.lean ====
/-
  The pairwise program's host operations before its region, read as values at the ideal instance: the label mask, its
  float form and its count; the row-normalised features; the squared coordinate norms; and the four arrays the region's
  windows read — the features, the coordinate table extended by the norm and mask columns, and the two row vectors.
-/
import proofs.«135098_j86354612453531_2_alg».proof.Proof.MainFrame
import Idealize.ShloMosaic.Lib.ValueIdx
import Idealize.ShloMosaic.Lib.ValueLayout
import Idealize.ShloMosaic.Lib.StableHlo.Run

set_option maxRecDepth 16384

noncomputable section

namespace Cert.KernelIdeal.HostValue

open Cert.KernelIdeal Cert.KernelIdeal.Gen Cert.KernelIdeal.Hand
open Idealize.ShloMosaic Idealize.ShloMosaic.TcCoe Idealize.SL.Sem Idealize.ShloMosaic.StableHlo

/-! ## The composed terms -/

/-- The label mask: which labels equal 2. -/
def maskBits (x1 : (⟨S8192, .i32⟩ : BufTy).Contents (Elt Ideal)) : (⟨S8192, .i1⟩ : BufTy).Contents (Elt Ideal) :=
  (cmpi .eq : (⟨S8192, .i32⟩ : BufTy).Contents (Elt Ideal) → (⟨S8192, .i32⟩ : BufTy).Contents (Elt Ideal) → (⟨S8192, .i1⟩ : BufTy).Contents (Elt Ideal))
    x1 (broadcastInDim S8192 ![] bcast_S_S8192 (constantI S_ 32 2#32))

/-- The mask as floats. -/
def maskF (x1 : (⟨S8192, .i32⟩ : BufTy).Contents (Elt Ideal)) : (⟨S8192, .f32⟩ : BufTy).Contents (Elt Ideal) :=
  (uitofp (F := Ideal) .f32 : (⟨S8192, .i1⟩ : BufTy).Contents (Elt Ideal) → (⟨S8192, .f32⟩ : BufTy).Contents (Elt Ideal)) (maskBits x1)

/-- The number of masked points, as the float sum of the mask from zero. -/
def count (x1 : (⟨S8192, .i32⟩ : BufTy).Contents (Elt Ideal)) : (⟨S_, .f32⟩ : BufTy).Contents (Elt Ideal) :=
  Host.reduceAdd (F := Ideal) (maskF x1) (constant (F := Ideal) S_ .f32 0x00000000#32) reducesTo_S8192_S_d0 h_S_

/-- The features divided, row by row, by the larger of the row's Euclidean norm and a small positive word. -/
def unitF (x0 : (⟨S8192x64, .f32⟩ : BufTy).Contents (Elt Ideal)) : (⟨S8192x64, .f32⟩ : BufTy).Contents (Elt Ideal) :=
  Host.divf (F := Ideal) x0
    (broadcastInDim S8192x64 ![0, 1] bcast_S8192x1_S8192x64_0_1
      (maximumf (F := Ideal)
        (Host.sqrt (F := Ideal) (broadcastInDim S8192x1 ![0] bcast_S8192_S8192x1_0
          (Host.reduceAdd (F := Ideal) (mulf (F := Ideal) x0 x0) (constant (F := Ideal) S_ .f32 0x00000000#32) reducesTo_S8192x64_S8192_d1 h_S_)))
        (broadcastInDim S8192x1 ![] bcast_S_S8192x1 (constant (F := Ideal) S_ .f32 0x322BCC77#32))))

/-- The squared Euclidean norm of each point's coordinates. -/
def sqNorm (x2 : (⟨S8192x3, .f32⟩ : BufTy).Contents (Elt Ideal)) : (⟨S8192, .f32⟩ : BufTy).Contents (Elt Ideal) :=
  Host.reduceAdd (F := Ideal) (mulf (F := Ideal) x2 x2) (constant (F := Ideal) S_ .f32 0x00000000#32) reducesTo_S8192x3_S8192_d1 h_S_

variable (m : (ℓ : Loc nD τ sig) → Buf (Elt Ideal) ℓ) (ρ : Dev nD → PrngReg) (c : Dev nD)

/-- The three argument arrays as launched. -/
abbrev x0 : (⟨S8192x64, .f32⟩ : BufTy).Contents (Elt Ideal) := m ((c : Thread nD τ).loc main_arg0)
abbrev x1 : (⟨S8192, .i32⟩ : BufTy).Contents (Elt Ideal) := m ((c : Thread nD τ).loc main_arg1)
abbrev x2 : (⟨S8192x3, .f32⟩ : BufTy).Contents (Elt Ideal) := m ((c : Thread nD τ).loc main_arg2)

/-- The coordinate table extended by two columns: the squared norm and the float mask. -/
def table (x1 : (⟨S8192, .i32⟩ : BufTy).Contents (Elt Ideal)) (x2 : (⟨S8192x3, .f32⟩ : BufTy).Contents (Elt Ideal)) :
    (⟨S8192x5, .f32⟩ : BufTy).Contents (Elt Ideal) :=
  concatenate S8192x5 1
    [⟨S8192x3, x2⟩,
     ⟨S8192x1, broadcastInDim S8192x1 ![0] bcast_S8192_S8192x1_0 (sqNorm x2)⟩,
     ⟨S8192x1, broadcastInDim S8192x1 ![0] bcast_S8192_S8192x1_0 (maskF x1)⟩]
    concatenates_S8192x3_S8192x1_S8192x1_S8192x5_d1

/-- The squared norms as one row. -/
def normRow (x2 : (⟨S8192x3, .f32⟩ : BufTy).Contents (Elt Ideal)) : (⟨S1x8192, .f32⟩ : BufTy).Contents (Elt Ideal) :=
  shapeCast S1x8192 (sqNorm x2) shapeCasts_S8192_S1x8192

/-- The float mask as one row. -/
def maskRow (x1 : (⟨S8192, .i32⟩ : BufTy).Contents (Elt Ideal)) : (⟨S1x8192, .f32⟩ : BufTy).Contents (Elt Ideal) :=
  shapeCast S1x8192 (maskF x1) shapeCasts_S8192_S1x8192

/-! ## The run of the three stretches before the region, one buffer at a time -/

/-- A three-operand operation's result with each operand's contents at its own reference. -/
theorem nary3_result {xa xb xc y : Ref sig .tc}
    (f : ((k : Fin 3) → ((![xa, xb, xc] : Fin 3 → Ref sig .tc) k).ty.Contents (Elt Ideal)) → y.ty.Contents (Elt Ideal)) (hxs hy)
    (G : Valuation τ sig (Elt Ideal)) :
    (StableHlo.nary (τ := τ) ![xa, xb, xc] y f hxs hy).result G (Proc.devRef .tc y)
      = f (Fin.cons (G (Proc.devRef .tc xa)) (Fin.cons (G (Proc.devRef .tc xb)) (Fin.cons (G (Proc.devRef .tc xc)) (fun i => i.elim0)))) := by
  rw [nary_result]; congr 1; funext k; fin_cases k <;> rfl

/-- Rewrites each operation's result at its own buffer to its function's value and at any other buffer to what was there. -/
local macro "results_loop" : tactic =>
  `(tactic| (repeat (first
               | rw [nullary_result] | rw [unary_result] | rw [binary_result] | rw [ternary_result]
               | rw [reshape_result] | rw [nary3_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide)
               | (rw [nary_result_ne]; rotate_left; decide))))

/-- The region-entry contents of a buffer are what the 25 operations before the region, run as one list, leave in it. -/
theorem V_eq_after (b : Ref sig .tc) :
    V m ρ c b = StableHlo.after (hostOps0 ++ (hostOps0_1 ++ hostOps0_2)) (W0 m ρ c) (Proc.devRef .tc b) := by
  show StableHlo.after hostOps0_2 (StableHlo.after hostOps0_1 (StableHlo.after hostOps0 (W0 m ρ c))) (Proc.devRef .tc b) = _
  rw [← StableHlo.after_append, ← StableHlo.after_append]

theorem V_v1 : V m ρ c main_v1 = maskBits (x1 m c) := by
  rw [V_eq_after]
  simp only [hostOps0, hostOps0_1, hostOps0_2, List.cons_append, List.nil_append, after_cons, after_nil]
  results_loop
  rfl

theorem V_v2 : V m ρ c main_v2 = maskF (x1 m c) := by
  rw [V_eq_after]
  simp only [hostOps0, hostOps0_1, hostOps0_2, List.cons_append, List.nil_append, after_cons, after_nil]
  results_loop
  rfl

theorem V_v3 : V m ρ c main_v3 = count (x1 m c) := by
  rw [V_eq_after]
  simp only [hostOps0, hostOps0_1, hostOps0_2, List.cons_append, List.nil_append, after_cons, after_nil]
  results_loop
  rfl

theorem V_v9 : V m ρ c main_v9 = truncf (F := Ideal) .bf16 (unitF (x0 m c)) bitsLt_bf16_f32 := by
  rw [V_eq_after]
  simp only [hostOps0, hostOps0_1, hostOps0_2, List.cons_append, List.nil_append, after_cons, after_nil]
  results_loop
  rfl

theorem V_v14 : V m ρ c main_v14 = table (x1 m c) (x2 m c) := by
  rw [V_eq_after]
  simp only [hostOps0, hostOps0_1, hostOps0_2, List.cons_append, List.nil_append, after_cons, after_nil]
  results_loop
  rfl

theorem V_v15 : V m ρ c main_v15 = normRow (x2 m c) := by
  rw [V_eq_after]
  simp only [hostOps0, hostOps0_1, hostOps0_2, List.cons_append, List.nil_append, after_cons, after_nil]
  results_loop
  rfl

theorem V_v16 : V m ρ c main_v16 = maskRow (x1 m c) := by
  rw [V_eq_after]
  simp only [hostOps0, hostOps0_1, hostOps0_2, List.cons_append, List.nil_append, after_cons, after_nil]
  results_loop
  rfl

end Cert.KernelIdeal.HostValue

end
-- ==== Proof.EntryReads.lean ====
/-
  The four arrays the pairwise region's windows read, at an index: the features window holds the row-normalised
  features; the coordinate table holds the coordinates in columns 0 to 2, the squared norm in column 3 and the float
  mask in column 4; the two row vectors hold the squared norms and the float mask.
-/
import proofs.«135098_j86354612453531_2_alg».proof.Proof.EntryValues
import Idealize.ShloMosaic.Lib.Pipeline.Value

set_option maxRecDepth 16384

noncomputable section

namespace Cert.KernelIdeal.HostValue

open Cert.KernelIdeal Cert.KernelIdeal.Gen Cert.KernelIdeal.Hand
open Idealize.ShloMosaic Idealize.ShloMosaic.TcCoe Idealize.SL.Sem Idealize.ShloMosaic.StableHlo
open Idealize.ShloMosaic.ValueIdx

/-! ## The composed terms at an index -/

section Terms
variable (x1 : (⟨S8192, .i32⟩ : BufTy).Contents (Elt Ideal)) (x2 : (⟨S8192x3, .f32⟩ : BufTy).Contents (Elt Ideal))

/-- The table's three pieces: the coordinates, the norm column, the mask column. -/
abbrev pieces : List ((s : Shape) × (s.Idx → EReal)) :=
  [⟨S8192x3, x2⟩,
   ⟨S8192x1, broadcastInDim S8192x1 ![0] bcast_S8192_S8192x1_0 (sqNorm x2)⟩,
   ⟨S8192x1, broadcastInDim S8192x1 ![0] bcast_S8192_S8192x1_0 (maskF x1)⟩]

/-- A vector broadcast to a one-column array reads the vector's entry in every row. -/
theorem column_apply (v : (⟨S8192, .f32⟩ : BufTy).Contents (Elt Ideal)) (i : Fin 8192) (u : Fin 1) :
    broadcastInDim S8192x1 ![0] bcast_S8192_S8192x1_0 v (ix2 i u) = v (ix1 i) :=
  broadcastInDim_apply _ _ v _ _ fun a => match a with | ⟨0, _⟩ => rfl

/-- The table's first three columns are the coordinates. -/
theorem table_coord (i : Fin 8192) (k : Fin 3) (k' : Fin 5) (hk : k'.val = k.val) :
    table x1 x2 (ix2 i k') = x2 (ix2 i k) := by
  unfold table
  refine concatenate_apply_piece (t := S8192x5) (1 : Fin 2) (pieces x1 x2) concatenates_S8192x3_S8192x1_S8192x1_S8192x5_d1 (ix2 i k') 0 (by show (0 : ℕ) < 3; decide) S8192x3 x2 rfl rfl 0 rfl (ix2 i k) ?_ ?_
  · intro b hb
    match b, hb with
    | ⟨0, _⟩, _ => rfl
    | ⟨1, _⟩, hb => exact absurd rfl hb
  · show 0 + k.val = k'.val
    omega

/-- Column 3 is the squared norm. -/
theorem table_norm (i : Fin 8192) : table x1 x2 (ix2 i (3 : Fin 5)) = sqNorm x2 (ix1 i) := by
  unfold table
  refine (concatenate_apply_piece (t := S8192x5) (1 : Fin 2) (pieces x1 x2) concatenates_S8192x3_S8192x1_S8192x1_S8192x5_d1 (ix2 i (3 : Fin 5)) 1 (by show (1 : ℕ) < 3; decide) S8192x1 _ rfl rfl 3 rfl (ix2 i (0 : Fin 1)) ?_ ?_).trans
    (column_apply _ i 0)
  · intro b hb
    match b, hb with
    | ⟨0, _⟩, _ => rfl
    | ⟨1, _⟩, hb => exact absurd rfl hb
  · rfl

/-- Column 4 is the float mask. -/
theorem table_mask (i : Fin 8192) : table x1 x2 (ix2 i (4 : Fin 5)) = maskF x1 (ix1 i) := by
  unfold table
  refine (concatenate_apply_piece (t := S8192x5) (1 : Fin 2) (pieces x1 x2) concatenates_S8192x3_S8192x1_S8192x1_S8192x5_d1 (ix2 i (4 : Fin 5)) 2 (by show (2 : ℕ) < 3; decide) S8192x1 _ rfl rfl 4 rfl (ix2 i (0 : Fin 1)) ?_ ?_).trans
    (column_apply _ i 0)
  · intro b hb
    match b, hb with
    | ⟨0, _⟩, _ => rfl
    | ⟨1, _⟩, hb => exact absurd rfl hb
  · rfl

/-- The norm row at column `j` is point `j`'s squared norm. -/
theorem normRow_apply (u : Fin 1) (j : Fin 8192) : normRow x2 (ix2 u j) = sqNorm x2 (ix1 j) :=
  shapeCast_a_1a_apply _ _ u j

/-- The mask row at column `j` is point `j`'s float mask. -/
theorem maskRow_apply (u : Fin 1) (j : Fin 8192) : maskRow x1 (ix2 u j) = maskF x1 (ix1 j) :=
  shapeCast_a_1a_apply _ _ u j

end Terms

/-! ## The window arrays at an index -/

variable (m : (ℓ : Loc nD τ sig) → Buf (Elt Ideal) ℓ) (ρ : Dev nD → PrngReg) (c : Dev nD)

/-- The features window: the format change is the identity on extended reals. -/
theorem V_v9_apply (i : Fin 8192) (k : Fin 64) : (V m ρ c main_v9 : S8192x64.Idx → EReal) (ix2 i k) = unitF (x0 m c) (ix2 i k) := by
  rw [V_v9]; rfl

theorem V_v14_coord0 (i : Fin 8192) : (V m ρ c main_v14 : S8192x5.Idx → EReal) (ix2 i (0 : Fin 5)) = x2 m c (ix2 i (0 : Fin 3)) := by
  rw [V_v14]; exact table_coord _ _ i 0 0 rfl
theorem V_v14_coord1 (i : Fin 8192) : (V m ρ c main_v14 : S8192x5.Idx → EReal) (ix2 i (1 : Fin 5)) = x2 m c (ix2 i (1 : Fin 3)) := by
  rw [V_v14]; exact table_coord _ _ i 1 1 rfl
theorem V_v14_coord2 (i : Fin 8192) : (V m ρ c main_v14 : S8192x5.Idx → EReal) (ix2 i (2 : Fin 5)) = x2 m c (ix2 i (2 : Fin 3)) := by
  rw [V_v14]; exact table_coord _ _ i 2 2 rfl
theorem V_v14_norm (i : Fin 8192) : (V m ρ c main_v14 : S8192x5.Idx → EReal) (ix2 i (3 : Fin 5)) = sqNorm (x2 m c) (ix1 i) := by
  rw [V_v14]; exact table_norm _ _ i
theorem V_v14_mask (i : Fin 8192) : (V m ρ c main_v14 : S8192x5.Idx → EReal) (ix2 i (4 : Fin 5)) = maskF (x1 m c) (ix1 i) := by
  rw [V_v14]; exact table_mask _ _ i
theorem V_v15_apply (j : Fin 8192) : (V m ρ c main_v15 : S1x8192.Idx → EReal) (ix2 (0 : Fin 1) j) = sqNorm (x2 m c) (ix1 j) := by
  rw [V_v15]; exact normRow_apply _ 0 j
theorem V_v16_apply (j : Fin 8192) : (V m ρ c main_v16 : S1x8192.Idx → EReal) (ix2 (0 : Fin 1) j) = maskF (x1 m c) (ix1 j) := by
  rw [V_v16]; exact maskRow_apply _ 0 j

end Cert.KernelIdeal.HostValue

end
-- ==== Proof.TailValue.lean ====
/-
  The pairwise program's host operations after its region, read as one value at the ideal instance: from the statistics
  table the region wrote — per point the sum of the exponentials over the far pairs, the sum over the near pairs, and the
  row's continuity sum — the ratio of near to all, the guarded negative logarithm averaged over the masked points, the
  continuity sum divided by the squared count, and their combination.
-/
import proofs.«135098_j86354612453531_2_alg».proof.Proof.EntryValues

set_option maxRecDepth 16384

noncomputable section

namespace Cert.KernelIdeal.HostValue

open Cert.KernelIdeal Cert.KernelIdeal.Gen Cert.KernelIdeal.Hand
open Idealize.ShloMosaic Idealize.ShloMosaic.TcCoe Idealize.SL.Sem Idealize.ShloMosaic.StableHlo
open Idealize.ShloMosaic.ValueIdx

/-! ## The composed terms -/

/-- Column 0 of a three-column table, as a vector. -/
def col0 (T : (⟨S8192x3, .f32⟩ : BufTy).Contents (Elt Ideal)) : (⟨S8192, .f32⟩ : BufTy).Contents (Elt Ideal) :=
  shapeCast S8192 (extractStridedSlice S8192x1 ![0, 0] T slices_S8192x3_S8192x1_0_0) shapeCasts_S8192x1_S8192
/-- Column 1 of a three-column table, as a vector. -/
def col1 (T : (⟨S8192x3, .f32⟩ : BufTy).Contents (Elt Ideal)) : (⟨S8192, .f32⟩ : BufTy).Contents (Elt Ideal) :=
  shapeCast S8192 (extractStridedSlice S8192x1 ![0, 1] T slices_S8192x3_S8192x1_0_1) shapeCasts_S8192x1_S8192
/-- Column 2 of a three-column table, as a vector. -/
def col2 (T : (⟨S8192x3, .f32⟩ : BufTy).Contents (Elt Ideal)) : (⟨S8192, .f32⟩ : BufTy).Contents (Elt Ideal) :=
  shapeCast S8192 (extractStridedSlice S8192x1 ![0, 2] T slices_S8192x3_S8192x1_0_2) shapeCasts_S8192x1_S8192

/-- Per point: column 1 over (column 0 plus a small positive word). -/
def ratioOf (T : (⟨S8192x3, .f32⟩ : BufTy).Contents (Elt Ideal)) : (⟨S8192, .f32⟩ : BufTy).Contents (Elt Ideal) :=
  Host.divf (F := Ideal) (col1 T)
    (addf (F := Ideal) (col0 T) (broadcastInDim S8192 ![] bcast_S_S8192 (constant (F := Ideal) S_ .f32 0x358637BD#32)))

/-- The sum of column 2 from zero. -/
def contOf (T : (⟨S8192x3, .f32⟩ : BufTy).Contents (Elt Ideal)) : (⟨S_, .f32⟩ : BufTy).Contents (Elt Ideal) :=
  Host.reduceAdd (F := Ideal) (col2 T) (constant (F := Ideal) S_ .f32 0x00000000#32) reducesTo_S8192_S_d0 h_S_

/-- From the per-point ratios `r` and the continuity sum `s`: the masked mean of `-log` of the ratio (an unmasked
    point's ratio read as one), plus half of `s` over the squared count, times one. -/
def finish (x1 : (⟨S8192, .i32⟩ : BufTy).Contents (Elt Ideal)) (r : (⟨S8192, .f32⟩ : BufTy).Contents (Elt Ideal))
    (s : (⟨S_, .f32⟩ : BufTy).Contents (Elt Ideal)) : (⟨S_, .f32⟩ : BufTy).Contents (Elt Ideal) :=
  mulf (F := Ideal)
    (addf (F := Ideal)
      (Host.divf (F := Ideal)
        (Host.reduceAdd (F := Ideal)
          (mulf (F := Ideal)
            (Host.negf (F := Ideal) (Host.log (F := Ideal)
              (select (maskBits x1) r (broadcastInDim S8192 ![] bcast_S_S8192 (constant (F := Ideal) S_ .f32 0x3F800000#32)))))
            (maskF x1))
          (constant (F := Ideal) S_ .f32 0x00000000#32) reducesTo_S8192_S_d0 h_S_)
        (count x1))
      (mulf (F := Ideal) (constant (F := Ideal) S_ .f32 0x3F000000#32)
        (Host.divf (F := Ideal) s (mulf (F := Ideal) (count x1) (count x1)))))
    (constant (F := Ideal) S_ .f32 0x3F800000#32)

/-- The whole tail over the statistics table. -/
def tailOf (x1 : (⟨S8192, .i32⟩ : BufTy).Contents (Elt Ideal)) (T : (⟨S8192x3, .f32⟩ : BufTy).Contents (Elt Ideal)) :
    (⟨S_, .f32⟩ : BufTy).Contents (Elt Ideal) :=
  finish x1 (ratioOf T) (contOf T)

variable (m : (ℓ : Loc nD τ sig) → Buf (Elt Ideal) ℓ) (ρ : Dev nD → PrngReg) (c : Dev nD)

/-- Rewrites each operation's result at its own buffer to its function's value and at any other buffer to what was there. -/
local macro "results_loop" : tactic =>
  `(tactic| (repeat (first
               | rw [nullary_result] | rw [unary_result] | rw [binary_result] | rw [ternary_result]
               | rw [reshape_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide))))

/-! ## The run of the three stretches after the region -/

set_option maxHeartbeats 4000000 in
/-- The program's result is the tail over the statistics table the region wrote. -/
theorem W7_result : W7 m ρ c (Proc.devRef .tc main_v38) = tailOf (x1 m c) (stats m ρ c) := by
  show StableHlo.after hostOps1_2 (StableHlo.after hostOps1_1 (StableHlo.after hostOps1 (W4 m ρ c))) (Proc.devRef .tc main_v38) = _
  rw [← StableHlo.after_append, ← StableHlo.after_append]
  simp only [hostOps1, hostOps1_1, hostOps1_2, List.cons_append, List.nil_append]
  after_results_simp
  rw [W4_stats, W4_of_ne m ρ c main_v1 (by decide), W4_of_ne m ρ c main_v2 (by decide), W4_of_ne m ρ c main_v3 (by decide),
    show W3 m ρ c (Proc.devRef .tc main_v1) = maskBits (x1 m c) from V_v1 m ρ c,
    show W3 m ρ c (Proc.devRef .tc main_v2) = maskF (x1 m c) from V_v2 m ρ c,
    show W3 m ρ c (Proc.devRef .tc main_v3) = count (x1 m c) from V_v3 m ρ c]
  rfl

/-! ## The table's columns at an index -/

section Columns
variable (T : (⟨S8192x3, .f32⟩ : BufTy).Contents (Elt Ideal))

/-- A one-column array flattened to a vector reads the column's entry. -/
theorem flatten_apply (v : (⟨S8192x1, .f32⟩ : BufTy).Contents (Elt Ideal)) (i : Fin 8192) :
    shapeCast S8192 v shapeCasts_S8192x1_S8192 (ix1 i) = v (ix2 i (0 : Fin 1)) :=
  shapeCast_apply v shapeCasts_S8192x1_S8192 (ix1 i) (ix2 i (0 : Fin 1)) (by
    rw [Shape.rowMajor_val_two, Shape.rowMajor_val_one]
    show i.val * 1 + 0 = i.val
    omega)

theorem col0_apply (i : Fin 8192) : col0 T (ix1 i) = T (ix2 i (0 : Fin 3)) := by
  unfold col0
  exact (flatten_apply _ i).trans (slice2_axis1_apply 0 T _ i (0 : Fin 1) (0 : Fin 3) rfl)

theorem col1_apply (i : Fin 8192) : col1 T (ix1 i) = T (ix2 i (1 : Fin 3)) := by
  unfold col1
  exact (flatten_apply _ i).trans (slice2_axis1_apply 1 T _ i (0 : Fin 1) (1 : Fin 3) rfl)

theorem col2_apply (i : Fin 8192) : col2 T (ix1 i) = T (ix2 i (2 : Fin 3)) := by
  unfold col2
  exact (flatten_apply _ i).trans (slice2_axis1_apply 2 T _ i (0 : Fin 1) (2 : Fin 3) rfl)

end Columns

end Cert.KernelIdeal.HostValue

end
-- ==== Proof.TailRead.lean ====
/-
  The pairwise program's tail at its one index, in the shape of the reference's scalar tail: the mask count, the summed
  row losses over the statistics table's two exponential columns, and the sum of its continuity column. And the three
  host stages the two programs share — the mask bits, the unit features, the squared coordinate norms — are the
  reference's stages of the same arguments.
-/
import proofs.«135098_j86354612453531_2_alg».proof.Proof.TailValue
import proofs.«135098_j86354612453531_2_alg».proof.Proof.RefTail
import Idealize.ShloMosaic.Lib.IdealHost

set_option maxRecDepth 16384

noncomputable section

namespace Cert.KernelIdeal.HostValue

open Cert.KernelIdeal Cert.KernelIdeal.Gen
open Idealize.ShloMosaic Idealize.ShloMosaic.TcCoe Idealize.SL.Sem Idealize.ShloMosaic.StableHlo
open Idealize.ShloMosaic.ValueIdx
open scoped BigOperators

variable (x1 : (⟨S8192, .i32⟩ : BufTy).Contents (Elt Ideal)) (T : (⟨S8192x3, .f32⟩ : BufTy).Contents (Elt Ideal))

/-- The host's sum of a vector into a scalar, from an initial cell: the cell plus the sum over the points. -/
theorem sumAll_apply (y : FVec Ideal S8192 .f32) (init : FVec Ideal S_ .f32) (j : S_.Idx) :
    Host.reduceAdd (F := Ideal) (φ := .f32) y init reducesTo_S8192_S_d0 h_S_ j = init (Shape.Idx.first h_S_) + ∑ a : Fin 8192, y (ix1 a) := by
  simp only [Host.reduceAdd, Ideal.hostReduceAdd_def]
  rw [Ideal.hostReduceAdd_total reducesTo_S8192_S_d0 (fun b => b.elim0) y _ j, Cert.ReferenceIdeal.RefValue.sum_idx1]

/-- The number of masked points. -/
theorem count_apply (j : S_.Idx) :
    count x1 j = Ideal.ofBits .f32 0x00000000#32 + ∑ a : Fin 8192, FloatOps.uitofp (F := Ideal) .f32 (maskBits x1 (ix1 a)) := by
  unfold count
  rw [sumAll_apply]
  rfl

/-- The continuity sum: the sum of column 2. -/
theorem contOf_apply (j : S_.Idx) :
    contOf T j = Ideal.ofBits .f32 0x00000000#32 + ∑ a : Fin 8192, T (ix2 a (2 : Fin 3)) := by
  unfold contOf
  rw [sumAll_apply]
  refine congrArg (_ + ·) (Finset.sum_congr rfl fun a _ => ?_)
  exact col2_apply T a

/-- A point's ratio: column 1 over column 0 plus the small word. -/
theorem ratioOf_apply (i : Fin 8192) :
    ratioOf T (ix1 i) = Ideal.div (T (ix2 i (1 : Fin 3))) (T (ix2 i (0 : Fin 3)) + Ideal.ofBits .f32 0x358637BD#32) := by
  unfold ratioOf
  show Ideal.div (col1 T (ix1 i)) (col0 T (ix1 i)
    + broadcastInDim S8192 ![] bcast_S_S8192 (constant (F := Ideal) S_ .f32 0x358637BD#32) (ix1 i)) = _
  rw [col1_apply, col0_apply, broadcastInDim_scalar_apply]
  rfl

/-- The last stage at its one index, over any ratios `r` and continuity sum `s`. -/
theorem finish_apply (r : FVec Ideal S8192 .f32) (s : FVec Ideal S_ .f32) :
    finish x1 r s ix0 = Cert.ReferenceIdeal.RefValue.total (count x1 ix0)
      (Host.reduceAdd (F := Ideal) (φ := .f32)
          (mulf (F := Ideal)
            (Host.negf (F := Ideal) (Host.log (F := Ideal)
              (select (maskBits x1) r (broadcastInDim S8192 ![] bcast_S_S8192 (constant (F := Ideal) S_ .f32 0x3F800000#32)))))
            (maskF x1))
          (constant (F := Ideal) S_ .f32 0x00000000#32) reducesTo_S8192_S_d0 h_S_ ix0)
      (s ix0) := by
  rw [finish, mulf_apply, addf_apply, hostDivf_apply, mulf_apply, hostDivf_apply, mulf_apply, constant_apply, constant_apply]
  rfl

/-- The summed row losses over any ratios `r`. -/
theorem lossSum_apply (r : FVec Ideal S8192 .f32) (j : S_.Idx) :
    Host.reduceAdd (F := Ideal) (φ := .f32)
        (mulf (F := Ideal)
          (Host.negf (F := Ideal) (Host.log (F := Ideal)
            (select (maskBits x1) r (broadcastInDim S8192 ![] bcast_S_S8192 (constant (F := Ideal) S_ .f32 0x3F800000#32)))))
          (maskF x1))
        (constant (F := Ideal) S_ .f32 0x00000000#32) reducesTo_S8192_S_d0 h_S_ j
      = Ideal.ofBits .f32 0x00000000#32 + ∑ a : Fin 8192,
          -(Ideal.log (Scalar.select (maskBits x1 (ix1 a)) (r (ix1 a)) (Ideal.ofBits .f32 0x3F800000#32)))
            * FloatOps.uitofp (F := Ideal) .f32 (maskBits x1 (ix1 a)) := by
  rw [sumAll_apply]
  refine congrArg (_ + ·) (Finset.sum_congr rfl fun a _ => ?_)
  rw [mulf_apply]
  show -(Ideal.log (Scalar.select (maskBits x1 (ix1 a)) (r (ix1 a))
      (broadcastInDim S8192 ![] bcast_S_S8192 (constant (F := Ideal) S_ .f32 0x3F800000#32) (ix1 a)))) * _ = _
  rw [broadcastInDim_scalar_apply]
  rfl

/-- The tail at its one index. -/
theorem tailOf_apply :
    tailOf x1 T ix0 = Cert.ReferenceIdeal.RefValue.total
      (Ideal.ofBits .f32 0x00000000#32 + ∑ a : Fin 8192, FloatOps.uitofp (F := Ideal) .f32 (maskBits x1 (ix1 a)))
      (Ideal.ofBits .f32 0x00000000#32 + ∑ a : Fin 8192,
        -(Ideal.log (Scalar.select (maskBits x1 (ix1 a))
            (Ideal.div (T (ix2 a (1 : Fin 3))) (T (ix2 a (0 : Fin 3)) + Ideal.ofBits .f32 0x358637BD#32))
            (Ideal.ofBits .f32 0x3F800000#32)))
          * FloatOps.uitofp (F := Ideal) .f32 (maskBits x1 (ix1 a)))
      (Ideal.ofBits .f32 0x00000000#32 + ∑ a : Fin 8192, T (ix2 a (2 : Fin 3))) := by
  refine (finish_apply x1 (ratioOf T) (contOf T)).trans ?_
  rw [count_apply, contOf_apply, lossSum_apply]
  simp only [ratioOf_apply]

/-! ## The shared host stages are the reference's -/

/-- The mask bits are the reference's comparison stage. -/
theorem maskBits_eq_ref : maskBits x1 = Cert.ReferenceIdeal.Read.val_main_v1 (F := Ideal) x1 := rfl

/-- The unit features are the reference's normalisation stage. -/
theorem unitF_eq_ref (x0 : (⟨S8192x64, .f32⟩ : BufTy).Contents (Elt Ideal)) :
    unitF x0 = Cert.ReferenceIdeal.Read.val_main_v8 (F := Ideal) x0 := rfl

/-- The squared coordinate norms are the reference's. -/
theorem sqNorm_eq_ref (x2 : (⟨S8192x3, .f32⟩ : BufTy).Contents (Elt Ideal)) :
    sqNorm x2 = Cert.ReferenceIdeal.Read.val_main_v12 (F := Ideal) x2 := rfl

end Cert.KernelIdeal.HostValue

end
-- ==== Proof.PairAlgebra.lean ====
import Idealize.ShloMosaic.PureOps.Ideal.Laws
import Idealize.ShloMosaic.PureOps.IdealRules
import proofs.«135098_j86354612453531_2_alg».proof.KernelIdeal

noncomputable section

namespace PairAlgebra

open Idealize.ShloMosaic

/-! Identities on one pair of points, on the extended reals and single bits; none assumes a finite value.

A bit `b` as a number is written `u(b)` (the unsigned conversion of the bit) or `wf(b)` (the bit widened to 32
bits without sign and then converted as a signed integer); the two are the same number. The weight of a pair is a
product of such numbers, and the product of the numbers of two bits is the number of their conjunction. -/

local notation:max "u(" b ")" => (FloatOps.uitofp (F := Ideal) FTy.f32 (b : BitVec 1) : EReal)
local notation:max "wf(" w ")" => (FloatOps.sitofp (F := Ideal) FTy.f32 (BitVec.setWidth 32 (w : BitVec 1)) : EReal)
/-- The named reciprocal of the temperature. -/
local notation "invTemp" =>
  (Named.named (F := Ideal) Cert.KernelIdeal.κ "inv_temperature" (φ := FTy.f32) 0x41200000#32 : EReal)
/-- The temperature's word. -/
local notation "temp" => (Ideal.ofBits FTy.f32 0x3DCCCCCD#32 : EReal)

/-- The bit zero is the number zero … -/
theorem u_zero : u(0#1) = 0 := by
  show (((0#1 : BitVec 1).toNat : ℝ) : EReal) = 0
  simp
/-- … and the bit one the number one. -/
theorem u_one : u(1#1) = 1 := by
  show (((1#1 : BitVec 1).toNat : ℝ) : EReal) = 1
  simp
/-- Widened and read signed, the bit zero is zero … -/
theorem wf_zero : wf(0#1) = 0 := by
  show (((BitVec.setWidth 32 (0#1 : BitVec 1)).toInt : ℝ) : EReal) = 0
  simp
/-- … and the bit one is one (the widening leaves the sign bit clear). -/
theorem wf_one : wf(1#1) = 1 := by
  show (((BitVec.setWidth 32 (1#1 : BitVec 1)).toInt : ℝ) : EReal) = 1
  have h : (BitVec.setWidth 32 (1#1 : BitVec 1)).toInt = 1 := by decide
  rw [h]; simp

/-- (B1) The two spellings of a bit as a number agree. -/
theorem wf_eq (w : BitVec 1) : wf(w) = u(w) := by
  rcases BitVec.eq_zero_or_eq_one w with rfl | rfl
  · rw [wf_zero, u_zero]
  · rw [wf_one, u_one]

/-- (B2) The number of a conjunction is the product of the numbers. -/
theorem u_and (a b : BitVec 1) : u(IntOp.andi a b) = u(a) * u(b) := by
  rcases BitVec.eq_zero_or_eq_one a with rfl | rfl <;> rcases BitVec.eq_zero_or_eq_one b with rfl | rfl <;>
    simp [IntOp.andi, u_zero, u_one]

/-- (B3) The weight outside the range plus the weight inside it is the pair's weight, for any extended real. -/
theorem split (x : EReal) (g w : BitVec 1) :
    x * u(IntOp.andi g (~~~w)) + x * u(IntOp.andi g w) = x * u(g) := by
  rcases BitVec.eq_zero_or_eq_one g with rfl | rfl <;> rcases BitVec.eq_zero_or_eq_one w with rfl | rfl <;>
    simp [IntOp.andi, u_zero, u_one]

/-- (C1) The named reciprocal denotes the rational the table gives it. -/
theorem invT : invTemp = ((134217728 / 13421773 : ℝ) : EReal) :=
  IdealRules.named_const.ideal_named_scalar _ _ _ _ rfl

/-- The temperature's word denotes `(1 + 5033165/8388608) · 2⁻⁴ = 13421773/134217728`. -/
theorem tempWord : temp = ((13421773 / 134217728 : ℝ) : EReal) := by
  simp [Ideal.ofBits, Ideal.ieee, -EReal.coe_mul]; norm_num

/-- (C2) Multiplying by the named reciprocal is dividing by the temperature, on every extended real. -/
theorem scale_eq (s : EReal) : s * invTemp = Ideal.div s temp := by
  have h : (1 / (13421773 / 134217728 : ℝ)) = 134217728 / 13421773 := by norm_num
  rw [invT, tempWord, Ideal.div_coe (by norm_num : (13421773 / 134217728 : ℝ) ≠ 0), h]

/-- (D1) A positive pair's term in the two arrangements. -/
theorem pos_pair (s : EReal) (bi bj w : BitVec 1) :
    Ideal.exp (s * invTemp) * ((u(bi) * u(bj)) * wf(w))
      = Ideal.exp (Ideal.div s temp) * u(IntOp.andi (IntOp.andi bi bj) w) := by
  rw [scale_eq, wf_eq, u_and, u_and]

/-- (D2) A pair's term is its term outside the range plus its term inside. -/
theorem all_pair (s : EReal) (bi bj w : BitVec 1) :
    Ideal.exp (s * invTemp) * (u(bi) * u(bj))
      = Ideal.exp (Ideal.div s temp) * u(IntOp.andi (IntOp.andi bi bj) (~~~w))
        + Ideal.exp (Ideal.div s temp) * u(IntOp.andi (IntOp.andi bi bj) w) := by
  rw [scale_eq, split, u_and]

/-- (D3) The continuity term: on a positive pair the selected squared distance is the squared distance, and off
one both sides are a product with zero. -/
theorem cont_pair (s d : EReal) (bi bj w : BitVec 1) (one : EReal) :
    max ((one - s) - Ideal.sqrt d) (-((one - s) - Ideal.sqrt d)) * ((u(bi) * u(bj)) * wf(w))
      = max ((one - s) - Ideal.sqrt (Scalar.select (IntOp.andi (IntOp.andi bi bj) w) d one))
          (-((one - s) - Ideal.sqrt (Scalar.select (IntOp.andi (IntOp.andi bi bj) w) d one)))
        * u(IntOp.andi (IntOp.andi bi bj) w) := by
  rw [wf_eq, ← u_and, ← u_and]
  generalize IntOp.andi (IntOp.andi bi bj) w = c
  rcases BitVec.eq_zero_or_eq_one c with rfl | rfl
  · rw [u_zero, mul_zero, mul_zero]
  · rw [show Scalar.select (1#1 : BitVec 1) d one = d from if_pos rfl]

end PairAlgebra

end
-- ==== Proof.LibPlainDot.lean ====
/-
  A plain matrix product read at an entry, on the extended reals.

  For the dimension numbers "rows x contraction times contraction x columns" (`DotDims.plain M K N`: the left
  operand [M, K] contracted on its second axis, the right operand [K, N] on its first, no batch axis), both a
  `tpu.matmul` into the zero accumulator and the host's `dot_general` are, at an output entry (r, c), the plain sum

      sum over k < K of  l (r, k) * r (k, c)

  of products of extended reals: no rounding, no chunking and no accumulator are left. Nothing is assumed finite: the
  statement is about one and the same finite sum of products, only re-indexed from the contraction's own index type
  to `Fin K`. Generic in the three extents, so one statement serves a row block of a matrix and the whole matrix.
-/
import Idealize.ShloMosaic.PureOps.Ideal.Laws
import Idealize.ShloMosaic.Lib.ValueIdx

noncomputable section

namespace PlainDot

open Idealize.ShloMosaic Idealize.ShloMosaic.ValueIdx

variable (M K N : Nat)

/-- The left operand's index at output entry `j` and contraction position `k` is (row of `j`, `k`). -/
theorem lhsIdx_eq (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ =>
    show ((DotDims.plain M K N).lhsIdx j _ 0).val = (j 0).val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ =>
    exact ((DotDims.plain M K N).lhsIdx_val_of_single rfl j _).trans hk

/-- The right operand's index at output entry `j` and contraction position `k` is (`k`, column of `j`). -/
theorem rhsIdx_eq (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ =>
    exact ((DotDims.plain M K N).rhsIdx_val_of_single rfl j _).trans hk
  | ⟨1, _⟩ =>
    show ((DotDims.plain M K N).rhsIdx j _ 1).val = (j 1).val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- The contraction's sum, over its own index type, is the sum over `k < K` of `l (row, k) * r (k, column)`. -/
theorem sum_eq (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = ∑ k : Fin K, l (ix2 (j 0) k) * r (ix2 k (j 1)) := by
  rw [← Equiv.sum_comp (contrEquiv1 (DotDims.plain M K N) K rfl rfl).symm]
  refine Finset.sum_congr rfl fun k _ => ?_
  rw [lhsIdx_eq, rhsIdx_eq]
  rfl

/-- A `tpu.matmul` into the zero accumulator, at an entry: the plain sum of products. -/
theorem matmul_zero_apply {φ₁ φ₂ : FTy} (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, (l (ix2 (j 0) k) : EReal) * r (ix2 k (j 1)) :=
  (Ideal.matmul_constant_zero_apply (DotDims.plain M K N) prec l r j).trans (sum_eq M K N l r j)

/-- The host's `dot_general`, at an entry: the same plain sum of products, whatever the schedule key. -/
theorem dotGeneral_apply {φ₁ φ₂ : FTy} (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j
      = ∑ k : Fin K, (l (ix2 (j 0) k) : EReal) * r (ix2 k (j 1)) :=
  (Ideal.dotGeneral_apply (DotDims.plain M K N) prec sched l r j).trans (sum_eq M K N l r j)

end PlainDot

end
-- ==== Proof.LibColumnBroadcast.lean ====
/-
  A column broadcast across columns, read at an entry.

  An `[a, 1]` array broadcast to `[a, b]` holds, at `(p, c)`, the operand's entry `(p, 0)`: every column of the
  result is the operand's one column. Generic in the two extents and in the element type.
-/
import Idealize.ShloMosaic.Lib.Pipeline.Value
import Idealize.ShloMosaic.Lib.ValueIdx

noncomputable section

namespace ColumnBroadcast

open Idealize.ShloMosaic Idealize.ShloMosaic.ValueIdx

/-- An `[a, 1]` array broadcast to `[a, b]` reads, at `(p, c)`, the operand at `(p, 0)`. -/
theorem apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end ColumnBroadcast

end
-- ==== Proof.LibRowBroadcast.lean ====
/-
  A row [1, b] broadcast along the rows of an [a, b] array, read at coordinates: the entry (p, c) is the row's entry
  (0, c). (The column counterpart, an [a, 1] column broadcast to [a, b], reads the column's entry (p, 0).)
-/
import Idealize.ShloMosaic.Lib.ValueLayout
import Idealize.ShloMosaic.Lib.Pipeline.Value

namespace RowBroadcast

open Idealize.ShloMosaic Idealize.ShloMosaic.ValueIdx

/-- A [1, b] row broadcast to [a, b] reads, at (p, c), the row's entry at column c. -/
theorem broadcastTo_1b_ab_apply {α : Type} {a b : ℕ} (v : (⟨2, ![1, b]⟩ : Shape).Idx → α)
    (h : (⟨2, ![1, b]⟩ : Shape).Broadcasts ⟨2, ![a, b]⟩) (hb : b ≠ 1) (p : Fin a) (c : Fin b) :
    broadcastTo ⟨2, ![a, b]⟩ v h (ix2 p c) = v (ix2 (0 : Fin 1) c) := by
  refine broadcastTo_apply v h (ix2 p c) (ix2 (0 : Fin 1) c) fun ax => ?_
  match ax with
  | ⟨0, _⟩ => show (0 : Nat) = if (1 : Nat) = 1 then 0 else _; rw [if_pos rfl]
  | ⟨1, _⟩ => show c.val = if b = 1 then 0 else c.val; rw [if_neg hb]

end RowBroadcast
-- ==== Proof.TilePairs.lean ====
/-
  One tile's per-pair terms read at a pair (p, q) of a row point and a column point, on the extended reals.

  The tile holds the row points' unit features and table rows [x, y, z, squared norm, mask], the column points'
  unit features and table rows, and the column points' squared norms and masks as rows. At (p, q): the similarity is
  the inner product of the two unit feature rows; the squared distance is the polarisation expression
  (|a|² + |b|²) - 2 <a, b> clamped below at zero; the range bit says it is below one and above the small threshold; the
  mask is the product of the two mask entries. The three per-pair arrays of the tile are products of these.
-/
import proofs.«135098_j86354612453531_2_alg».proof.Proof.TileRead
import proofs.«135098_j86354612453531_2_alg».proof.Proof.PairAlgebra
import proofs.«135098_j86354612453531_2_alg».proof.Proof.LibPlainDot
import proofs.«135098_j86354612453531_2_alg».proof.Proof.LibColumnBroadcast
import proofs.«135098_j86354612453531_2_alg».proof.Proof.LibRowBroadcast

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

local notation:max "wf(" w ")" => (FloatOps.sitofp (F := Ideal) FTy.f32 (BitVec.setWidth 32 (w : BitVec 1)) : EReal)
local notation "invTemp" =>
  (Named.named (F := Ideal) Cert.KernelIdeal.κ "inv_temperature" (φ := FTy.f32) 0x41200000#32 : EReal)

/-! ## The per-pair quantities of a tile -/

/-- The similarity: the inner product of row point `p`'s and column point `q`'s unit features. -/
def tileSim (x0 : S512x64.Idx → EReal) (x1 : S1024x64.Idx → EReal) (p : Fin 512) (q : Fin 1024) : EReal :=
  ∑ k : Fin 64, x0 (ix2 p k) * x1 (ix2 q k)

/-- The inner product of the two points' coordinates (columns 0, 1, 2 of the tables). -/
def tileGram (x2 : S512x5.Idx → EReal) (x3 : S1024x5.Idx → EReal) (p : Fin 512) (q : Fin 1024) : EReal :=
  x2 (ix2 p (0 : Fin 5)) * x3 (ix2 q (0 : Fin 5)) + x2 (ix2 p (1 : Fin 5)) * x3 (ix2 q (1 : Fin 5))
    + x2 (ix2 p (2 : Fin 5)) * x3 (ix2 q (2 : Fin 5))

/-- The squared distance by the polarisation identity, clamped below at zero. -/
def tileSq (x2 : S512x5.Idx → EReal) (x3 : S1024x5.Idx → EReal) (x4 : S1x1024.Idx → EReal) (p : Fin 512)
    (q : Fin 1024) : EReal :=
  max ((x2 (ix2 p (3 : Fin 5)) + x4 (ix2 (0 : Fin 1) q)) - Ideal.ofBits .f32 0x40000000#32 * tileGram x2 x3 p q)
    (Ideal.ofBits .f32 0x00000000#32)

/-- The range bit: squared distance below one and above the small threshold. -/
def tileWithin (x2 : S512x5.Idx → EReal) (x3 : S1024x5.Idx → EReal) (x4 : S1x1024.Idx → EReal) (p : Fin 512)
    (q : Fin 1024) : BitVec 1 :=
  IntOp.andi (Ideal.cmp .olt (tileSq x2 x3 x4 p q) (Ideal.ofBits .f32 0x3F800000#32))
    (Ideal.cmp .ogt (tileSq x2 x3 x4 p q) (Ideal.ofBits .f32 0x2B8CBCCC#32))

/-- The product of the row point's and the column point's mask entries. -/
def tileMask (x2 : S512x5.Idx → EReal) (x5 : S1x1024.Idx → EReal) (p : Fin 512) (q : Fin 1024) : EReal :=
  x2 (ix2 p (4 : Fin 5)) * x5 (ix2 (0 : Fin 1) q)

/-! ## Layout operations at coordinates -/

/-- A slice of columns `off, off + 1, …` of a two-axis array reads, at `(p, c)`, the array at `(p, off + c)`. -/
theorem colSlice_apply {α : Type} {a b w : ℕ} (off : ℕ) (x : (⟨2, ![a, b]⟩ : Shape).Idx → α)
    (h : (⟨2, ![a, b]⟩ : Shape).Slices ![0, off] ⟨2, ![a, w]⟩) (p : Fin a) (c : Fin w) (c' : Fin b)
    (hc : c'.val = off + c.val) :
    extractStridedSlice ⟨2, ![a, w]⟩ ![0, off] x h (ix2 p c) = x (ix2 p c') :=
  extractStridedSlice_apply ![0, off] x h (ix2 p c) (ix2 p c') (fun d => match d with
    | ⟨0, _⟩ => (Nat.zero_add _).symm
    | ⟨1, _⟩ => hc)

/-- The transpose of a two-axis array reads, at `(k, q)`, the array at `(q, k)`. -/
theorem transpose2_apply {α : Type} {a b : ℕ} (x : (⟨2, ![a, b]⟩ : Shape).Idx → α)
    (h : (⟨2, ![a, b]⟩ : Shape).Transposes [1, 0] ⟨2, ![b, a]⟩) (k : Fin b) (q : Fin a) :
    transpose ⟨2, ![b, a]⟩ [1, 0] x h (ix2 k q) = x (ix2 q k) :=
  transpose_apply [1, 0] x h (ix2 k q) (ix2 q k) (fun d => match d with
    | ⟨0, _⟩ => rfl
    | ⟨1, _⟩ => rfl)

/-! ## The payloads at (p, q) -/

theorem pay2_eq (v7 : Vec Ideal S512x5 .f32) : k0_pay2 (F := Ideal) v7 = v7 := by
  unfold k0_pay2
  exact shapeCast_self _ _

theorem pay3_eq (v13 : Vec Ideal S1x1024 .f32) : k0_pay3 (F := Ideal) v13 = v13 := by
  unfold k0_pay3
  exact shapeCast_self _ _

/-- The row points' mask column. -/
theorem pay4_apply (x2 : Vec Ideal S512x5 .f32) (p : Fin 512) :
    k0_pay4 (F := Ideal) x2 (ix2 p (0 : Fin 1)) = x2 (ix2 p (4 : Fin 5)) := by
  unfold k0_pay4
  rw [pay2_eq]
  exact colSlice_apply 4 x2 _ p (0 : Fin 1) (4 : Fin 5) rfl

/-- The similarity block. -/
theorem pay5_apply (x0 : Vec Ideal S512x64 .bf16) (x1 : Vec Ideal S1024x64 .bf16) (p : Fin 512) (q : Fin 1024) :
    k0_pay5 (F := Ideal) x0 x1 (ix2 p q) = tileSim x0 x1 p q := by
  unfold k0_pay5 tileSim
  simp only [shapeCast_self]
  refine (PlainDot.matmul_zero_apply 512 64 1024 none _ _ (ix2 p q)).trans ?_
  refine Finset.sum_congr rfl fun k _ => ?_
  exact congrArg (x0 (ix2 p k) * ·) (transpose2_apply x1 _ k q)

/-- The coordinates' inner products. -/
theorem gram_apply (x2 : Vec Ideal S512x5 .f32) (x3 : Vec Ideal S1024x5 .f32)
    (h15 : S512x5.Slices ![0, 0] S512x3) (h18 : S1024x5.Slices ![0, 0] S1024x3)
    (h21 : S1024x3.Transposes [1, 0] S3x1024) (p : Fin 512) (q : Fin 1024) :
    FloatOps.matmul (F := Ideal) (φ₁ := .f32) (φ₂ := .f32) dot_S512x3_S3x1024_S512x1024_1_0_0_1_n_n none (extractStridedSlice S512x3 ![0, 0] x2 h15)
        (transpose S3x1024 [1, 0] (extractStridedSlice S1024x3 ![0, 0] x3 h18) h21)
        (constant (F := Ideal) S512x1024 .f32 0x00000000#32) (ix2 p q)
      = tileGram x2 x3 p q := by
  refine (PlainDot.matmul_zero_apply 512 3 1024 none _ _ (ix2 p q)).trans ?_
  rw [Fin.sum_univ_three]
  unfold tileGram
  have l0 := colSlice_apply 0 x2 h15 p (0 : Fin 3) (0 : Fin 5) rfl
  have l1 := colSlice_apply 0 x2 h15 p (1 : Fin 3) (1 : Fin 5) rfl
  have l2 := colSlice_apply 0 x2 h15 p (2 : Fin 3) (2 : Fin 5) rfl
  have r0 := (transpose2_apply (extractStridedSlice S1024x3 ![0, 0] x3 h18) h21 (0 : Fin 3) q).trans
    (colSlice_apply 0 x3 h18 q (0 : Fin 3) (0 : Fin 5) rfl)
  have r1 := (transpose2_apply (extractStridedSlice S1024x3 ![0, 0] x3 h18) h21 (1 : Fin 3) q).trans
    (colSlice_apply 0 x3 h18 q (1 : Fin 3) (1 : Fin 5) rfl)
  have r2 := (transpose2_apply (extractStridedSlice S1024x3 ![0, 0] x3 h18) h21 (2 : Fin 3) q).trans
    (colSlice_apply 0 x3 h18 q (2 : Fin 3) (2 : Fin 5) rfl)
  exact congrArg₂ (· + ·) (congrArg₂ (· + ·) (congrArg₂ (· * ·) l0 r0) (congrArg₂ (· * ·) l1 r1))
    (congrArg₂ (· * ·) l2 r2)

/-- The clamped squared distance block. -/
theorem pay6_apply (x2 : Vec Ideal S512x5 .f32) (x3 : Vec Ideal S1024x5 .f32) (x4 : Vec Ideal S1x1024 .f32)
    (p : Fin 512) (q : Fin 1024) :
    k0_pay6 (F := Ideal) x2 x3 x4 (ix2 p q) = tileSq x2 x3 x4 p q := by
  unfold k0_pay6 tileSq
  simp only [shapeCast_self, pay2_eq]
  refine congrArg₂ max (congrArg₂ (· - ·) (congrArg₂ (· + ·) ?_ ?_) (congrArg (Ideal.ofBits .f32 0x40000000#32 * ·) ?_)) rfl
  · exact (ColumnBroadcast.apply _ _ p q).trans (colSlice_apply 3 x2 _ p (0 : Fin 1) (3 : Fin 5) rfl)
  · exact RowBroadcast.broadcastTo_1b_ab_apply x4 _ (by decide) p q
  · exact gram_apply x2 x3 _ _ _ p q

/-- The range bit, widened to a word. -/
theorem pay7_apply (x2 : Vec Ideal S512x5 .f32) (x3 : Vec Ideal S1024x5 .f32) (x4 : Vec Ideal S1x1024 .f32)
    (p : Fin 512) (q : Fin 1024) :
    k0_pay7 (F := Ideal) x2 x3 x4 (ix2 p q) = BitVec.setWidth 32 (tileWithin x2 x3 x4 p q) := by
  unfold k0_pay7 tileWithin
  show BitVec.setWidth 32 (IntOp.andi
      (FloatOps.cmpf .olt (k0_pay6 (F := Ideal) x2 x3 x4 (ix2 p q)) (Ideal.ofBits .f32 0x3F800000#32))
      (FloatOps.cmpf .ogt (k0_pay6 (F := Ideal) x2 x3 x4 (ix2 p q)) (Ideal.ofBits .f32 0x2B8CBCCC#32))) = _
  rw [pay6_apply]
  rfl

/-- The mask block: a mask column times a mask row. -/
theorem pay8_apply (v14 : FVec Ideal S1x1024 .f32) (v17 : FVec Ideal S512x1 .f32) (p : Fin 512) (q : Fin 1024) :
    k0_pay8 (F := Ideal) v14 v17 (ix2 p q) = v17 (ix2 p (0 : Fin 1)) * v14 (ix2 (0 : Fin 1) q) := by
  unfold k0_pay8
  exact congrArg₂ (· * ·) (ColumnBroadcast.apply v17 _ p q) (RowBroadcast.broadcastTo_1b_ab_apply v14 _ (by decide) p q)

/-- The mask block times the range bit as a number. -/
theorem pay9_apply (v14 : FVec Ideal S1x1024 .f32) (v17 : FVec Ideal S512x1 .f32) (v36 : IVec S512x1024 32)
    (p : Fin 512) (q : Fin 1024) :
    k0_pay9 (F := Ideal) v14 v17 v36 (ix2 p q)
      = k0_pay8 (F := Ideal) v14 v17 (ix2 p q) * FloatOps.sitofp (F := Ideal) .f32 (v36 (ix2 p q)) := by
  unfold k0_pay9
  rfl

/-- The exponential of the scaled similarity. -/
theorem pay10_apply (v20 : FVec Ideal S512x1024 .f32) (p : Fin 512) (q : Fin 1024) :
    k0_pay10 (F := Ideal) v20 (ix2 p q) = Ideal.exp (v20 (ix2 p q) * invTemp) := by
  unfold k0_pay10
  rfl

/-- The mask factor of a tile at (p, q). -/
theorem mask_apply (x2 : Vec Ideal S512x5 .f32) (x5 : Vec Ideal S1x1024 .f32) (p : Fin 512) (q : Fin 1024) :
    k0_pay8 (F := Ideal) (k0_pay3 x5) (k0_pay4 x2) (ix2 p q) = tileMask x2 x5 p q := by
  rw [pay8_apply, pay3_eq, pay4_apply]
  rfl

/-- The masked range factor of a tile at (p, q). -/
theorem maskWithin_apply (x2 : Vec Ideal S512x5 .f32) (x3 : Vec Ideal S1024x5 .f32) (x4 x5 : Vec Ideal S1x1024 .f32)
    (p : Fin 512) (q : Fin 1024) :
    k0_pay9 (F := Ideal) (k0_pay3 x5) (k0_pay4 x2) (k0_pay7 x2 x3 x4) (ix2 p q)
      = tileMask x2 x5 p q * wf(tileWithin x2 x3 x4 p q) := by
  rw [pay9_apply, mask_apply, pay7_apply]

/-! ## The three per-pair arrays of a tile at (p, q) -/

theorem pairTerm_apply (x0 : Vec Ideal S512x64 .bf16) (x1 : Vec Ideal S1024x64 .bf16) (x2 : Vec Ideal S512x5 .f32)
    (x3 : Vec Ideal S1024x5 .f32) (x4 x5 : Vec Ideal S1x1024 .f32) (p : Fin 512) (q : Fin 1024) :
    pairTerm x0 x1 x2 x3 x4 x5 (ix2 p q) = Ideal.exp (tileSim x0 x1 p q * invTemp) * tileMask x2 x5 p q := by
  unfold pairTerm
  show k0_pay10 (F := Ideal) (k0_pay5 x0 x1) (ix2 p q) * k0_pay8 (F := Ideal) (k0_pay3 x5) (k0_pay4 x2) (ix2 p q) = _
  rw [pay10_apply, pay5_apply, mask_apply]

theorem posTerm_apply (x0 : Vec Ideal S512x64 .bf16) (x1 : Vec Ideal S1024x64 .bf16) (x2 : Vec Ideal S512x5 .f32)
    (x3 : Vec Ideal S1024x5 .f32) (x4 x5 : Vec Ideal S1x1024 .f32) (p : Fin 512) (q : Fin 1024) :
    posTerm x0 x1 x2 x3 x4 x5 (ix2 p q)
      = Ideal.exp (tileSim x0 x1 p q * invTemp) * (tileMask x2 x5 p q * wf(tileWithin x2 x3 x4 p q)) := by
  unfold posTerm
  show k0_pay10 (F := Ideal) (k0_pay5 x0 x1) (ix2 p q)
    * k0_pay9 (F := Ideal) (k0_pay3 x5) (k0_pay4 x2) (k0_pay7 x2 x3 x4) (ix2 p q) = _
  rw [pay10_apply, pay5_apply, maskWithin_apply]

theorem contTerm_apply (x0 : Vec Ideal S512x64 .bf16) (x1 : Vec Ideal S1024x64 .bf16) (x2 : Vec Ideal S512x5 .f32)
    (x3 : Vec Ideal S1024x5 .f32) (x4 x5 : Vec Ideal S1x1024 .f32) (p : Fin 512) (q : Fin 1024) :
    contTerm x0 x1 x2 x3 x4 x5 (ix2 p q)
      = max ((Ideal.ofBits .f32 0x3F800000#32 - tileSim x0 x1 p q) - Ideal.sqrt (tileSq x2 x3 x4 p q))
          (-((Ideal.ofBits .f32 0x3F800000#32 - tileSim x0 x1 p q) - Ideal.sqrt (tileSq x2 x3 x4 p q)))
        * (tileMask x2 x5 p q * wf(tileWithin x2 x3 x4 p q)) := by
  unfold contTerm
  show max ((Ideal.ofBits .f32 0x3F800000#32 - k0_pay5 (F := Ideal) x0 x1 (ix2 p q))
        - Ideal.sqrt (k0_pay6 (F := Ideal) x2 x3 x4 (ix2 p q)))
      (-((Ideal.ofBits .f32 0x3F800000#32 - k0_pay5 (F := Ideal) x0 x1 (ix2 p q))
        - Ideal.sqrt (k0_pay6 (F := Ideal) x2 x3 x4 (ix2 p q))))
    * k0_pay9 (F := Ideal) (k0_pay3 x5) (k0_pay4 x2) (k0_pay7 x2 x3 x4) (ix2 p q) = _
  rw [pay5_apply, pay6_apply, maskWithin_apply]

end Cert.KernelIdeal.Hand

end
-- ==== Proof.PairJoin.lean ====
/-
  A tile's per-pair terms are the reference's per-pair terms of the row point and the column point.

  The six blocks of a tile hold, for its row points and column points, rows of the global data: unit features, the
  coordinates, the squared norms and the mask bits as numbers. Under those table facts the tile's similarity, squared
  distance and range bit at (p, q) are the reference's at (row of p, column of q), and the tile's three per-pair arrays
  are the reference's positive-pair term, the sum of its negative- and positive-pair terms, and its continuity term.
-/
import proofs.«135098_j86354612453531_2_alg».proof.Proof.TilePairs
import proofs.«135098_j86354612453531_2_alg».proof.Proof.RefSums

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

/-- The tile's similarity is the reference's. -/
theorem tileSim_eq (x0 : Vec Ideal S512x64 .bf16) (x1 : Vec Ideal S1024x64 .bf16)
    (U : (⟨2, ![8192, 64]⟩ : Shape).Idx → EReal) (rowOf : Fin 512 → Fin 8192) (colOf : Fin 1024 → Fin 8192)
    (h0 : ∀ p k, x0 (ix2 p k) = U (ix2 (rowOf p) k)) (h1 : ∀ q k, x1 (ix2 q k) = U (ix2 (colOf q) k))
    (p : Fin 512) (q : Fin 1024) :
    tileSim x0 x1 p q = Cert.ReferenceIdeal.RefValue.sim U (rowOf p) (colOf q) := by
  unfold tileSim Cert.ReferenceIdeal.RefValue.sim
  exact Finset.sum_congr rfl fun k _ => by rw [h0, h1]

/-- The tile's clamped squared distance is the reference's. -/
theorem tileSq_eq (x2 : Vec Ideal S512x5 .f32) (x3 : Vec Ideal S1024x5 .f32) (x4 : Vec Ideal S1x1024 .f32)
    (Q : (⟨1, ![8192]⟩ : Shape).Idx → EReal) (X : (⟨2, ![8192, 3]⟩ : Shape).Idx → EReal)
    (rowOf : Fin 512 → Fin 8192) (colOf : Fin 1024 → Fin 8192)
    (h2c0 : ∀ p, x2 (ix2 p (0 : Fin 5)) = X (ix2 (rowOf p) (0 : Fin 3)))
    (h2c1 : ∀ p, x2 (ix2 p (1 : Fin 5)) = X (ix2 (rowOf p) (1 : Fin 3)))
    (h2c2 : ∀ p, x2 (ix2 p (2 : Fin 5)) = X (ix2 (rowOf p) (2 : Fin 3)))
    (h2n : ∀ p, x2 (ix2 p (3 : Fin 5)) = Q (ix1 (rowOf p)))
    (h3c0 : ∀ q, x3 (ix2 q (0 : Fin 5)) = X (ix2 (colOf q) (0 : Fin 3)))
    (h3c1 : ∀ q, x3 (ix2 q (1 : Fin 5)) = X (ix2 (colOf q) (1 : Fin 3)))
    (h3c2 : ∀ q, x3 (ix2 q (2 : Fin 5)) = X (ix2 (colOf q) (2 : Fin 3)))
    (h4 : ∀ q, x4 (ix2 (0 : Fin 1) q) = Q (ix1 (colOf q)))
    (p : Fin 512) (q : Fin 1024) :
    tileSq x2 x3 x4 p q = Cert.ReferenceIdeal.RefValue.sq Q X (rowOf p) (colOf q) := by
  unfold tileSq tileGram Cert.ReferenceIdeal.RefValue.sq
  rw [Fin.sum_univ_three, h2n, h4, h2c0, h2c1, h2c2, h3c0, h3c1, h3c2]

/-- The tile's range bit is the reference's. -/
theorem tileWithin_eq (x2 : Vec Ideal S512x5 .f32) (x3 : Vec Ideal S1024x5 .f32) (x4 : Vec Ideal S1x1024 .f32)
    (Q : (⟨1, ![8192]⟩ : Shape).Idx → EReal) (X : (⟨2, ![8192, 3]⟩ : Shape).Idx → EReal)
    (rowOf : Fin 512 → Fin 8192) (colOf : Fin 1024 → Fin 8192)
    (h2c0 : ∀ p, x2 (ix2 p (0 : Fin 5)) = X (ix2 (rowOf p) (0 : Fin 3)))
    (h2c1 : ∀ p, x2 (ix2 p (1 : Fin 5)) = X (ix2 (rowOf p) (1 : Fin 3)))
    (h2c2 : ∀ p, x2 (ix2 p (2 : Fin 5)) = X (ix2 (rowOf p) (2 : Fin 3)))
    (h2n : ∀ p, x2 (ix2 p (3 : Fin 5)) = Q (ix1 (rowOf p)))
    (h3c0 : ∀ q, x3 (ix2 q (0 : Fin 5)) = X (ix2 (colOf q) (0 : Fin 3)))
    (h3c1 : ∀ q, x3 (ix2 q (1 : Fin 5)) = X (ix2 (colOf q) (1 : Fin 3)))
    (h3c2 : ∀ q, x3 (ix2 q (2 : Fin 5)) = X (ix2 (colOf q) (2 : Fin 3)))
    (h4 : ∀ q, x4 (ix2 (0 : Fin 1) q) = Q (ix1 (colOf q)))
    (p : Fin 512) (q : Fin 1024) :
    tileWithin x2 x3 x4 p q = Cert.ReferenceIdeal.RefValue.within Q X (rowOf p) (colOf q) := by
  unfold tileWithin Cert.ReferenceIdeal.RefValue.within
  rw [tileSq_eq x2 x3 x4 Q X rowOf colOf h2c0 h2c1 h2c2 h2n h3c0 h3c1 h3c2 h4 p q]

/-- The tile's positive-pair array is the reference's positive-pair term. -/
theorem posTerm_join (x0 : Vec Ideal S512x64 .bf16) (x1 : Vec Ideal S1024x64 .bf16) (x2 : Vec Ideal S512x5 .f32)
    (x3 : Vec Ideal S1024x5 .f32) (x4 x5 : Vec Ideal S1x1024 .f32)
    (U : (⟨2, ![8192, 64]⟩ : Shape).Idx → EReal) (B : (⟨1, ![8192]⟩ : Shape).Idx → BitVec 1)
    (Q : (⟨1, ![8192]⟩ : Shape).Idx → EReal) (X : (⟨2, ![8192, 3]⟩ : Shape).Idx → EReal)
    (rowOf : Fin 512 → Fin 8192) (colOf : Fin 1024 → Fin 8192)
    (h0 : ∀ p k, x0 (ix2 p k) = U (ix2 (rowOf p) k)) (h1 : ∀ q k, x1 (ix2 q k) = U (ix2 (colOf q) k))
    (h2c0 : ∀ p, x2 (ix2 p (0 : Fin 5)) = X (ix2 (rowOf p) (0 : Fin 3)))
    (h2c1 : ∀ p, x2 (ix2 p (1 : Fin 5)) = X (ix2 (rowOf p) (1 : Fin 3)))
    (h2c2 : ∀ p, x2 (ix2 p (2 : Fin 5)) = X (ix2 (rowOf p) (2 : Fin 3)))
    (h2n : ∀ p, x2 (ix2 p (3 : Fin 5)) = Q (ix1 (rowOf p)))
    (h2m : ∀ p, x2 (ix2 p (4 : Fin 5)) = FloatOps.uitofp (F := Ideal) .f32 (B (ix1 (rowOf p))))
    (h3c0 : ∀ q, x3 (ix2 q (0 : Fin 5)) = X (ix2 (colOf q) (0 : Fin 3)))
    (h3c1 : ∀ q, x3 (ix2 q (1 : Fin 5)) = X (ix2 (colOf q) (1 : Fin 3)))
    (h3c2 : ∀ q, x3 (ix2 q (2 : Fin 5)) = X (ix2 (colOf q) (2 : Fin 3)))
    (h4 : ∀ q, x4 (ix2 (0 : Fin 1) q) = Q (ix1 (colOf q)))
    (h5 : ∀ q, x5 (ix2 (0 : Fin 1) q) = FloatOps.uitofp (F := Ideal) .f32 (B (ix1 (colOf q))))
    (p : Fin 512) (q : Fin 1024) :
    posTerm x0 x1 x2 x3 x4 x5 (ix2 p q)
      = Cert.ReferenceIdeal.RefValue.E U (rowOf p) (colOf q) * Cert.ReferenceIdeal.RefValue.posWeight B Q X (rowOf p) (colOf q) := by
  rw [posTerm_apply]
  unfold tileMask
  rw [h2m, h5, tileSim_eq x0 x1 U rowOf colOf h0 h1 p q,
    tileWithin_eq x2 x3 x4 Q X rowOf colOf h2c0 h2c1 h2c2 h2n h3c0 h3c1 h3c2 h4 p q, PairAlgebra.pos_pair]
  rfl

/-- The tile's all-pair array is the reference's negative-pair term plus its positive-pair term. -/
theorem pairTerm_join (x0 : Vec Ideal S512x64 .bf16) (x1 : Vec Ideal S1024x64 .bf16) (x2 : Vec Ideal S512x5 .f32)
    (x3 : Vec Ideal S1024x5 .f32) (x4 x5 : Vec Ideal S1x1024 .f32)
    (U : (⟨2, ![8192, 64]⟩ : Shape).Idx → EReal) (B : (⟨1, ![8192]⟩ : Shape).Idx → BitVec 1)
    (Q : (⟨1, ![8192]⟩ : Shape).Idx → EReal) (X : (⟨2, ![8192, 3]⟩ : Shape).Idx → EReal)
    (rowOf : Fin 512 → Fin 8192) (colOf : Fin 1024 → Fin 8192)
    (h0 : ∀ p k, x0 (ix2 p k) = U (ix2 (rowOf p) k)) (h1 : ∀ q k, x1 (ix2 q k) = U (ix2 (colOf q) k))
    (h2c0 : ∀ p, x2 (ix2 p (0 : Fin 5)) = X (ix2 (rowOf p) (0 : Fin 3)))
    (h2c1 : ∀ p, x2 (ix2 p (1 : Fin 5)) = X (ix2 (rowOf p) (1 : Fin 3)))
    (h2c2 : ∀ p, x2 (ix2 p (2 : Fin 5)) = X (ix2 (rowOf p) (2 : Fin 3)))
    (h2n : ∀ p, x2 (ix2 p (3 : Fin 5)) = Q (ix1 (rowOf p)))
    (h2m : ∀ p, x2 (ix2 p (4 : Fin 5)) = FloatOps.uitofp (F := Ideal) .f32 (B (ix1 (rowOf p))))
    (h3c0 : ∀ q, x3 (ix2 q (0 : Fin 5)) = X (ix2 (colOf q) (0 : Fin 3)))
    (h3c1 : ∀ q, x3 (ix2 q (1 : Fin 5)) = X (ix2 (colOf q) (1 : Fin 3)))
    (h3c2 : ∀ q, x3 (ix2 q (2 : Fin 5)) = X (ix2 (colOf q) (2 : Fin 3)))
    (h4 : ∀ q, x4 (ix2 (0 : Fin 1) q) = Q (ix1 (colOf q)))
    (h5 : ∀ q, x5 (ix2 (0 : Fin 1) q) = FloatOps.uitofp (F := Ideal) .f32 (B (ix1 (colOf q))))
    (p : Fin 512) (q : Fin 1024) :
    pairTerm x0 x1 x2 x3 x4 x5 (ix2 p q)
      = Cert.ReferenceIdeal.RefValue.E U (rowOf p) (colOf q) * Cert.ReferenceIdeal.RefValue.negWeight B Q X (rowOf p) (colOf q)
        + Cert.ReferenceIdeal.RefValue.E U (rowOf p) (colOf q) * Cert.ReferenceIdeal.RefValue.posWeight B Q X (rowOf p) (colOf q) := by
  rw [pairTerm_apply]
  unfold tileMask
  rw [h2m, h5, tileSim_eq x0 x1 U rowOf colOf h0 h1 p q]
  refine (PairAlgebra.all_pair _ _ _ (Cert.ReferenceIdeal.RefValue.within Q X (rowOf p) (colOf q))).trans ?_
  rfl

/-- The tile's continuity array is the reference's continuity term. -/
theorem contTerm_join (x0 : Vec Ideal S512x64 .bf16) (x1 : Vec Ideal S1024x64 .bf16) (x2 : Vec Ideal S512x5 .f32)
    (x3 : Vec Ideal S1024x5 .f32) (x4 x5 : Vec Ideal S1x1024 .f32)
    (U : (⟨2, ![8192, 64]⟩ : Shape).Idx → EReal) (B : (⟨1, ![8192]⟩ : Shape).Idx → BitVec 1)
    (Q : (⟨1, ![8192]⟩ : Shape).Idx → EReal) (X : (⟨2, ![8192, 3]⟩ : Shape).Idx → EReal)
    (rowOf : Fin 512 → Fin 8192) (colOf : Fin 1024 → Fin 8192)
    (h0 : ∀ p k, x0 (ix2 p k) = U (ix2 (rowOf p) k)) (h1 : ∀ q k, x1 (ix2 q k) = U (ix2 (colOf q) k))
    (h2c0 : ∀ p, x2 (ix2 p (0 : Fin 5)) = X (ix2 (rowOf p) (0 : Fin 3)))
    (h2c1 : ∀ p, x2 (ix2 p (1 : Fin 5)) = X (ix2 (rowOf p) (1 : Fin 3)))
    (h2c2 : ∀ p, x2 (ix2 p (2 : Fin 5)) = X (ix2 (rowOf p) (2 : Fin 3)))
    (h2n : ∀ p, x2 (ix2 p (3 : Fin 5)) = Q (ix1 (rowOf p)))
    (h2m : ∀ p, x2 (ix2 p (4 : Fin 5)) = FloatOps.uitofp (F := Ideal) .f32 (B (ix1 (rowOf p))))
    (h3c0 : ∀ q, x3 (ix2 q (0 : Fin 5)) = X (ix2 (colOf q) (0 : Fin 3)))
    (h3c1 : ∀ q, x3 (ix2 q (1 : Fin 5)) = X (ix2 (colOf q) (1 : Fin 3)))
    (h3c2 : ∀ q, x3 (ix2 q (2 : Fin 5)) = X (ix2 (colOf q) (2 : Fin 3)))
    (h4 : ∀ q, x4 (ix2 (0 : Fin 1) q) = Q (ix1 (colOf q)))
    (h5 : ∀ q, x5 (ix2 (0 : Fin 1) q) = FloatOps.uitofp (F := Ideal) .f32 (B (ix1 (colOf q))))
    (p : Fin 512) (q : Fin 1024) :
    contTerm x0 x1 x2 x3 x4 x5 (ix2 p q) = Cert.ReferenceIdeal.RefValue.contTerm U B Q X (rowOf p) (colOf q) := by
  rw [contTerm_apply]
  unfold tileMask
  rw [h2m, h5, tileSim_eq x0 x1 U rowOf colOf h0 h1 p q,
    tileSq_eq x2 x3 x4 Q X rowOf colOf h2c0 h2c1 h2c2 h2n h3c0 h3c1 h3c2 h4 p q,
    tileWithin_eq x2 x3 x4 Q X rowOf colOf h2c0 h2c1 h2c2 h2n h3c0 h3c1 h3c2 h4 p q, PairAlgebra.cont_pair]
  rfl

end Cert.KernelIdeal.Hand

end
-- ==== Proof.Bridge.lean ====
/-
  The two programs compute one number.

  The reference's result, read pair by pair, is `total` of the mask count, the sum over rows of the row losses built from
  the positive and negative row sums, and the double sum of the continuity terms. The kernel program's result is the same
  `total` of the same count and of the sums built from the three columns of its statistics table. Column 1 of the table
  is the positive row sum, column 0 the negative plus the positive row sum, column 2 the row's continuity sum: each entry is
  the zero word plus a sum over all column points of a per-pair term, and pair by pair the kernel's term (a product with
  the two mask entries and the distance test, the similarity scaled by the named reciprocal temperature) is the
  reference's (a weight from the conjunction of the bits, the similarity divided by the temperature word).
-/
import proofs.«135098_j86354612453531_2_alg».proof.Proof.RowSums
import proofs.«135098_j86354612453531_2_alg».proof.Proof.EntryReads
import proofs.«135098_j86354612453531_2_alg».proof.Proof.TailRead
import proofs.«135098_j86354612453531_2_alg».proof.Proof.FinalSums
import proofs.«135098_j86354612453531_2_alg».proof.Proof.PairJoin
import proofs.«135098_j86354612453531_2_alg».proof.Proof.RefTail

set_option maxRecDepth 16384

noncomputable section

namespace Cert.KernelIdeal.Hand

open Cert.KernelIdeal.HostValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ) (ρ : Dev nD → PrngReg) (c : Dev nD)

/-- The four arrays every pair is read from: the unit features, the mask bits, the squared norms, the coordinates. -/
abbrev gU : S8192x64.Idx → EReal := unitF (x0 m c)
abbrev gB : S8192.Idx → BitVec 1 := maskBits (x1 m c)
abbrev gQ : S8192.Idx → EReal := sqNorm (x2 m c)
abbrev gX : S8192x3.Idx → EReal := x2 m c

/-- Column 1 of the table is the positive row sum. -/
theorem col_pos (a : Fin 8192) :
    stats m ρ c (ix2 a (1 : Fin 3)) = Ideal.ofBits .f32 0x00000000#32 + ∑ j : Fin 8192, Cert.ReferenceIdeal.RefValue.E (gU m c) a j * Cert.ReferenceIdeal.RefValue.posWeight (gB m c) (gQ m c) (gX m c) a j :=
  table_row (V m ρ) c 1 (fun t p q => posTerm (iblk (V m ρ) c 0 t) (iblk (V m ρ) c 1 t) (iblk (V m ρ) c 2 t) (iblk (V m ρ) c 3 t) (iblk (V m ρ) c 4 t) (iblk (V m ρ) c 5 t) (ix2 p q)) (fun _ _ => rfl)
    (fun i j => Cert.ReferenceIdeal.RefValue.E (gU m c) i j * Cert.ReferenceIdeal.RefValue.posWeight (gB m c) (gQ m c) (gX m c) i j)
    (fun t p q => posTerm_join (iblk (V m ρ) c 0 t) (iblk (V m ρ) c 1 t) (iblk (V m ρ) c 2 t) (iblk (V m ρ) c 3 t) (iblk (V m ρ) c 4 t) (iblk (V m ρ) c 5 t) (gU m c) (gB m c) (gQ m c) (gX m c) (rowPt t) (colPt t)
      (fun p k => (iblk0_apply (V m ρ) c t p k).trans (V_v9_apply m ρ c (rowPt t p) k))
      (fun q k => (iblk1_apply (V m ρ) c t q k).trans (V_v9_apply m ρ c (colPt t q) k))
      (fun p => (iblk2_apply (V m ρ) c t p 0).trans (V_v14_coord0 m ρ c (rowPt t p)))
      (fun p => (iblk2_apply (V m ρ) c t p 1).trans (V_v14_coord1 m ρ c (rowPt t p)))
      (fun p => (iblk2_apply (V m ρ) c t p 2).trans (V_v14_coord2 m ρ c (rowPt t p)))
      (fun p => (iblk2_apply (V m ρ) c t p 3).trans (V_v14_norm m ρ c (rowPt t p)))
      (fun p => (iblk2_apply (V m ρ) c t p 4).trans (V_v14_mask m ρ c (rowPt t p)))
      (fun q => (iblk3_apply (V m ρ) c t q 0).trans (V_v14_coord0 m ρ c (colPt t q)))
      (fun q => (iblk3_apply (V m ρ) c t q 1).trans (V_v14_coord1 m ρ c (colPt t q)))
      (fun q => (iblk3_apply (V m ρ) c t q 2).trans (V_v14_coord2 m ρ c (colPt t q)))
      (fun q => (iblk4_apply (V m ρ) c t q).trans (V_v15_apply m ρ c (colPt t q)))
      (fun q => (iblk5_apply (V m ρ) c t q).trans (V_v16_apply m ρ c (colPt t q))) p q) a

/-- Column 0 of the table is the negative plus the positive row sum. -/
theorem col_all (a : Fin 8192) :
    stats m ρ c (ix2 a (0 : Fin 3)) = Ideal.ofBits .f32 0x00000000#32 + ∑ j : Fin 8192, (Cert.ReferenceIdeal.RefValue.E (gU m c) a j * Cert.ReferenceIdeal.RefValue.negWeight (gB m c) (gQ m c) (gX m c) a j + Cert.ReferenceIdeal.RefValue.E (gU m c) a j * Cert.ReferenceIdeal.RefValue.posWeight (gB m c) (gQ m c) (gX m c) a j) :=
  table_row (V m ρ) c 0 (fun t p q => pairTerm (iblk (V m ρ) c 0 t) (iblk (V m ρ) c 1 t) (iblk (V m ρ) c 2 t) (iblk (V m ρ) c 3 t) (iblk (V m ρ) c 4 t) (iblk (V m ρ) c 5 t) (ix2 p q)) (fun _ _ => rfl)
    (fun i j => Cert.ReferenceIdeal.RefValue.E (gU m c) i j * Cert.ReferenceIdeal.RefValue.negWeight (gB m c) (gQ m c) (gX m c) i j + Cert.ReferenceIdeal.RefValue.E (gU m c) i j * Cert.ReferenceIdeal.RefValue.posWeight (gB m c) (gQ m c) (gX m c) i j)
    (fun t p q => pairTerm_join (iblk (V m ρ) c 0 t) (iblk (V m ρ) c 1 t) (iblk (V m ρ) c 2 t) (iblk (V m ρ) c 3 t) (iblk (V m ρ) c 4 t) (iblk (V m ρ) c 5 t) (gU m c) (gB m c) (gQ m c) (gX m c) (rowPt t) (colPt t)
      (fun p k => (iblk0_apply (V m ρ) c t p k).trans (V_v9_apply m ρ c (rowPt t p) k))
      (fun q k => (iblk1_apply (V m ρ) c t q k).trans (V_v9_apply m ρ c (colPt t q) k))
      (fun p => (iblk2_apply (V m ρ) c t p 0).trans (V_v14_coord0 m ρ c (rowPt t p)))
      (fun p => (iblk2_apply (V m ρ) c t p 1).trans (V_v14_coord1 m ρ c (rowPt t p)))
      (fun p => (iblk2_apply (V m ρ) c t p 2).trans (V_v14_coord2 m ρ c (rowPt t p)))
      (fun p => (iblk2_apply (V m ρ) c t p 3).trans (V_v14_norm m ρ c (rowPt t p)))
      (fun p => (iblk2_apply (V m ρ) c t p 4).trans (V_v14_mask m ρ c (rowPt t p)))
      (fun q => (iblk3_apply (V m ρ) c t q 0).trans (V_v14_coord0 m ρ c (colPt t q)))
      (fun q => (iblk3_apply (V m ρ) c t q 1).trans (V_v14_coord1 m ρ c (colPt t q)))
      (fun q => (iblk3_apply (V m ρ) c t q 2).trans (V_v14_coord2 m ρ c (colPt t q)))
      (fun q => (iblk4_apply (V m ρ) c t q).trans (V_v15_apply m ρ c (colPt t q)))
      (fun q => (iblk5_apply (V m ρ) c t q).trans (V_v16_apply m ρ c (colPt t q))) p q) a

/-- Column 2 of the table is the row's continuity sum. -/
theorem col_cont (a : Fin 8192) :
    stats m ρ c (ix2 a (2 : Fin 3)) = Ideal.ofBits .f32 0x00000000#32 + ∑ j : Fin 8192, Cert.ReferenceIdeal.RefValue.contTerm (gU m c) (gB m c) (gQ m c) (gX m c) a j :=
  table_row (V m ρ) c 2 (fun t p q => contTerm (iblk (V m ρ) c 0 t) (iblk (V m ρ) c 1 t) (iblk (V m ρ) c 2 t) (iblk (V m ρ) c 3 t) (iblk (V m ρ) c 4 t) (iblk (V m ρ) c 5 t) (ix2 p q)) (fun _ _ => rfl)
    (fun i j => Cert.ReferenceIdeal.RefValue.contTerm (gU m c) (gB m c) (gQ m c) (gX m c) i j)
    (fun t p q => contTerm_join (iblk (V m ρ) c 0 t) (iblk (V m ρ) c 1 t) (iblk (V m ρ) c 2 t) (iblk (V m ρ) c 3 t) (iblk (V m ρ) c 4 t) (iblk (V m ρ) c 5 t) (gU m c) (gB m c) (gQ m c) (gX m c) (rowPt t) (colPt t)
      (fun p k => (iblk0_apply (V m ρ) c t p k).trans (V_v9_apply m ρ c (rowPt t p) k))
      (fun q k => (iblk1_apply (V m ρ) c t q k).trans (V_v9_apply m ρ c (colPt t q) k))
      (fun p => (iblk2_apply (V m ρ) c t p 0).trans (V_v14_coord0 m ρ c (rowPt t p)))
      (fun p => (iblk2_apply (V m ρ) c t p 1).trans (V_v14_coord1 m ρ c (rowPt t p)))
      (fun p => (iblk2_apply (V m ρ) c t p 2).trans (V_v14_coord2 m ρ c (rowPt t p)))
      (fun p => (iblk2_apply (V m ρ) c t p 3).trans (V_v14_norm m ρ c (rowPt t p)))
      (fun p => (iblk2_apply (V m ρ) c t p 4).trans (V_v14_mask m ρ c (rowPt t p)))
      (fun q => (iblk3_apply (V m ρ) c t q 0).trans (V_v14_coord0 m ρ c (colPt t q)))
      (fun q => (iblk3_apply (V m ρ) c t q 1).trans (V_v14_coord1 m ρ c (colPt t q)))
      (fun q => (iblk3_apply (V m ρ) c t q 2).trans (V_v14_coord2 m ρ c (colPt t q)))
      (fun q => (iblk4_apply (V m ρ) c t q).trans (V_v15_apply m ρ c (colPt t q)))
      (fun q => (iblk5_apply (V m ρ) c t q).trans (V_v16_apply m ρ c (colPt t q))) p q) a

/-- The kernel program's result is the reference's specification of the same arguments. -/
theorem kernel_result : W7 m ρ c (Proc.devRef .tc main_v38) ix0 = Cert.ReferenceIdeal.RefValue.spec (gU m c) (gB m c) (gQ m c) (gX m c) := by
  rw [W7_result m ρ c]
  refine (tailOf_apply (x1 m c) (stats m ρ c)).trans ?_
  exact FinalSums.close (gU m c) (gB m c) (gQ m c) (gX m c) (stats m ρ c) (col_pos m ρ c) (col_all m ρ c) (col_cont m ρ c)

/-- THE BRIDGE: from memories agreeing on the three arguments, the reference's result term is the kernel program's. -/
theorem result_eq (m' : (ℓ : Loc Cert.ReferenceIdeal.nD Cert.ReferenceIdeal.τ Cert.ReferenceIdeal.sig) → Buf (Elt Ideal) ℓ)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2)) :
    Cert.ReferenceIdeal.Value.res_main_v69 m' c = W7 m ρ c (Proc.devRef .tc main_v38) := by
  funext i0
  obtain rfl : i0 = ix0 := funext fun a => a.elim0
  rw [Cert.ReferenceIdeal.Read.val_main_v69_eq m' c, h0, h1, h2]
  refine (Cert.ReferenceIdeal.RefValue.ref_apply (x0 m c) (x1 m c) (x2 m c)).trans ?_
  exact (kernel_result m ρ c).symm

end Cert.KernelIdeal.Hand

end
-- ==== Proof.lean ====
/-
  The certificate of the pairwise contrastive-and-continuity loss kernel against its reference program.

  N = 8192 points with 64 features, a label and three coordinates each. With B_i the bit "label i is 2", U the features
  scaled to unit rows, Q_i the squared norm of point i's coordinates, and for each pair sim_ij = <U_i, U_j>,
  d_ij = max((Q_i + Q_j) - 2 <x_i, x_j>, 0), the positive pairs those with both bits set and 1e-12 < d_ij < 1, the
  negative pairs those with both bits set and d_ij outside that range, both programs return
  (Σ_i -log(where(B_i, P_i / ((N_i + P_i) + 1e-6), 1)) B_i) / L + 0.5 (Σ_ij |(1 - sim_ij) - sqrt d_ij| [ij positive]) / L²
  with P_i, N_i the sums over j of exp(sim_ij / T) over the positive, negative pairs and L the number of set bits.

  The kernel tiles the 8192 x 8192 pairs into 16 row blocks by 8 column tiles, keeps per row the three running sums
  Σ exp·[both bits], Σ exp·[positive], Σ |…|·[positive] in a scratch, and writes them out at each row block's last tile;
  the reference forms the whole matrices. They differ in arrangement only: the kernel's first column is N_i + P_i summed
  as one (a pair with both bits set is negative or positive, never both), its masks are products of the two mask entries
  and of the distance test as numbers where the reference takes the conjunction of the bits, its square root is of d_ij
  itself where the reference guards the pairs that are not positive (their weight is zero either way), its sums run tile
  by tile, and it multiplies the similarity by the reciprocal of the temperature where the reference divides by it. The
  last is the one place a constant enters: the kernel's factor is named as the exact reciprocal of the reference's
  temperature word, so that s times it is s divided by the word on every extended real. None of these steps needs the
  inputs finite: on the extended reals x·0 = 0 and x·1 = x, and addition is a commutative monoid.

  The frames. Each kernel program is three stretches of host operations, the one region, three more stretches; the region's
  two feature windows sit on one array and its two table windows on another, each array dealt to its two windows at the
  two halves of the full share; between the region's ends only the scratch is carried. The reference's frame is its
  generated run with the result dropped.
-/
import proofs.«135098_j86354612453531_2_alg».proof.Defs
import proofs.«135098_j86354612453531_2_alg».proof.Proof.Gen.Kernel
import proofs.«135098_j86354612453531_2_alg».proof.Proof.Gen.KernelIdeal
import proofs.«135098_j86354612453531_2_alg».proof.Proof.Gen.ReferenceIdeal
import proofs.«135098_j86354612453531_2_alg».proof.Proof.Gen.Pre_finite_inputs
import proofs.«135098_j86354612453531_2_alg».proof.Proof.Gen.ReferenceIdeal.Run
import proofs.«135098_j86354612453531_2_alg».proof.Proof.WordMainFrame
import proofs.«135098_j86354612453531_2_alg».proof.Proof.MainFrame
import proofs.«135098_j86354612453531_2_alg».proof.Proof.Bridge
import Idealize.ShloMosaic.PureOps.IdealRules

noncomputable section

namespace Cert.Proof

open Idealize.ShloMosaic Idealize.SL.Sem

/-- The word-level kernel program runs and leaves its arguments as launched. -/
theorem frame_word : Cert.frame_Kernel := fun m ρ _ => Cert.Kernel.Hand.frame (F := Bits) m ρ

/-- So does its idealization. -/
theorem frame_ideal : Cert.frame_KernelIdeal := fun m ρ _ => Cert.KernelIdeal.Hand.frame (F := Ideal) m ρ

/-- The reference runs and leaves its arguments as launched: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The one rewrite of the idealization: the kernel's factor 10.0 is read as the exact reciprocal 134217728/13421773 of the
    reference's temperature word 13421773/134217728. -/
theorem preserves : Cert.preserves_Kernel_KernelIdeal :=
  IdealRules.named_const.statement Cert.KernelIdeal.κ "inv_temperature" .f32 0x41200000#32 ((134217728 / 13421773 : ℝ) : EReal) rfl

/-- On the extended reals, from memories agreeing on the arguments, the two programs end with one result. -/
theorem algebraic : Cert.algebraic_KernelIdeal_ReferenceIdeal := by
  intro m ρ m' ρ' _ hagree
  refine ⟨fun c => Cert.KernelIdeal.Hand.W7 m ρ c (Proc.devRef .tc Cert.KernelIdeal.main_v38), Cert.KernelIdeal.Hand.run_result (F := Ideal) m ρ, ?_⟩
  refine (θ_run Cert.ReferenceIdeal.defs _ _).mono (fun _ h c => ⟨(h c).1.trans ?_, (h c).2⟩) (Cert.ReferenceIdeal.Value.run (F := Ideal) m' ρ')
  exact Cert.KernelIdeal.Hand.result_eq m ρ c m' (hagree c).1 (hagree c).2.1 (hagree c).2.2

theorem claim : Cert.Claim :=
  ⟨Cert.Kernel.Gen.facts, Cert.KernelIdeal.Gen.facts, Cert.ReferenceIdeal.Gen.facts, Cert.Pre_finite_inputs.Gen.facts,
    frame_word, frame_ideal, frame_reference, preserves, algebraic⟩

end Cert.Proof

end
